-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x4 : Shape := ⟨2, ![50000, 4]⟩
abbrev S2x800000 : Shape := ⟨2, ![2, 800000]⟩
abbrev S4x64 : Shape := ⟨2, ![4, 64]⟩
abbrev S64 : Shape := ⟨1, ![64]⟩
abbrev S3x64x64 : Shape := ⟨3, ![3, 64, 64]⟩
abbrev S3x64 : Shape := ⟨2, ![3, 64]⟩
abbrev S64x1 : Shape := ⟨2, ![64, 1]⟩
abbrev S1 : Shape := ⟨1, ![1]⟩
abbrev S_ : Shape := ⟨0, ![]⟩

class Facts : Prop where
  bcast_S_S50000x4 : S_.BroadcastsInDim S50000x4 (![] : Fin 0 → Fin S50000x4.rank)
  reducesTo_S50000x4_S_d0_1 : S50000x4.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S3x64 .f32) (main_arg6 : FVec F S64x1 .f32) (main_arg7 : FVec F S1 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg5
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x4 .f32) (main_arg1 : IVec S2x800000 32) (main_arg2 : FVec F S4x64 .f32) (main_arg3 : FVec F S64 .f32) (main_arg4 : FVec F S3x64x64 .f32) (main_arg5 : FVec F S3x64 .f32) (main_arg6 : FVec F S64x1 .f32) (main_arg7 : FVec F S1 .f32) : IVec S_ 1 :=
  let main_v0 : FVec F S50000x4 .f32 := Host.absf main_arg0
  let main_cst : FVec F S_ .f32 := constant S_ .f32 0x7F800000#32
  let main_v1 : FVec F S50000x4 .f32 := broadcastInDim S50000x4 ![] bcast_S_S50000x4 main_cst
  let main_v2 : IVec S50000x4 1 := cmpf .olt main_v0 main_v1
  let main_c : IVec S_ 1 := constantI S_ 1 1#1
  let main_v3 : IVec S_ 1 := (fun x v => Host.reduce IntOp.andi x v reducesTo_S50000x4_S_d0_1 h_S_) main_v2 main_c
  let main_v4 : FVec F S4x64 .f32 := Host.absf main_arg2
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x64x64 .f32 := Host.absf main_arg4
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg5 main_arg6 main_arg7 main_v13 main_v16
-- ==== Kernel.lean ====
abbrev S50000x4 : Shape := ⟨2, ![50000, 4]⟩
abbrev S2x800000 : Shape := ⟨2, ![2, 800000]⟩
abbrev S4x64 : Shape := ⟨2, ![4, 64]⟩
abbrev S64 : Shape := ⟨1, ![64]⟩
abbrev S3x64x64 : Shape := ⟨3, ![3, 64, 64]⟩
abbrev S3x64 : Shape := ⟨2, ![3, 64]⟩
abbrev S64x1 : Shape := ⟨2, ![64, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x4 : Shape := ⟨2, ![1, 4]⟩
abbrev S50000x64 : Shape := ⟨2, ![50000, 64]⟩
abbrev S5000x4 : Shape := ⟨2, ![5000, 4]⟩
abbrev S5000x64 : Shape := ⟨2, ![5000, 64]⟩
abbrev S850000x64 : Shape := ⟨2, ![850000, 64]⟩
abbrev S1x64 : Shape := ⟨2, ![1, 64]⟩
abbrev S1x64x64 : Shape := ⟨3, ![1, 64, 64]⟩
abbrev S64x64 : Shape := ⟨2, ![64, 64]⟩
abbrev S50000x1 : Shape := ⟨2, ![50000, 1]⟩
abbrev S5000x1 : Shape := ⟨2, ![5000, 1]⟩
abbrev S1x1 : Shape := ⟨2, ![1, 1]⟩

abbrev nBuf : Space → Nat
  | .hbm => 146
  | .vmem => 30
  | .smem => 0
  | _ => 0

abbrev hbmTy0_0 (i : Nat) : BufTy := match i % 128 with
  | 0 => ⟨S50000x4, .f32⟩
  | 1 => ⟨S2x800000, .i32⟩
  | 2 => ⟨S4x64, .f32⟩
  | 3 => ⟨S64, .f32⟩
  | 4 => ⟨S3x64x64, .f32⟩
  | 5 => ⟨S3x64, .f32⟩
  | 6 => ⟨S64x1, .f32⟩
  | 7 => ⟨S1, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S50000, .f32⟩
  | 22 => ⟨S_, .i32⟩
  | 23 => ⟨S850000, .i32⟩
  | 24 => ⟨S850000, .i1⟩
  | 25 => ⟨S_, .i32⟩
  | 26 => ⟨S850000, .i32⟩
  | 27 => ⟨S850000, .i32⟩
  | 28 => ⟨S850000, .i32⟩
  | 29 => ⟨S850000x1, .i32⟩
  | 30 => ⟨S850000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S850000, .f32⟩
  | 41 => ⟨S_, .f32⟩
  | 42 => ⟨S1x4, .f32⟩
  | 43 => ⟨S50000x64, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000x64, .f32⟩
  | 53 => ⟨S850000x1, .f32⟩
  | 54 => ⟨S850000x64, .f32⟩
  | 55 => ⟨S850000x64, .f32⟩
  | 56 => ⟨S_, .f32⟩
  | 57 => ⟨S50000x64, .f32⟩
  | 58 => ⟨S850000x1, .i32⟩
  | 59 => ⟨S50000x64, .f32⟩
  | 60 => ⟨S1x64, .f32⟩
  | 61 => ⟨S1x64x64, .f32⟩
  | 62 => ⟨S64x64, .f32⟩
  | 63 => ⟨S50000x64, .f32⟩
  | 64 => ⟨S_, .i32⟩
  | 65 => ⟨S850000, .i32⟩
  | 66 => ⟨S850000, .i1⟩
  | 67 => ⟨S_, .i32⟩
  | 68 => ⟨S850000, .i32⟩
  | 69 => ⟨S850000, .i32⟩
  | 70 => ⟨S850000, .i32⟩
  | 71 => ⟨S850000x1, .i32⟩
  | 72 => ⟨S850000x64, .f32⟩
  | 73 => ⟨S850000x1, .f32⟩
  | 74 => ⟨S850000x64, .f32⟩
  | 75 => ⟨S850000x64, .f32⟩
  | 76 => ⟨S_, .f32⟩
  | 77 => ⟨S50000x64, .f32⟩
  | 78 => ⟨S850000x1, .i32⟩
  | 79 => ⟨S50000x64, .f32⟩
  | 80 => ⟨S1x64, .f32⟩
  | 81 => ⟨S64, .f32⟩
  | 82 => ⟨S1x64, .f32⟩
  | 83 => ⟨S1x64x64, .f32⟩
  | 84 => ⟨S64x64, .f32⟩
  | 85 => ⟨S50000x64, .f32⟩
  | 86 => ⟨S_, .i32⟩
  | 87 => ⟨S850000, .i32⟩
  | 88 => ⟨S850000, .i1⟩
  | 89 => ⟨S_, .i32⟩
  | 90 => ⟨S850000, .i32⟩
  | 91 => ⟨S850000, .i32⟩
  | 92 => ⟨S850000, .i32⟩
  | 93 => ⟨S850000x1, .i32⟩
  | 94 => ⟨S850000x64, .f32⟩
  | 95 => ⟨S850000x1, .f32⟩
  | 96 => ⟨S850000x64, .f32⟩
  | 97 => ⟨S850000x64, .f32⟩
  | 98 => ⟨S_, .f32⟩
  | 99 => ⟨S50000x64, .f32⟩
  | 100 => ⟨S850000x1, .i32⟩
  | 101 => ⟨S50000x64, .f32⟩
  | 102 => ⟨S1x64, .f32⟩
  | 103 => ⟨S64, .f32⟩
  | 104 => ⟨S1x64, .f32⟩
  | 105 => ⟨S1x64x64, .f32⟩
  | 106 => ⟨S64x64, .f32⟩
  | 107 => ⟨S50000x64, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000x64, .f32⟩
  | 117 => ⟨S850000x1, .f32⟩
  | 118 => ⟨S850000x64, .f32⟩
  | 119 => ⟨S850000x64, .f32⟩
  | 120 => ⟨S_, .f32⟩
  | 121 => ⟨S50000x64, .f32⟩
  | 122 => ⟨S850000x1, .i32⟩
  | 123 => ⟨S50000x64, .f32⟩
  | 124 => ⟨S1x64, .f32⟩
  | 125 => ⟨S64, .f32⟩
  | 126 => ⟨S1x64, .f32⟩
  | 127 => ⟨S50000x1, .f32⟩
  | _ => ⟨S50000x4, .f32⟩

abbrev hbmTy0_1 (i : Nat) : BufTy := match i % 128 with
  | 0 => ⟨S_, .i32⟩
  | 1 => ⟨S850000, .i32⟩
  | 2 => ⟨S850000, .i1⟩
  | 3 => ⟨S_, .i32⟩
  | 4 => ⟨S850000, .i32⟩
  | 5 => ⟨S850000, .i32⟩
  | 6 => ⟨S850000, .i32⟩
  | 7 => ⟨S850000x1, .i32⟩
  | 8 => ⟨S850000x1, .f32⟩
  | 9 => ⟨S850000x1, .f32⟩
  | 10 => ⟨S850000x1, .f32⟩
  | 11 => ⟨S_, .f32⟩
  | 12 => ⟨S50000x1, .f32⟩
  | 13 => ⟨S850000x1, .i32⟩
  | 14 => ⟨S50000x1, .f32⟩
  | 15 => ⟨S1x1, .f32⟩
  | 16 => ⟨S50000x1, .f32⟩
  | 17 => ⟨S50000x1, .f32⟩
  | _ => ⟨S50000x4, .f32⟩

abbrev hbmTy (i : Nat) : BufTy := match i / 128 with
  | 0 => hbmTy0_0 i
  | 1 => hbmTy0_1 i
  | _ => ⟨S50000x4, .f32⟩

abbrev bufTy : (tb : Table) → Fin (tcTables nBuf tb) → BufTy
  | .hbm, ⟨i, _⟩ => hbmTy i
  | .local _ .vmem, ⟨0, _⟩ => ⟨S5000x4, .f32⟩
  | .local _ .vmem, ⟨1, _⟩ => ⟨S5000x4, .f32⟩
  | .local _ .vmem, ⟨2, _⟩ => ⟨S1x4, .f32⟩
  | .local _ .vmem, ⟨3, _⟩ => ⟨S4x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S1x64, .f32⟩
  | .local _ .vmem, ⟨9, _⟩ => ⟨S64x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S1x64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S1x64, .f32⟩
  | .local _ .vmem, ⟨21, _⟩ => ⟨S64x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S1x64, .f32⟩
  | .local _ .vmem, ⟨27, _⟩ => ⟨S64x1, .f32⟩
  | .local _ .vmem, ⟨28, _⟩ => ⟨S5000x1, .f32⟩
  | .local _ .vmem, ⟨29, _⟩ => ⟨S5000x1, .f32⟩
  | _, _ => ⟨S50000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_8 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_c_11 : Ref sig .tc := ⟨.hbm, 86, rfl⟩
abbrev main_v65 : Ref sig .tc := ⟨.hbm, 87, rfl⟩
abbrev main_v66 : Ref sig .tc := ⟨.hbm, 88, rfl⟩
abbrev main_c_12 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_13 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_c_14 : Ref sig .tc := ⟨.hbm, 108, rfl⟩
abbrev main_v84 : Ref sig .tc := ⟨.hbm, 109, rfl⟩
abbrev main_v85 : Ref sig .tc := ⟨.hbm, 110, rfl⟩
abbrev main_c_15 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_16 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_c_17 : Ref sig .tc := ⟨.hbm, 128, rfl⟩
abbrev main_v101 : Ref sig .tc := ⟨.hbm, 129, rfl⟩
abbrev main_v102 : Ref sig .tc := ⟨.hbm, 130, rfl⟩
abbrev main_c_18 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_cst_19 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S1x4 : S_.BroadcastsInDim S1x4 (![] : Fin 0 → Fin S1x4.rank)
  inb_S5000x4_S5000x4_0_0 : ∀ a, (![0, 0] : Fin 2 → Nat) a + S5000x4.size a ≤ S5000x4.size a
  h_S5000x4 : 0 < S5000x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S5000x4 : S1x4.Broadcasts S5000x4
  bitsLt_bf16_f32 : FTy.bits .bf16 < FTy.bits .f32
  inb_S4x64_S4x64_0_0 : ∀ a, (![0, 0] : Fin 2 → Nat) a + S4x64.size a ≤ S4x64.size a
  h_S4x64 : 0 < S4x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  slices_S3x64x64_S1x64x64_0_0_0 : S3x64x64.Slices ![0, 0, 0] S1x64x64
  shapeCasts_S1x64x64_S64x64 : S1x64x64.ShapeCasts S64x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S3x64_S1x64_0_0 : S3x64.Slices ![0, 0] S1x64
  shapeCasts_S1x64_S64 : S1x64.ShapeCasts S64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  inb_S64x1_S64x1_0_0 : ∀ a, (![0, 0] : Fin 2 → Nat) a + S64x1.size a ≤ S64x1.size a
  h_S64x1 : 0 < S64x1.numel
  inb_S5000x1_S5000x1_0_0 : ∀ a, (![0, 0] : Fin 2 → Nat) a + S5000x1.size a ≤ S5000x1.size a
  h_S5000x1 : 0 < S5000x1.numel
  bcast_S_S50000x1 : S_.BroadcastsInDim S50000x1 (![] : Fin 0 → Fin S50000x1.rank)
  shapeCasts_S1_S1x1 : S1.ShapeCasts S1x1
  bcast_S1x1_S50000x1_0_1 : S1x1.BroadcastsInDim S50000x1 (![0, 1] : Fin 2 → Fin S50000x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x4_S4x64_S5000x64_1_0_0_1_n_n_wf : DotDims.WF S5000x4 S4x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  gather_S50000x1_S850000x1_S850000x1_1_0_n_n_0_1_11_wf : GatherDims.WF S50000x1 S850000x1 S850000x1 [1] [0] [] [0] [] 1 ![1, 1]
  scatter_S50000x1_S850000x1_S850000x1_1_0_0_1_wf : ScatterDims.WF S50000x1 S850000x1 S850000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x4.size a ≤ S50000x4.size a
  hwx0_0 : ∀ i : grid0.Coords, EltTy.bits .f32 = 32 ∨ (Rect.block (s := S50000x4) S5000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4.size a ≤ S1x4.size a
  hwx0_1 : ∀ i : grid0.Coords, EltTy.bits .f32 = 32 ∨ (Rect.block (s := S1x4) S1x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x64.size a ≤ S4x64.size a
  hwx0_2 : ∀ i : grid0.Coords, EltTy.bits .f32 = 32 ∨ (Rect.block (s := S4x64) S4x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x1.size a ≤ S64x1.size a
  hwx4_2 : ∀ i : grid4.Coords, EltTy.bits .f32 = 32 ∨ (Rect.block (s := S64x1) S64x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x1.size a ≤ S50000x1.size a
  hwx4_3 : ∀ i : grid4.Coords, EltTy.bits .f32 = 32 ∨ (Rect.block (s := S50000x1) S5000x1.size (cc4_transform_3 i) (hinb4_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x4_S4x64_S5000x64_1_0_0_1_n_n : DotDims S5000x4 S4x64 S5000x64 where
  lhsContracting := [1]
  rhsContracting := [0]
  lhsNonContracting := [0]
  rhsNonContracting := [1]
  lhsBatch := []
  rhsBatch := []
  wf := dot_S5000x4_S4x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf
def gather_S50000x1_S850000x1_S850000x1_1_0_n_n_0_1_11 : GatherDims S50000x1 S850000x1 S850000x1 where
  offsetDims := [1]
  collapsedSliceDims := [0]
  operandBatchingDims := []
  startIndicesBatchingDims := []
  startIndexMap := [0]
  indexVectorDim := 1
  sliceSizes := ![1, 1]
  wf := gather_S50000x1_S850000x1_S850000x1_1_0_n_n_0_1_11_wf
def scatter_S50000x1_S850000x1_S850000x1_1_0_0_1 : ScatterDims S50000x1 S850000x1 S850000x1 where
  updateWindowDims := [1]
  insertedWindowDims := [0]
  scatterDimsToOperandDims := [0]
  indexVectorDim := 1
  wf := scatter_S50000x1_S850000x1_S850000x1_1_0_0_1_wf

abbrev win0_0 : Pipeline.Window sig grid0 :=
  Pipeline.Window.ofSpec (Memref.whole main_arg0) S5000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S1x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v41) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v63) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v77) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v80) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v82) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v83) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v96) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v99) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg6) S64x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v100) S5000x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x4 : Shape := ⟨2, ![50000, 4]⟩
abbrev S2x800000 : Shape := ⟨2, ![2, 800000]⟩
abbrev S4x64 : Shape := ⟨2, ![4, 64]⟩
abbrev S64 : Shape := ⟨1, ![64]⟩
abbrev S3x64x64 : Shape := ⟨3, ![3, 64, 64]⟩
abbrev S3x64 : Shape := ⟨2, ![3, 64]⟩
abbrev S64x1 : Shape := ⟨2, ![64, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S1x64x64 : Shape := ⟨3, ![1, 64, 64]⟩
abbrev S64x64 : Shape := ⟨2, ![64, 64]⟩
abbrev S50000x1 : Shape := ⟨2, ![50000, 1]⟩
abbrev S1x1 : Shape := ⟨2, ![1, 1]⟩

abbrev nBuf : Space → Nat
  | .hbm => 164
  | .vmem => 0
  | .smem => 0
  | _ => 0

abbrev hbmTy0_0 (i : Nat) : BufTy := match i % 128 with
  | 0 => ⟨S50000x4, .f32⟩
  | 1 => ⟨S2x800000, .i32⟩
  | 2 => ⟨S4x64, .f32⟩
  | 3 => ⟨S64, .f32⟩
  | 4 => ⟨S3x64x64, .f32⟩
  | 5 => ⟨S3x64, .f32⟩
  | 6 => ⟨S64x1, .f32⟩
  | 7 => ⟨S1, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S50000, .f32⟩
  | 22 => ⟨S_, .i32⟩
  | 23 => ⟨S850000, .i32⟩
  | 24 => ⟨S850000, .i1⟩
  | 25 => ⟨S_, .i32⟩
  | 26 => ⟨S850000, .i32⟩
  | 27 => ⟨S850000, .i32⟩
  | 28 => ⟨S850000, .i32⟩
  | 29 => ⟨S850000x1, .i32⟩
  | 30 => ⟨S850000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S850000, .f32⟩
  | 41 => ⟨S50000x64, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000x64, .f32⟩
  | 51 => ⟨S850000x1, .f32⟩
  | 52 => ⟨S850000x64, .f32⟩
  | 53 => ⟨S850000x64, .f32⟩
  | 54 => ⟨S_, .f32⟩
  | 55 => ⟨S50000x64, .f32⟩
  | 56 => ⟨S850000x1, .i32⟩
  | 57 => ⟨S50000x64, .f32⟩
  | 58 => ⟨S1x64, .f32⟩
  | 59 => ⟨S50000x64, .f32⟩
  | 60 => ⟨S50000x64, .f32⟩
  | 61 => ⟨S_, .f32⟩
  | 62 => ⟨S50000x64, .f32⟩
  | 63 => ⟨S50000x64, .f32⟩
  | 64 => ⟨S1x64x64, .f32⟩
  | 65 => ⟨S64x64, .f32⟩
  | 66 => ⟨S1x64, .f32⟩
  | 67 => ⟨S64, .f32⟩
  | 68 => ⟨S50000x64, .f32⟩
  | 69 => ⟨S_, .i32⟩
  | 70 => ⟨S850000, .i32⟩
  | 71 => ⟨S850000, .i1⟩
  | 72 => ⟨S_, .i32⟩
  | 73 => ⟨S850000, .i32⟩
  | 74 => ⟨S850000, .i32⟩
  | 75 => ⟨S850000, .i32⟩
  | 76 => ⟨S850000x1, .i32⟩
  | 77 => ⟨S850000x64, .f32⟩
  | 78 => ⟨S850000x1, .f32⟩
  | 79 => ⟨S850000x64, .f32⟩
  | 80 => ⟨S850000x64, .f32⟩
  | 81 => ⟨S_, .f32⟩
  | 82 => ⟨S50000x64, .f32⟩
  | 83 => ⟨S850000x1, .i32⟩
  | 84 => ⟨S50000x64, .f32⟩
  | 85 => ⟨S1x64, .f32⟩
  | 86 => ⟨S50000x64, .f32⟩
  | 87 => ⟨S50000x64, .f32⟩
  | 88 => ⟨S_, .f32⟩
  | 89 => ⟨S50000x64, .f32⟩
  | 90 => ⟨S50000x64, .f32⟩
  | 91 => ⟨S1x64x64, .f32⟩
  | 92 => ⟨S64x64, .f32⟩
  | 93 => ⟨S1x64, .f32⟩
  | 94 => ⟨S64, .f32⟩
  | 95 => ⟨S50000x64, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000x64, .f32⟩
  | 105 => ⟨S850000x1, .f32⟩
  | 106 => ⟨S850000x64, .f32⟩
  | 107 => ⟨S850000x64, .f32⟩
  | 108 => ⟨S_, .f32⟩
  | 109 => ⟨S50000x64, .f32⟩
  | 110 => ⟨S850000x1, .i32⟩
  | 111 => ⟨S50000x64, .f32⟩
  | 112 => ⟨S1x64, .f32⟩
  | 113 => ⟨S50000x64, .f32⟩
  | 114 => ⟨S50000x64, .f32⟩
  | 115 => ⟨S_, .f32⟩
  | 116 => ⟨S50000x64, .f32⟩
  | 117 => ⟨S50000x64, .f32⟩
  | 118 => ⟨S1x64x64, .f32⟩
  | 119 => ⟨S64x64, .f32⟩
  | 120 => ⟨S1x64, .f32⟩
  | 121 => ⟨S64, .f32⟩
  | 122 => ⟨S50000x64, .f32⟩
  | 123 => ⟨S_, .i32⟩
  | 124 => ⟨S850000, .i32⟩
  | 125 => ⟨S850000, .i1⟩
  | 126 => ⟨S_, .i32⟩
  | 127 => ⟨S850000, .i32⟩
  | _ => ⟨S50000x4, .f32⟩

abbrev hbmTy0_1 (i : Nat) : BufTy := match i % 128 with
  | 0 => ⟨S850000, .i32⟩
  | 1 => ⟨S850000, .i32⟩
  | 2 => ⟨S850000x1, .i32⟩
  | 3 => ⟨S850000x64, .f32⟩
  | 4 => ⟨S850000x1, .f32⟩
  | 5 => ⟨S850000x64, .f32⟩
  | 6 => ⟨S850000x64, .f32⟩
  | 7 => ⟨S_, .f32⟩
  | 8 => ⟨S50000x64, .f32⟩
  | 9 => ⟨S850000x1, .i32⟩
  | 10 => ⟨S50000x64, .f32⟩
  | 11 => ⟨S1x64, .f32⟩
  | 12 => ⟨S50000x64, .f32⟩
  | 13 => ⟨S50000x64, .f32⟩
  | 14 => ⟨S_, .f32⟩
  | 15 => ⟨S50000x64, .f32⟩
  | 16 => ⟨S50000x64, .f32⟩
  | 17 => ⟨S50000x1, .f32⟩
  | 18 => ⟨S_, .i32⟩
  | 19 => ⟨S850000, .i32⟩
  | 20 => ⟨S850000, .i1⟩
  | 21 => ⟨S_, .i32⟩
  | 22 => ⟨S850000, .i32⟩
  | 23 => ⟨S850000, .i32⟩
  | 24 => ⟨S850000, .i32⟩
  | 25 => ⟨S850000x1, .i32⟩
  | 26 => ⟨S850000x1, .f32⟩
  | 27 => ⟨S850000x1, .f32⟩
  | 28 => ⟨S850000x1, .f32⟩
  | 29 => ⟨S_, .f32⟩
  | 30 => ⟨S50000x1, .f32⟩
  | 31 => ⟨S850000x1, .i32⟩
  | 32 => ⟨S50000x1, .f32⟩
  | 33 => ⟨S1x1, .f32⟩
  | 34 => ⟨S50000x1, .f32⟩
  | 35 => ⟨S50000x1, .f32⟩
  | _ => ⟨S50000x4, .f32⟩

abbrev hbmTy (i : Nat) : BufTy := match i / 128 with
  | 0 => hbmTy0_0 i
  | 1 => hbmTy0_1 i
  | _ => ⟨S50000x4, .f32⟩

abbrev bufTy : (tb : Table) → Fin (tcTables nBuf tb) → BufTy
  | .hbm, ⟨i, _⟩ => hbmTy i
  | _, _ => ⟨S50000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_7 : Ref sig .tc := ⟨.hbm, 69, rfl⟩
abbrev main_v50 : Ref sig .tc := ⟨.hbm, 70, rfl⟩
abbrev main_v51 : Ref sig .tc := ⟨.hbm, 71, rfl⟩
abbrev main_c_8 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_9 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_call1_cst : Ref sig .tc := ⟨.hbm, 88, rfl⟩
abbrev main_call1_v0 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_c_10 : Ref sig .tc := ⟨.hbm, 96, rfl⟩
abbrev main_v72 : Ref sig .tc := ⟨.hbm, 97, rfl⟩
abbrev main_v73 : Ref sig .tc := ⟨.hbm, 98, rfl⟩
abbrev main_c_11 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_12 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_call2_cst : Ref sig .tc := ⟨.hbm, 115, rfl⟩
abbrev main_call2_v0 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_c_13 : Ref sig .tc := ⟨.hbm, 123, rfl⟩
abbrev main_v94 : Ref sig .tc := ⟨.hbm, 124, rfl⟩
abbrev main_v95 : Ref sig .tc := ⟨.hbm, 125, rfl⟩
abbrev main_c_14 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_15 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_call3_cst : Ref sig .tc := ⟨.hbm, 142, rfl⟩
abbrev main_call3_v0 : Ref sig .tc := ⟨.hbm, 143, rfl⟩
abbrev main_v110 : Ref sig .tc := ⟨.hbm, 144, rfl⟩
abbrev main_v111 : Ref sig .tc := ⟨.hbm, 145, rfl⟩
abbrev main_c_16 : Ref sig .tc := ⟨.hbm, 146, rfl⟩
abbrev main_v112 : Ref sig .tc := ⟨.hbm, 147, rfl⟩
abbrev main_v113 : Ref sig .tc := ⟨.hbm, 148, rfl⟩
abbrev main_c_17 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_cst_18 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x4_S4x64_S50000x64_1_0_0_1_n_n_wf : DotDims.WF S50000x4 S4x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  dot_S50000x64_S64x1_S50000x1_1_0_0_1_n_n_wf : DotDims.WF S50000x64 S64x1 S50000x1 [1] [0] [0] [1] [] []
  gather_S50000x1_S850000x1_S850000x1_1_0_n_n_0_1_11_wf : GatherDims.WF S50000x1 S850000x1 S850000x1 [1] [0] [] [0] [] 1 ![1, 1]
  scatter_S50000x1_S850000x1_S850000x1_1_0_0_1_wf : ScatterDims.WF S50000x1 S850000x1 S850000x1 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x4_S4x64_S50000x64_1_0_0_1_n_n : DotDims S50000x4 S4x64 S50000x64 where
  lhsContracting := [1]
  rhsContracting := [0]
  lhsNonContracting := [0]
  rhsNonContracting := [1]
  lhsBatch := []
  rhsBatch := []
  wf := dot_S50000x4_S4x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf
def gather_S50000x1_S850000x1_S850000x1_1_0_n_n_0_1_11 : GatherDims S50000x1 S850000x1 S850000x1 where
  offsetDims := [1]
  collapsedSliceDims := [0]
  operandBatchingDims := []
  startIndicesBatchingDims := []
  startIndexMap := [0]
  indexVectorDim := 1
  sliceSizes := ![1, 1]
  wf := gather_S50000x1_S850000x1_S850000x1_1_0_n_n_0_1_11_wf
def scatter_S50000x1_S850000x1_S850000x1_1_0_0_1 : ScatterDims S50000x1 S850000x1 S850000x1 where
  updateWindowDims := [1]
  insertedWindowDims := [0]
  scatterDimsToOperandDims := [0]
  indexVectorDim := 1
  wf := scatter_S50000x1_S850000x1_S850000x1_1_0_0_1_wf

class Facts : Prop extends Facts₀ where

variable [Facts]
-- ==== Proof.StagesK.lean ====
/-
  The host stretches of the idealized kernel program as functions.

  Between its five launches the program runs the same host operations a graph convolution needs: it builds the edge
  sources and targets (the edge list with a self loop appended per node), the symmetric edge weights from the
  in-degrees, and after each launch gathers the launch's rows along the edges, scales them by the edge weights and sums
  them into their target nodes; it also cuts the bias rows and weight matrices out of the stacked parameter arrays.
  Each function below is one of those results as a function of the arrays it is computed from, spelt with the
  program's own operations in the program's own order.
-/
import proofs.«165181_j2379411882474_1_alg».proof.Proof.Gen.KernelIdeal

noncomputable section

namespace Cert.KernelIdeal.Stages

open Cert.KernelIdeal Cert.KernelIdeal.Gen Idealize.ShloMosaic Idealize.ShloMosaic.TcCoe Idealize.SL.Sem

variable {F : FTy → Type} [FloatOps F]

/-- The edge sources: row 0 of the edge list followed by the node numbers 0 … 49999 (the self loops). -/
def src (e : (⟨S2x800000, .i32⟩ : BufTy).Contents (Elt F)) :
    (⟨S850000, .i32⟩ : BufTy).Contents (Elt F) :=
  (((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) (shapeCast _ (((extractStridedSlice S1x800000 ![0, 0] · slices_S2x800000_S1x800000_0_0) : (⟨S2x800000, .i32⟩ : BufTy).Contents (Elt F) → (⟨S1x800000, .i32⟩ : BufTy).Contents (Elt F)) e) shapeCasts_S1x800000_S800000) ((iotaInDim S50000 32 0)))
/-- The edge targets: row 1 of the edge list followed by the node numbers 0 … 49999 (the self loops). -/
def dst (e : (⟨S2x800000, .i32⟩ : BufTy).Contents (Elt F)) :
    (⟨S850000, .i32⟩ : BufTy).Contents (Elt F) :=
  (((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) (shapeCast _ (((extractStridedSlice S1x800000 ![1, 0] · slices_S2x800000_S1x800000_1_0) : (⟨S2x800000, .i32⟩ : BufTy).Contents (Elt F) → (⟨S1x800000, .i32⟩ : BufTy).Contents (Elt F)) e) shapeCasts_S1x800000_S800000) ((iotaInDim S50000 32 0)))
/-- The edge weights: the inverse square root of the in-degree (the count of edges into a node) gathered at the source times the same gathered at the target. -/
def norm (s : (⟨S850000, .i32⟩ : BufTy).Contents (Elt F)) (d : (⟨S850000, .i32⟩ : BufTy).Contents (Elt F)) :
    (⟨S850000, .f32⟩ : BufTy).Contents (Elt F) :=
  ((mulf : (⟨S850000, .f32⟩ : BufTy).Contents (Elt F) → (⟨S850000, .f32⟩ : BufTy).Contents (Elt F) → (⟨S850000, .f32⟩ : BufTy).Contents (Elt F)) (((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)) ((Host.rsqrt : (⟨S50000, .f32⟩ : BufTy).Contents (Elt F) → (⟨S50000, .f32⟩ : BufTy).Contents (Elt F)) (((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) ((constant (F := F) S_ .f32 0x00000000#32))) ((broadcastInDim S850000x1 ![0] bcast_S850000_S850000x1_0 : (⟨S850000, .i32⟩ : BufTy).Contents (Elt F) → (⟨S850000x1, .i32⟩ : BufTy).Contents (Elt F)) d) ((broadcastInDim S850000 ![] bcast_S_S850000 : (⟨S_, .f32⟩ : BufTy).Contents (Elt F) → (⟨S850000, .f32⟩ : BufTy).Contents (Elt F)) ((constant (F := F) S_ .f32 0x3F800000#32))))) ((broadcastInDim S850000x1 ![0] bcast_S850000_S850000x1_0 : (⟨S850000, .i32⟩ : BufTy).Contents (Elt F) → (⟨S850000x1, .i32⟩ : BufTy).Contents (Elt F)) ((select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) ((cmpi .slt : (⟨S850000, .i32⟩ : BufTy).Contents (Elt F) → (⟨S850000, .i32⟩ : BufTy).Contents (Elt F) → (⟨S850000, .i1⟩ : BufTy).Contents (Elt F)) s ((broadcastInDim S850000 ![] bcast_S_S850000 : (⟨S_, .i32⟩ : BufTy).Contents (Elt F) → (⟨S850000, .i32⟩ : BufTy).Contents (Elt F)) ((constantI S_ 32 0#32)))) ((addi : (⟨S850000, .i32⟩ : BufTy).Contents (Elt F) → (⟨S850000, .i32⟩ : BufTy).Contents (Elt F) → (⟨S850000, .i32⟩ : BufTy).Contents (Elt F)) s ((broadcastInDim S850000 ![] bcast_S_S850000 : (⟨S_, .i32⟩ : BufTy).Contents (Elt F) → (⟨S850000, .i32⟩ : BufTy).Contents (Elt F)) ((constantI S_ 32 50000#32)))) s))) (((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)) ((Host.rsqrt : (⟨S50000, .f32⟩ : BufTy).Contents (Elt F) → (⟨S50000, .f32⟩ : BufTy).Contents (Elt F)) (((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) ((constant (F := F) S_ .f32 0x00000000#32))) ((broadcastInDim S850000x1 ![0] bcast_S850000_S850000x1_0 : (⟨S850000, .i32⟩ : BufTy).Contents (Elt F) → (⟨S850000x1, .i32⟩ : BufTy).Contents (Elt F)) d) ((broadcastInDim S850000 ![] bcast_S_S850000 : (⟨S_, .f32⟩ : BufTy).Contents (Elt F) → (⟨S850000, .f32⟩ : BufTy).Contents (Elt F)) ((constant (F := F) S_ .f32 0x3F800000#32))))) ((broadcastInDim S850000x1 ![0] bcast_S850000_S850000x1_0 : (⟨S850000, .i32⟩ : BufTy).Contents (Elt F) → (⟨S850000x1, .i32⟩ : BufTy).Contents (Elt F)) ((select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) ((cmpi .slt : (⟨S850000, .i32⟩ : BufTy).Contents (Elt F) → (⟨S850000, .i32⟩ : BufTy).Contents (Elt F) → (⟨S850000, .i1⟩ : BufTy).Contents (Elt F)) d ((broadcastInDim S850000 ![] bcast_S_S850000 : (⟨S_, .i32⟩ : BufTy).Contents (Elt F) → (⟨S850000, .i32⟩ : BufTy).Contents (Elt F)) ((constantI S_ 32 0#32)))) ((addi : (⟨S850000, .i32⟩ : BufTy).Contents (Elt F) → (⟨S850000, .i32⟩ : BufTy).Contents (Elt F) → (⟨S850000, .i32⟩ : BufTy).Contents (Elt F)) d ((broadcastInDim S850000 ![] bcast_S_S850000 : (⟨S_, .i32⟩ : BufTy).Contents (Elt F) → (⟨S850000, .i32⟩ : BufTy).Contents (Elt F)) ((constantI S_ 32 50000#32)))) d))))
/-- The all-zero bias row of the first launch. -/
def zrow  :
    (⟨S1x4, .f32⟩ : BufTy).Contents (Elt F) :=
  ((broadcastInDim S1x4 ![] bcast_S_S1x4 : (⟨S_, .f32⟩ : BufTy).Contents (Elt F) → (⟨S1x4, .f32⟩ : BufTy).Contents (Elt F)) ((constant (F := F) S_ .f32 0x00000000#32)))
/-- Aggregation 1: every edge carries its source's row of h scaled by the edge weight, and the rows arriving at a node are summed. -/
def agg1 (h : (⟨S50000x64, .f32⟩ : BufTy).Contents (Elt F)) (s : (⟨S850000, .i32⟩ : BufTy).Contents (Elt F)) (d : (⟨S850000, .i32⟩ : BufTy).Contents (Elt F)) (n : (⟨S850000, .f32⟩ : BufTy).Contents (Elt F)) :
    (⟨S50000x64, .f32⟩ : BufTy).Contents (Elt F) :=
  (((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)) ((broadcastInDim S50000x64 ![] bcast_S_S50000x64 : (⟨S_, .f32⟩ : BufTy).Contents (Elt F) → (⟨S50000x64, .f32⟩ : BufTy).Contents (Elt F)) ((constant (F := F) S_ .f32 0x00000000#32))) ((broadcastInDim S850000x1 ![0] bcast_S850000_S850000x1_0 : (⟨S850000, .i32⟩ : BufTy).Contents (Elt F) → (⟨S850000x1, .i32⟩ : BufTy).Contents (Elt F)) d) ((mulf : (⟨S850000x64, .f32⟩ : BufTy).Contents (Elt F) → (⟨S850000x64, .f32⟩ : BufTy).Contents (Elt F) → (⟨S850000x64, .f32⟩ : BufTy).Contents (Elt F)) (((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)) h ((broadcastInDim S850000x1 ![0] bcast_S850000_S850000x1_0 : (⟨S850000, .i32⟩ : BufTy).Contents (Elt F) → (⟨S850000x1, .i32⟩ : BufTy).Contents (Elt F)) ((select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) ((cmpi .slt : (⟨S850000, .i32⟩ : BufTy).Contents (Elt F) → (⟨S850000, .i32⟩ : BufTy).Contents (Elt F) → (⟨S850000, .i1⟩ : BufTy).Contents (Elt F)) s ((broadcastInDim S850000 ![] bcast_S_S850000 : (⟨S_, .i32⟩ : BufTy).Contents (Elt F) → (⟨S850000, .i32⟩ : BufTy).Contents (Elt F)) ((constantI S_ 32 0#32)))) ((addi : (⟨S850000, .i32⟩ : BufTy).Contents (Elt F) → (⟨S850000, .i32⟩ : BufTy).Contents (Elt F) → (⟨S850000, .i32⟩ : BufTy).Contents (Elt F)) s ((broadcastInDim S850000 ![] bcast_S_S850000 : (⟨S_, .i32⟩ : BufTy).Contents (Elt F) → (⟨S850000, .i32⟩ : BufTy).Contents (Elt F)) ((constantI S_ 32 50000#32)))) s))) ((broadcastInDim S850000x64 ![0, 1] bcast_S850000x1_S850000x64_0_1 : (⟨S850000x1, .f32⟩ : BufTy).Contents (Elt F) → (⟨S850000x64, .f32⟩ : BufTy).Contents (Elt F)) ((broadcastInDim S850000x1 ![0] bcast_S850000_S850000x1_0 : (⟨S850000, .f32⟩ : BufTy).Contents (Elt F) → (⟨S850000x1, .f32⟩ : BufTy).Contents (Elt F)) n))))
/-- Aggregation 2: every edge carries its source's row of h scaled by the edge weight, and the rows arriving at a node are summed. -/
def agg2 (h : (⟨S50000x64, .f32⟩ : BufTy).Contents (Elt F)) (s : (⟨S850000, .i32⟩ : BufTy).Contents (Elt F)) (d : (⟨S850000, .i32⟩ : BufTy).Contents (Elt F)) (n : (⟨S850000, .f32⟩ : BufTy).Contents (Elt F)) :
    (⟨S50000x64, .f32⟩ : BufTy).Contents (Elt F) :=
  (((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)) ((broadcastInDim S50000x64 ![] bcast_S_S50000x64 : (⟨S_, .f32⟩ : BufTy).Contents (Elt F) → (⟨S50000x64, .f32⟩ : BufTy).Contents (Elt F)) ((constant (F := F) S_ .f32 0x00000000#32))) ((broadcastInDim S850000x1 ![0] bcast_S850000_S850000x1_0 : (⟨S850000, .i32⟩ : BufTy).Contents (Elt F) → (⟨S850000x1, .i32⟩ : BufTy).Contents (Elt F)) d) ((mulf : (⟨S850000x64, .f32⟩ : BufTy).Contents (Elt F) → (⟨S850000x64, .f32⟩ : BufTy).Contents (Elt F) → (⟨S850000x64, .f32⟩ : BufTy).Contents (Elt F)) (((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)) h ((broadcastInDim S850000x1 ![0] bcast_S850000_S850000x1_0 : (⟨S850000, .i32⟩ : BufTy).Contents (Elt F) → (⟨S850000x1, .i32⟩ : BufTy).Contents (Elt F)) ((select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) ((cmpi .slt : (⟨S850000, .i32⟩ : BufTy).Contents (Elt F) → (⟨S850000, .i32⟩ : BufTy).Contents (Elt F) → (⟨S850000, .i1⟩ : BufTy).Contents (Elt F)) s ((broadcastInDim S850000 ![] bcast_S_S850000 : (⟨S_, .i32⟩ : BufTy).Contents (Elt F) → (⟨S850000, .i32⟩ : BufTy).Contents (Elt F)) ((constantI S_ 32 0#32)))) ((addi : (⟨S850000, .i32⟩ : BufTy).Contents (Elt F) → (⟨S850000, .i32⟩ : BufTy).Contents (Elt F) → (⟨S850000, .i32⟩ : BufTy).Contents (Elt F)) s ((broadcastInDim S850000 ![] bcast_S_S850000 : (⟨S_, .i32⟩ : BufTy).Contents (Elt F) → (⟨S850000, .i32⟩ : BufTy).Contents (Elt F)) ((constantI S_ 32 50000#32)))) s))) ((broadcastInDim S850000x64 ![0, 1] bcast_S850000x1_S850000x64_0_1 : (⟨S850000x1, .f32⟩ : BufTy).Contents (Elt F) → (⟨S850000x64, .f32⟩ : BufTy).Contents (Elt F)) ((broadcastInDim S850000x1 ![0] bcast_S850000_S850000x1_0 : (⟨S850000, .f32⟩ : BufTy).Contents (Elt F) → (⟨S850000x1, .f32⟩ : BufTy).Contents (Elt F)) n))))
/-- Aggregation 3: every edge carries its source's row of h scaled by the edge weight, and the rows arriving at a node are summed. -/
def agg3 (h : (⟨S50000x64, .f32⟩ : BufTy).Contents (Elt F)) (s : (⟨S850000, .i32⟩ : BufTy).Contents (Elt F)) (d : (⟨S850000, .i32⟩ : BufTy).Contents (Elt F)) (n : (⟨S850000, .f32⟩ : BufTy).Contents (Elt F)) :
    (⟨S50000x64, .f32⟩ : BufTy).Contents (Elt F) :=
  (((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)) ((broadcastInDim S50000x64 ![] bcast_S_S50000x64 : (⟨S_, .f32⟩ : BufTy).Contents (Elt F) → (⟨S50000x64, .f32⟩ : BufTy).Contents (Elt F)) ((constant (F := F) S_ .f32 0x00000000#32))) ((broadcastInDim S850000x1 ![0] bcast_S850000_S850000x1_0 : (⟨S850000, .i32⟩ : BufTy).Contents (Elt F) → (⟨S850000x1, .i32⟩ : BufTy).Contents (Elt F)) d) ((mulf : (⟨S850000x64, .f32⟩ : BufTy).Contents (Elt F) → (⟨S850000x64, .f32⟩ : BufTy).Contents (Elt F) → (⟨S850000x64, .f32⟩ : BufTy).Contents (Elt F)) (((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)) h ((broadcastInDim S850000x1 ![0] bcast_S850000_S850000x1_0 : (⟨S850000, .i32⟩ : BufTy).Contents (Elt F) → (⟨S850000x1, .i32⟩ : BufTy).Contents (Elt F)) ((select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) ((cmpi .slt : (⟨S850000, .i32⟩ : BufTy).Contents (Elt F) → (⟨S850000, .i32⟩ : BufTy).Contents (Elt F) → (⟨S850000, .i1⟩ : BufTy).Contents (Elt F)) s ((broadcastInDim S850000 ![] bcast_S_S850000 : (⟨S_, .i32⟩ : BufTy).Contents (Elt F) → (⟨S850000, .i32⟩ : BufTy).Contents (Elt F)) ((constantI S_ 32 0#32)))) ((addi : (⟨S850000, .i32⟩ : BufTy).Contents (Elt F) → (⟨S850000, .i32⟩ : BufTy).Contents (Elt F) → (⟨S850000, .i32⟩ : BufTy).Contents (Elt F)) s ((broadcastInDim S850000 ![] bcast_S_S850000 : (⟨S_, .i32⟩ : BufTy).Contents (Elt F) → (⟨S850000, .i32⟩ : BufTy).Contents (Elt F)) ((constantI S_ 32 50000#32)))) s))) ((broadcastInDim S850000x64 ![0, 1] bcast_S850000x1_S850000x64_0_1 : (⟨S850000x1, .f32⟩ : BufTy).Contents (Elt F) → (⟨S850000x64, .f32⟩ : BufTy).Contents (Elt F)) ((broadcastInDim S850000x1 ![0] bcast_S850000_S850000x1_0 : (⟨S850000, .f32⟩ : BufTy).Contents (Elt F) → (⟨S850000x1, .f32⟩ : BufTy).Contents (Elt F)) n))))
/-- Aggregation 4: every edge carries its source's row of h scaled by the edge weight, and the rows arriving at a node are summed. -/
def agg4 (h : (⟨S50000x64, .f32⟩ : BufTy).Contents (Elt F)) (s : (⟨S850000, .i32⟩ : BufTy).Contents (Elt F)) (d : (⟨S850000, .i32⟩ : BufTy).Contents (Elt F)) (n : (⟨S850000, .f32⟩ : BufTy).Contents (Elt F)) :
    (⟨S50000x64, .f32⟩ : BufTy).Contents (Elt F) :=
  (((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)) ((broadcastInDim S50000x64 ![] bcast_S_S50000x64 : (⟨S_, .f32⟩ : BufTy).Contents (Elt F) → (⟨S50000x64, .f32⟩ : BufTy).Contents (Elt F)) ((constant (F := F) S_ .f32 0x00000000#32))) ((broadcastInDim S850000x1 ![0] bcast_S850000_S850000x1_0 : (⟨S850000, .i32⟩ : BufTy).Contents (Elt F) → (⟨S850000x1, .i32⟩ : BufTy).Contents (Elt F)) d) ((mulf : (⟨S850000x64, .f32⟩ : BufTy).Contents (Elt F) → (⟨S850000x64, .f32⟩ : BufTy).Contents (Elt F) → (⟨S850000x64, .f32⟩ : BufTy).Contents (Elt F)) (((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)) h ((broadcastInDim S850000x1 ![0] bcast_S850000_S850000x1_0 : (⟨S850000, .i32⟩ : BufTy).Contents (Elt F) → (⟨S850000x1, .i32⟩ : BufTy).Contents (Elt F)) ((select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) ((cmpi .slt : (⟨S850000, .i32⟩ : BufTy).Contents (Elt F) → (⟨S850000, .i32⟩ : BufTy).Contents (Elt F) → (⟨S850000, .i1⟩ : BufTy).Contents (Elt F)) s ((broadcastInDim S850000 ![] bcast_S_S850000 : (⟨S_, .i32⟩ : BufTy).Contents (Elt F) → (⟨S850000, .i32⟩ : BufTy).Contents (Elt F)) ((constantI S_ 32 0#32)))) ((addi : (⟨S850000, .i32⟩ : BufTy).Contents (Elt F) → (⟨S850000, .i32⟩ : BufTy).Contents (Elt F) → (⟨S850000, .i32⟩ : BufTy).Contents (Elt F)) s ((broadcastInDim S850000 ![] bcast_S_S850000 : (⟨S_, .i32⟩ : BufTy).Contents (Elt F) → (⟨S850000, .i32⟩ : BufTy).Contents (Elt F)) ((constantI S_ 32 50000#32)))) s))) ((broadcastInDim S850000x64 ![0, 1] bcast_S850000x1_S850000x64_0_1 : (⟨S850000x1, .f32⟩ : BufTy).Contents (Elt F) → (⟨S850000x64, .f32⟩ : BufTy).Contents (Elt F)) ((broadcastInDim S850000x1 ![0] bcast_S850000_S850000x1_0 : (⟨S850000, .f32⟩ : BufTy).Contents (Elt F) → (⟨S850000x1, .f32⟩ : BufTy).Contents (Elt F)) n))))
/-- The first bias vector as a row. -/
def bias1 (b : (⟨S64, .f32⟩ : BufTy).Contents (Elt F)) :
    (⟨S1x64, .f32⟩ : BufTy).Contents (Elt F) :=
  (shapeCast _ b shapeCasts_S64_S1x64)
/-- Row 0 of the stacked hidden biases, as a row. -/
def bias2 (b : (⟨S3x64, .f32⟩ : BufTy).Contents (Elt F)) :
    (⟨S1x64, .f32⟩ : BufTy).Contents (Elt F) :=
  (shapeCast _ (shapeCast _ (((extractStridedSlice S1x64 ![0, 0] · slices_S3x64_S1x64_0_0) : (⟨S3x64, .f32⟩ : BufTy).Contents (Elt F) → (⟨S1x64, .f32⟩ : BufTy).Contents (Elt F)) b) shapeCasts_S1x64_S64) shapeCasts_S64_S1x64)
/-- Row 1 of the stacked hidden biases, as a row. -/
def bias3 (b : (⟨S3x64, .f32⟩ : BufTy).Contents (Elt F)) :
    (⟨S1x64, .f32⟩ : BufTy).Contents (Elt F) :=
  (shapeCast _ (shapeCast _ (((extractStridedSlice S1x64 ![1, 0] · slices_S3x64_S1x64_1_0) : (⟨S3x64, .f32⟩ : BufTy).Contents (Elt F) → (⟨S1x64, .f32⟩ : BufTy).Contents (Elt F)) b) shapeCasts_S1x64_S64) shapeCasts_S64_S1x64)
/-- Row 2 of the stacked hidden biases, as a row. -/
def bias4 (b : (⟨S3x64, .f32⟩ : BufTy).Contents (Elt F)) :
    (⟨S1x64, .f32⟩ : BufTy).Contents (Elt F) :=
  (shapeCast _ (shapeCast _ (((extractStridedSlice S1x64 ![2, 0] · slices_S3x64_S1x64_2_0) : (⟨S3x64, .f32⟩ : BufTy).Contents (Elt F) → (⟨S1x64, .f32⟩ : BufTy).Contents (Elt F)) b) shapeCasts_S1x64_S64) shapeCasts_S64_S1x64)
/-- Member 0 of the stacked hidden weights. -/
def w1 (w : (⟨S3x64x64, .f32⟩ : BufTy).Contents (Elt F)) :
    (⟨S64x64, .f32⟩ : BufTy).Contents (Elt F) :=
  (shapeCast _ (((extractStridedSlice S1x64x64 ![0, 0, 0] · slices_S3x64x64_S1x64x64_0_0_0) : (⟨S3x64x64, .f32⟩ : BufTy).Contents (Elt F) → (⟨S1x64x64, .f32⟩ : BufTy).Contents (Elt F)) w) shapeCasts_S1x64x64_S64x64)
/-- Member 1 of the stacked hidden weights. -/
def w2 (w : (⟨S3x64x64, .f32⟩ : BufTy).Contents (Elt F)) :
    (⟨S64x64, .f32⟩ : BufTy).Contents (Elt F) :=
  (shapeCast _ (((extractStridedSlice S1x64x64 ![1, 0, 0] · slices_S3x64x64_S1x64x64_1_0_0) : (⟨S3x64x64, .f32⟩ : BufTy).Contents (Elt F) → (⟨S1x64x64, .f32⟩ : BufTy).Contents (Elt F)) w) shapeCasts_S1x64x64_S64x64)
/-- Member 2 of the stacked hidden weights. -/
def w3 (w : (⟨S3x64x64, .f32⟩ : BufTy).Contents (Elt F)) :
    (⟨S64x64, .f32⟩ : BufTy).Contents (Elt F) :=
  (shapeCast _ (((extractStridedSlice S1x64x64 ![2, 0, 0] · slices_S3x64x64_S1x64x64_2_0_0) : (⟨S3x64x64, .f32⟩ : BufTy).Contents (Elt F) → (⟨S1x64x64, .f32⟩ : BufTy).Contents (Elt F)) w) shapeCasts_S1x64x64_S64x64)
/-- The last aggregation, one column wide, plus the output bias on every row. -/
def out (h : (⟨S50000x1, .f32⟩ : BufTy).Contents (Elt F)) (s : (⟨S850000, .i32⟩ : BufTy).Contents (Elt F)) (d : (⟨S850000, .i32⟩ : BufTy).Contents (Elt F)) (n : (⟨S850000, .f32⟩ : BufTy).Contents (Elt F)) (b : (⟨S1, .f32⟩ : BufTy).Contents (Elt F)) :
    (⟨S50000x1, .f32⟩ : BufTy).Contents (Elt F) :=
  ((addf : (⟨S50000x1, .f32⟩ : BufTy).Contents (Elt F) → (⟨S50000x1, .f32⟩ : BufTy).Contents (Elt F) → (⟨S50000x1, .f32⟩ : BufTy).Contents (Elt F)) (((fun x i u => Host.scatterAdd scatter_S50000x1_S850000x1_S850000x1_1_0_0_1 x i u) : (⟨S50000x1, .f32⟩ : BufTy).Contents (Elt F) → (⟨S850000x1, .i32⟩ : BufTy).Contents (Elt F) → (⟨S850000x1, .f32⟩ : BufTy).Contents (Elt F) → (⟨S50000x1, .f32⟩ : BufTy).Contents (Elt F)) ((broadcastInDim S50000x1 ![] bcast_S_S50000x1 : (⟨S_, .f32⟩ : BufTy).Contents (Elt F) → (⟨S50000x1, .f32⟩ : BufTy).Contents (Elt F)) ((constant (F := F) S_ .f32 0x00000000#32))) ((broadcastInDim S850000x1 ![0] bcast_S850000_S850000x1_0 : (⟨S850000, .i32⟩ : BufTy).Contents (Elt F) → (⟨S850000x1, .i32⟩ : BufTy).Contents (Elt F)) d) ((mulf : (⟨S850000x1, .f32⟩ : BufTy).Contents (Elt F) → (⟨S850000x1, .f32⟩ : BufTy).Contents (Elt F) → (⟨S850000x1, .f32⟩ : BufTy).Contents (Elt F)) (((fun x i => Host.gather gather_S50000x1_S850000x1_S850000x1_1_0_n_n_0_1_11 x i) : (⟨S50000x1, .f32⟩ : BufTy).Contents (Elt F) → (⟨S850000x1, .i32⟩ : BufTy).Contents (Elt F) → (⟨S850000x1, .f32⟩ : BufTy).Contents (Elt F)) h ((broadcastInDim S850000x1 ![0] bcast_S850000_S850000x1_0 : (⟨S850000, .i32⟩ : BufTy).Contents (Elt F) → (⟨S850000x1, .i32⟩ : BufTy).Contents (Elt F)) ((select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) ((cmpi .slt : (⟨S850000, .i32⟩ : BufTy).Contents (Elt F) → (⟨S850000, .i32⟩ : BufTy).Contents (Elt F) → (⟨S850000, .i1⟩ : BufTy).Contents (Elt F)) s ((broadcastInDim S850000 ![] bcast_S_S850000 : (⟨S_, .i32⟩ : BufTy).Contents (Elt F) → (⟨S850000, .i32⟩ : BufTy).Contents (Elt F)) ((constantI S_ 32 0#32)))) ((addi : (⟨S850000, .i32⟩ : BufTy).Contents (Elt F) → (⟨S850000, .i32⟩ : BufTy).Contents (Elt F) → (⟨S850000, .i32⟩ : BufTy).Contents (Elt F)) s ((broadcastInDim S850000 ![] bcast_S_S850000 : (⟨S_, .i32⟩ : BufTy).Contents (Elt F) → (⟨S850000, .i32⟩ : BufTy).Contents (Elt F)) ((constantI S_ 32 50000#32)))) s))) ((broadcastInDim S850000x1 ![0] bcast_S850000_S850000x1_0 : (⟨S850000, .f32⟩ : BufTy).Contents (Elt F) → (⟨S850000x1, .f32⟩ : BufTy).Contents (Elt F)) n))) ((broadcastInDim S50000x1 ![0, 1] bcast_S1x1_S50000x1_0_1 : (⟨S1x1, .f32⟩ : BufTy).Contents (Elt F) → (⟨S50000x1, .f32⟩ : BufTy).Contents (Elt F)) (shapeCast _ b shapeCasts_S1_S1x1)))
/-- The last aggregation plus a 1×1 bias on every row. -/
def outCore (h : (⟨S50000x1, .f32⟩ : BufTy).Contents (Elt F)) (s : (⟨S850000, .i32⟩ : BufTy).Contents (Elt F)) (d : (⟨S850000, .i32⟩ : BufTy).Contents (Elt F)) (n : (⟨S850000, .f32⟩ : BufTy).Contents (Elt F)) (r : (⟨S1x1, .f32⟩ : BufTy).Contents (Elt F)) :
    (⟨S50000x1, .f32⟩ : BufTy).Contents (Elt F) :=
  ((addf : (⟨S50000x1, .f32⟩ : BufTy).Contents (Elt F) → (⟨S50000x1, .f32⟩ : BufTy).Contents (Elt F) → (⟨S50000x1, .f32⟩ : BufTy).Contents (Elt F)) (((fun x i u => Host.scatterAdd scatter_S50000x1_S850000x1_S850000x1_1_0_0_1 x i u) : (⟨S50000x1, .f32⟩ : BufTy).Contents (Elt F) → (⟨S850000x1, .i32⟩ : BufTy).Contents (Elt F) → (⟨S850000x1, .f32⟩ : BufTy).Contents (Elt F) → (⟨S50000x1, .f32⟩ : BufTy).Contents (Elt F)) ((broadcastInDim S50000x1 ![] bcast_S_S50000x1 : (⟨S_, .f32⟩ : BufTy).Contents (Elt F) → (⟨S50000x1, .f32⟩ : BufTy).Contents (Elt F)) ((constant (F := F) S_ .f32 0x00000000#32))) ((broadcastInDim S850000x1 ![0] bcast_S850000_S850000x1_0 : (⟨S850000, .i32⟩ : BufTy).Contents (Elt F) → (⟨S850000x1, .i32⟩ : BufTy).Contents (Elt F)) d) ((mulf : (⟨S850000x1, .f32⟩ : BufTy).Contents (Elt F) → (⟨S850000x1, .f32⟩ : BufTy).Contents (Elt F) → (⟨S850000x1, .f32⟩ : BufTy).Contents (Elt F)) (((fun x i => Host.gather gather_S50000x1_S850000x1_S850000x1_1_0_n_n_0_1_11 x i) : (⟨S50000x1, .f32⟩ : BufTy).Contents (Elt F) → (⟨S850000x1, .i32⟩ : BufTy).Contents (Elt F) → (⟨S850000x1, .f32⟩ : BufTy).Contents (Elt F)) h ((broadcastInDim S850000x1 ![0] bcast_S850000_S850000x1_0 : (⟨S850000, .i32⟩ : BufTy).Contents (Elt F) → (⟨S850000x1, .i32⟩ : BufTy).Contents (Elt F)) ((select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) ((cmpi .slt : (⟨S850000, .i32⟩ : BufTy).Contents (Elt F) → (⟨S850000, .i32⟩ : BufTy).Contents (Elt F) → (⟨S850000, .i1⟩ : BufTy).Contents (Elt F)) s ((broadcastInDim S850000 ![] bcast_S_S850000 : (⟨S_, .i32⟩ : BufTy).Contents (Elt F) → (⟨S850000, .i32⟩ : BufTy).Contents (Elt F)) ((constantI S_ 32 0#32)))) ((addi : (⟨S850000, .i32⟩ : BufTy).Contents (Elt F) → (⟨S850000, .i32⟩ : BufTy).Contents (Elt F) → (⟨S850000, .i32⟩ : BufTy).Contents (Elt F)) s ((broadcastInDim S850000 ![] bcast_S_S850000 : (⟨S_, .i32⟩ : BufTy).Contents (Elt F) → (⟨S850000, .i32⟩ : BufTy).Contents (Elt F)) ((constantI S_ 32 50000#32)))) s))) ((broadcastInDim S850000x1 ![0] bcast_S850000_S850000x1_0 : (⟨S850000, .f32⟩ : BufTy).Contents (Elt F) → (⟨S850000x1, .f32⟩ : BufTy).Contents (Elt F)) n))) ((broadcastInDim S50000x1 ![0, 1] bcast_S1x1_S50000x1_0_1 : (⟨S1x1, .f32⟩ : BufTy).Contents (Elt F) → (⟨S50000x1, .f32⟩ : BufTy).Contents (Elt F)) r))
/-- The output bias as a 1×1 matrix. -/
def brow (b : (⟨S1, .f32⟩ : BufTy).Contents (Elt F)) :
    (⟨S1x1, .f32⟩ : BufTy).Contents (Elt F) :=
  (shapeCast _ b shapeCasts_S1_S1x1)
theorem out_eq_core (h : (⟨S50000x1, .f32⟩ : BufTy).Contents (Elt F)) (s : (⟨S850000, .i32⟩ : BufTy).Contents (Elt F)) (d : (⟨S850000, .i32⟩ : BufTy).Contents (Elt F)) (n : (⟨S850000, .f32⟩ : BufTy).Contents (Elt F)) (b : (⟨S1, .f32⟩ : BufTy).Contents (Elt F)) :
    out h s d n b = outCore h s d n (brow b) := rfl

end Cert.KernelIdeal.Stages

end
-- ==== Proof.LibMatmulZero.lean ====
/-
  A kernel matrix product into a zero accumulator, read at an index.

  The matrix unit's product of an m×k block by a k×n block, contracting the first operand's second axis with the
  second operand's first axis and with no batch axis, accumulated into the all-zero block, read at row `a` and column
  `b` at the exact instance, is the sum over the contracted coordinate `c` of the products of the entries `(a, c)`
  and `(c, b)`: the zero it starts from is the additive unit of the extended reals, and no rounding or chunk order is
  left.  Stated for the record spelt out with its well-formedness evidence as a variable, which is the shape a printed
  program's product records take once unfolded.
-/
import Idealize.ShloMosaic.Lib.ValueIdx
import Idealize.ShloMosaic.Lib.Pipeline.Value
import Idealize.ShloMosaic.PureOps.Ideal.Laws

noncomputable section

namespace Cert.LibMatmulZero

open Idealize.ShloMosaic Idealize.ShloMosaic.ValueIdx

/-- The product of an m×k by a k×n block into the zero block, at `(a, b)`, is `∑ c, A (a, c) * B (c, b)`. -/
theorem matmulZero_nn_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B (constant (F := Ideal) ⟨2, ![m, n]⟩ .f32 0x00000000#32) (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulZero

end
-- ==== Proof.LibHostDot.lean ====
/-
  A host matrix product read at an index.

  The host's `dot_general` of an m×k matrix by a k×n matrix, contracting the first operand's second axis with the
  second operand's first axis and with no batch axis, read at row `a` and column `b` at the exact instance, is the sum
  over the contracted coordinate `c` of the products of the entries `(a, c)` and `(c, b)`.  Stated for the record
  spelt out with its well-formedness evidence as a variable, which is the shape a printed program's product records
  take once unfolded.
-/
import Idealize.ShloMosaic.Lib.ValueIdx
import Idealize.ShloMosaic.Lib.Pipeline.Value
import Idealize.ShloMosaic.PureOps.Ideal.Laws

noncomputable section

namespace Cert.LibHostDot

open Idealize.ShloMosaic Idealize.ShloMosaic.ValueIdx

/-- The host product of an m×k by a k×n matrix at `(a, b)` is `∑ c, A (a, c) * B (c, b)`. -/
theorem hostDot_nn_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibHostDot

end
-- ==== Proof.LibLayer.lean ====
/-
  One fused layer as a function of whole arrays, at the exact instance.

  A layer takes a matrix `A` of n rows and k columns, a bias row `b` of k entries and a weight matrix `W` of k rows
  and p columns.  Entry (r, q) of its value is the sum over the k columns c of (A (r, c) + b c) · W (c, q) — the
  affine layer — or of max (A (r, c) + b c) 0 · W (c, q) — the rectified layer.  Both are stated index by index over
  the extended reals.  The host's way of computing them (a row broadcast down the rows, an elementwise sum, an
  elementwise maximum with zero, a matrix product contracting the columns of the first factor with the rows of the
  second) is shown to be the same function, and a zero bias is shown to drop out of the affine layer.
-/
import Idealize.ShloMosaic.Lib.ValueIdx
import Idealize.ShloMosaic.Lib.Pipeline.Value
import Idealize.ShloMosaic.PureOps.Ideal.Laws
import proofs.«165181_j2379411882474_1_alg».proof.Proof.LibHostDot

noncomputable section

namespace Cert.LibLayer

open Idealize.ShloMosaic Idealize.ShloMosaic.ValueIdx

/-- The affine layer: entry (r, q) is Σ_c (A (r, c) + b c) · W (c, q). -/
def affine {n k p : Nat} (A : FVec Ideal ⟨2, ![n, k]⟩ .f32) (b : FVec Ideal ⟨2, ![1, k]⟩ .f32)
    (W : FVec Ideal ⟨2, ![k, p]⟩ .f32) : FVec Ideal ⟨2, ![n, p]⟩ .f32 :=
  fun i => ∑ c : Fin k, (A (ix2 (n0 := n) (i 0) c) + b (ix2 (0 : Fin 1) c)) * W (ix2 (n1 := p) c (i 1))

/-- The rectified layer: entry (r, q) is Σ_c max (A (r, c) + b c) 0 · W (c, q). -/
def rectified {n k p : Nat} (A : FVec Ideal ⟨2, ![n, k]⟩ .f32) (b : FVec Ideal ⟨2, ![1, k]⟩ .f32)
    (W : FVec Ideal ⟨2, ![k, p]⟩ .f32) : FVec Ideal ⟨2, ![n, p]⟩ .f32 :=
  fun i => ∑ c : Fin k, max (A (ix2 (n0 := n) (i 0) c) + b (ix2 (0 : Fin 1) c)) (Ideal.ofBits .f32 0x00000000#32)
    * W (ix2 (n1 := p) c (i 1))

/-- The affine layer read at (r, q). -/
theorem affine_apply {n k p : Nat} (A : FVec Ideal ⟨2, ![n, k]⟩ .f32) (b : FVec Ideal ⟨2, ![1, k]⟩ .f32)
    (W : FVec Ideal ⟨2, ![k, p]⟩ .f32) (r : Fin n) (q : Fin p) :
    affine A b W (ix2 r q) = ∑ c : Fin k, (A (ix2 r c) + b (ix2 (0 : Fin 1) c)) * W (ix2 c q) := rfl

/-- The rectified layer read at (r, q). -/
theorem rectified_apply {n k p : Nat} (A : FVec Ideal ⟨2, ![n, k]⟩ .f32) (b : FVec Ideal ⟨2, ![1, k]⟩ .f32)
    (W : FVec Ideal ⟨2, ![k, p]⟩ .f32) (r : Fin n) (q : Fin p) :
    rectified A b W (ix2 r q)
      = ∑ c : Fin k, max (A (ix2 r c) + b (ix2 (0 : Fin 1) c)) (Ideal.ofBits .f32 0x00000000#32) * W (ix2 c q) := rfl

/-- The affine layer at (R, q) depends only on row R of the input, the bias row and column q of the weights. -/
theorem affine_congr {n n' k p : Nat} (A : FVec Ideal ⟨2, ![n, k]⟩ .f32) (A' : FVec Ideal ⟨2, ![n', k]⟩ .f32)
    (b b' : FVec Ideal ⟨2, ![1, k]⟩ .f32) (W W' : FVec Ideal ⟨2, ![k, p]⟩ .f32) (r : Fin n') (R : Fin n) (q : Fin p)
    (hA : ∀ c, A' (ix2 r c) = A (ix2 R c)) (hb : ∀ c, b' (ix2 (0 : Fin 1) c) = b (ix2 (0 : Fin 1) c))
    (hW : ∀ c, W' (ix2 c q) = W (ix2 c q)) :
    affine A' b' W' (ix2 r q) = affine A b W (ix2 R q) := by
  rw [affine_apply, affine_apply]
  exact Finset.sum_congr rfl fun c _ => by rw [hA, hb, hW]

/-- The rectified layer at (R, q) depends only on row R of the input, the bias row and column q of the weights. -/
theorem rectified_congr {n n' k p : Nat} (A : FVec Ideal ⟨2, ![n, k]⟩ .f32) (A' : FVec Ideal ⟨2, ![n', k]⟩ .f32)
    (b b' : FVec Ideal ⟨2, ![1, k]⟩ .f32) (W W' : FVec Ideal ⟨2, ![k, p]⟩ .f32) (r : Fin n') (R : Fin n) (q : Fin p)
    (hA : ∀ c, A' (ix2 r c) = A (ix2 R c)) (hb : ∀ c, b' (ix2 (0 : Fin 1) c) = b (ix2 (0 : Fin 1) c))
    (hW : ∀ c, W' (ix2 c q) = W (ix2 c q)) :
    rectified A' b' W' (ix2 r q) = rectified A b W (ix2 R q) := by
  rw [rectified_apply, rectified_apply]
  exact Finset.sum_congr rfl fun c _ => by rw [hA, hb, hW]

/-- A bias row broadcast down the rows, read at (r, c), is the row's entry c. -/
theorem rowDown_apply {n k : Nat} (hb : (⟨2, ![1, k]⟩ : Shape).BroadcastsInDim ⟨2, ![n, k]⟩ ![0, 1])
    (b : FVec Ideal ⟨2, ![1, k]⟩ .f32) (r : Fin n) (c : Fin k) :
    broadcastInDim ⟨2, ![n, k]⟩ ![0, 1] hb b (ix2 r c) = b (ix2 (0 : Fin 1) c) := by
  refine broadcastInDim_apply ![0, 1] hb b (ix2 r c) (ix2 (0 : Fin 1) c) fun a => ?_
  match a with
  | ⟨0, _⟩ => rfl
  | ⟨1, _⟩ =>
    show c.val = if k = 1 then 0 else c.val
    split
    · have := c.isLt; omega
    · rfl

/-- The host's rectified layer — the bias row broadcast down the rows, added, the maximum with the zero array, the
    matrix product with the weights — is the rectified layer. -/
theorem host_rectified {n k p : Nat}
    (w : DotDims.WF ⟨2, ![n, k]⟩ ⟨2, ![k, p]⟩ ⟨2, ![n, p]⟩ [1] [0] [0] [1] [] [])
    (hb : (⟨2, ![1, k]⟩ : Shape).BroadcastsInDim ⟨2, ![n, k]⟩ ![0, 1])
    (hz : (⟨0, ![]⟩ : Shape).BroadcastsInDim ⟨2, ![n, k]⟩ ![])
    (A : FVec Ideal ⟨2, ![n, k]⟩ .f32) (b : FVec Ideal ⟨2, ![1, k]⟩ .f32) (W : FVec Ideal ⟨2, ![k, p]⟩ .f32) :
    Host.dotGeneral (⟨[1], [0], [0], [1], [], [], w⟩ : DotDims ⟨2, ![n, k]⟩ ⟨2, ![k, p]⟩ ⟨2, ![n, p]⟩) none
        (maximumf (addf A (broadcastInDim ⟨2, ![n, k]⟩ ![0, 1] hb b))
          (broadcastInDim ⟨2, ![n, k]⟩ ![] hz (constant (F := Ideal) ⟨0, ![]⟩ .f32 0x00000000#32))) W
      = rectified A b W := by
  funext i
  obtain ⟨r, q, rfl⟩ : ∃ (r : Fin n) (q : Fin p), i = ix2 r q := ⟨i 0, i 1, eq_ix2 i⟩
  rw [Cert.LibHostDot.hostDot_nn_apply, rectified_apply]
  refine Finset.sum_congr rfl fun c _ => ?_
  rw [maximumf_apply, addf_apply, rowDown_apply,
    broadcastInDim_apply ![] hz _ (ix2 r c) ix0 (fun a => a.elim0), constant_apply]

/-- The host's plain matrix product is the affine layer at the zero bias row: adding the zero of the extended reals
    changes nothing. -/
theorem host_product_eq_affine_zero {n k p : Nat}
    (w : DotDims.WF ⟨2, ![n, k]⟩ ⟨2, ![k, p]⟩ ⟨2, ![n, p]⟩ [1] [0] [0] [1] [] [])
    (A : FVec Ideal ⟨2, ![n, k]⟩ .f32) (z : FVec Ideal ⟨2, ![1, k]⟩ .f32) (W : FVec Ideal ⟨2, ![k, p]⟩ .f32)
    (hzero : ∀ j, z j = 0) :
    Host.dotGeneral (⟨[1], [0], [0], [1], [], [], w⟩ : DotDims ⟨2, ![n, k]⟩ ⟨2, ![k, p]⟩ ⟨2, ![n, p]⟩) none A W
      = affine A z W := by
  funext i
  obtain ⟨r, q, rfl⟩ : ∃ (r : Fin n) (q : Fin p), i = ix2 r q := ⟨i 0, i 1, eq_ix2 i⟩
  rw [Cert.LibHostDot.hostDot_nn_apply, affine_apply]
  refine Finset.sum_congr rfl fun c _ => ?_
  rw [hzero, add_zero]

end Cert.LibLayer

end
-- ==== Proof.Payload.lean ====
/-
  What one launch's body computes on its blocks, at the exact instance.

  The body adds the bias row to every row of its block of the input, takes (in four of the five launches) the maximum
  with zero, changes the float format of both factors — the identity on extended reals — and multiplies by the weight
  block into a zero accumulator.  So the block it stores is the layer (LibLayer.lean) of the blocks it loaded: the
  affine layer in the first launch, the rectified layer in the other four.
-/
import proofs.«165181_j2379411882474_1_alg».proof.Proof.Gen.KernelIdeal.Skeleton
import proofs.«165181_j2379411882474_1_alg».proof.Proof.LibMatmulZero
import proofs.«165181_j2379411882474_1_alg».proof.Proof.LibLayer

noncomputable section

namespace Cert.KernelIdeal.Payload

open Cert.KernelIdeal Cert.KernelIdeal.Gen Idealize.ShloMosaic Idealize.ShloMosaic.ValueIdx

/-- A one-row block broadcast down 5000 rows, read at (r, c), is the row's entry c. -/
theorem rowTo_apply {k : Nat} (h : (⟨2, ![1, k]⟩ : Shape).Broadcasts ⟨2, ![5000, k]⟩)
    (x : FVec Ideal ⟨2, ![1, k]⟩ .f32) (r : Fin 5000) (c : Fin k) :
    broadcastTo ⟨2, ![5000, k]⟩ x h (ix2 r c) = x (ix2 (0 : Fin 1) c) := by
  refine broadcastTo_apply x h (ix2 r c) (ix2 (0 : Fin 1) c) fun a => ?_
  match a with
  | ⟨0, _⟩ => rfl
  | ⟨1, _⟩ =>
    show c.val = if k = 1 then 0 else c.val
    split
    · have := c.isLt; omega
    · rfl

/-- The first launch's stored block is the affine layer of its loaded blocks. -/
theorem pay0_eq (x0 : Vec Ideal S5000x4 .f32) (x1 : Vec Ideal S1x4 .f32) (x2 : Vec Ideal S4x64 .f32) :
    k0_pay1 (F := Ideal) x0 x1 x2 = Cert.LibLayer.affine (n := 5000) (k := 4) (p := 64) x0 x1 x2 := by
  funext i
  obtain ⟨r, q, rfl⟩ : ∃ (r : Fin 5000) (q : Fin 64), i = ix2 r q := ⟨i 0, i 1, eq_ix2 i⟩
  rw [Cert.LibLayer.affine_apply]
  unfold k0_pay1
  refine (Cert.LibMatmulZero.matmulZero_nn_apply (m := 5000) (k := 4) (n := 64) _ none _ _ r q).trans ?_
  refine Finset.sum_congr rfl fun c _ => ?_
  rw [truncf_apply, truncf_apply, addf_apply, shapeCast_self, rowTo_apply]

/-- A middle launch's stored block is the rectified layer of its loaded blocks. -/
theorem pay1_eq (x0 : Vec Ideal S5000x64 .f32) (x1 : Vec Ideal S1x64 .f32) (x2 : Vec Ideal S64x64 .f32) :
    k1_pay1 (F := Ideal) x0 x1 x2 = Cert.LibLayer.rectified (n := 5000) (k := 64) (p := 64) x0 x1 x2 := by
  funext i
  obtain ⟨r, q, rfl⟩ : ∃ (r : Fin 5000) (q : Fin 64), i = ix2 r q := ⟨i 0, i 1, eq_ix2 i⟩
  rw [Cert.LibLayer.rectified_apply]
  unfold k1_pay1
  refine (Cert.LibMatmulZero.matmulZero_nn_apply (m := 5000) (k := 64) (n := 64) _ none _ _ r q).trans ?_
  refine Finset.sum_congr rfl fun c _ => ?_
  rw [truncf_apply, truncf_apply, maximumf_apply, addf_apply, shapeCast_self, shapeCast_self, shapeCast_self,
    rowTo_apply, broadcast_apply]
  rfl

theorem pay2_eq (x0 : Vec Ideal S5000x64 .f32) (x1 : Vec Ideal S1x64 .f32) (x2 : Vec Ideal S64x64 .f32) :
    k2_pay1 (F := Ideal) x0 x1 x2 = Cert.LibLayer.rectified (n := 5000) (k := 64) (p := 64) x0 x1 x2 :=
  pay1_eq x0 x1 x2

theorem pay3_eq (x0 : Vec Ideal S5000x64 .f32) (x1 : Vec Ideal S1x64 .f32) (x2 : Vec Ideal S64x64 .f32) :
    k3_pay1 (F := Ideal) x0 x1 x2 = Cert.LibLayer.rectified (n := 5000) (k := 64) (p := 64) x0 x1 x2 :=
  pay1_eq x0 x1 x2

/-- The last launch's stored block is the rectified layer of its loaded blocks, one column wide. -/
theorem pay4_eq (x0 : Vec Ideal S5000x64 .f32) (x1 : Vec Ideal S1x64 .f32) (x2 : Vec Ideal S64x1 .f32) :
    k4_pay1 (F := Ideal) x0 x1 x2 = Cert.LibLayer.rectified (n := 5000) (k := 64) (p := 1) x0 x1 x2 := by
  funext i
  obtain ⟨r, q, rfl⟩ : ∃ (r : Fin 5000) (q : Fin 1), i = ix2 r q := ⟨i 0, i 1, eq_ix2 i⟩
  rw [Cert.LibLayer.rectified_apply]
  unfold k4_pay1
  refine (Cert.LibMatmulZero.matmulZero_nn_apply (m := 5000) (k := 64) (n := 1) _ none _ _ r q).trans ?_
  refine Finset.sum_congr rfl fun c _ => ?_
  rw [truncf_apply, truncf_apply, maximumf_apply, addf_apply, shapeCast_self, shapeCast_self,
    rowTo_apply, broadcast_apply]
  rfl

end Cert.KernelIdeal.Payload

end
-- ==== Proof.Blocks0.lean ====
/-
  Launch 0 of the fused layer, from blocks to the whole array.

  The launch walks ten grid points; point t loads rows 5000·t … 5000·t + 4999 of its input, the whole bias row and the
  whole weight matrix, and writes back the same rows of its output.  Since an entry of the layer depends only on its
  own row of the input, the block written at point t is block t of the layer of the WHOLE arrays, and the ten blocks
  tile the output: after the launch the output array is the layer of the three arrays the launch read, whatever the
  buffers held when the launch was entered.
-/
import proofs.«165181_j2379411882474_1_alg».proof.Proof.Gen.KernelIdeal.Frame
import proofs.«165181_j2379411882474_1_alg».proof.Proof.Payload
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-! ## Launch 0: window 3's array after the launch is the affine layer of the three arrays it reads -/

/-- The index maps of launch 0, decided over its ten grid points: the input's row block moves with the output's, point
    t writes row block t, every other block index is 0. -/
theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 9 :=
  (by decide +kernel : ∀ t : Fin grid0.N, _)

/-- Every row block is some point's. -/
theorem idx_onto0 : ∀ q0 : Fin 10, ∃ t : Fin cfg0.N, win0_3.index t = ![q0.val, 0] :=
  (by decide +kernel : ∀ q0 : Fin 10, ∃ t : Fin grid0.N, win0_3.index t = ![q0.val, 0])

/-- What point t writes back is block t of the affine layer of the whole arrays: row r of the block is row
    5000·t + r of the array, and the layer's entry (R, q) reads only row R of the input. -/
theorem flushed0 (c : Dev nD) (t : Fin cfg0.N) :
    (dat0 V c).flushed 3 t = ((cfg0.win 3).blk t).view.read (Elt Ideal)
      (Cert.LibLayer.affine (n := 50000) (k := 4) (p := 64) (V c main_arg0) (V c main_v27) (V c main_arg2)) := by
  show (cfg0.win 3).cut (grid0.coords t) ((dat0 V c).after 3 t) = _
  rw [after0_3]
  unfold out0_3
  rw [View.canon_unit_zero hz0]
  simp only [View.ld_unit_zero (S := S5000x4) hz0, View.ld_unit_zero (S := S1x4) hz0, View.ld_unit_zero (S := S4x64) hz0]
  rw [Cert.KernelIdeal.Payload.pay0_eq]
  obtain ⟨e0, e1, e2, e3, e4, e5, e6, e7⟩ := idx_facts0 t
  funext j
  obtain ⟨r, q, rfl⟩ : ∃ (r : Fin 5000) (q : Fin 64), j = ix2 r q := ⟨j 0, j 1, eq_ix2 j⟩
  have hr : r.val < 5000 := r.isLt
  have hq : q.val < 64 := q.isLt
  have hemb : ((cfg0.win 3).blk t).view.emb (ix2 r q)
      = ix2 (n0 := 50000) (n1 := 64) ⟨win0_3.index t (0 : Fin 2) * 5000 + r.val, by omega⟩ q := by
    funext a; apply Fin.ext
    match a with
    | ⟨0, _⟩ => show win0_3.index t (0 : Fin 2) * 5000 + 1 * r.val = win0_3.index t (0 : Fin 2) * 5000 + r.val; omega
    | ⟨1, _⟩ => show win0_3.index t (1 : Fin 2) * 64 + 1 * q.val = q.val; omega
  show Cert.LibLayer.affine (n := 5000) (k := 4) (p := 64) (iblk0 V c 0 t) (iblk0 V c 1 t) (iblk0 V c 2 t) (ix2 r q)
    = Cert.LibLayer.affine (n := 50000) (k := 4) (p := 64) (V c main_arg0) (V c main_v27) (V c main_arg2)
        (((cfg0.win 3).blk t).view.emb (ix2 r q))
  rw [hemb]
  refine Cert.LibLayer.affine_congr _ _ _ _ _ _ r _ q (fun cc => ?_) (fun cc => ?_) (fun cc => ?_)
  · have hcc : cc.val < 4 := cc.isLt
    show V c main_arg0 (((cfg0.win 0).blk t).view.emb (ix2 r cc)) = V c main_arg0 (ix2 _ cc)
    refine congrArg (V c main_arg0) ?_
    funext a; apply Fin.ext
    match a with
    | ⟨0, _⟩ => show win0_0.index t (0 : Fin 2) * 5000 + 1 * r.val = win0_3.index t (0 : Fin 2) * 5000 + r.val; omega
    | ⟨1, _⟩ => show win0_0.index t (1 : Fin 2) * 4 + 1 * cc.val = cc.val; omega
  · have hcc : cc.val < 4 := cc.isLt
    show V c main_v27 (((cfg0.win 1).blk t).view.emb (ix2 (0 : Fin 1) cc)) = V c main_v27 (ix2 (0 : Fin 1) cc)
    refine congrArg (V c main_v27) ?_
    funext a; apply Fin.ext
    match a with
    | ⟨0, _⟩ => show win0_1.index t (0 : Fin 2) * 1 + 1 * (0 : Fin 1).val = (0 : Fin 1).val; simp only [Fin.val_zero]; omega
    | ⟨1, _⟩ => show win0_1.index t (1 : Fin 2) * 4 + 1 * cc.val = cc.val; omega
  · have hcc : cc.val < 4 := cc.isLt
    show V c main_arg2 (((cfg0.win 2).blk t).view.emb (ix2 cc q)) = V c main_arg2 (ix2 cc q)
    refine congrArg (V c main_arg2) ?_
    funext a; apply Fin.ext
    match a with
    | ⟨0, _⟩ => show win0_2.index t (0 : Fin 2) * 4 + 1 * cc.val = cc.val; omega
    | ⟨1, _⟩ => show win0_2.index t (1 : Fin 2) * 64 + 1 * q.val = q.val; omega

/-- An index of the array is in point t's block iff each coordinate is in the block's range on its axis. -/
theorem mem_blk0 (t : Fin cfg0.N) (i : S50000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v28).slice (win0_3.rect t)).set ↔ _
  rw [View.set_slice_whole, Rect.mem_set_unit]
  exact Iff.rfl

/-- The ten row blocks tile the array: row R lies in block R / 5000. -/
theorem cover0 (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ := idx_onto0 ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- After launch 0 the written array is the affine layer of the arrays the launch read. -/
theorem array0 (c : Dev nD) :
    (dat0 V c).arrAt 3 cfg0.N
      = Cert.LibLayer.affine (n := 50000) (k := 4) (p := 64) (V c main_arg0) (V c main_v27) (V c main_arg2) :=
  (dat0 V c).arrAt_eq_of_cover 3 _ (fun t _ => flushed0 V c t) cover0

end Cert.KernelIdeal.Blocks

end
-- ==== Proof.Blocks1.lean ====
/-
  Launch 1 of the fused layer, from blocks to the whole array.

  The launch walks ten grid points; point t loads rows 5000·t … 5000·t + 4999 of its input, the whole bias row and the
  whole weight matrix, and writes back the same rows of its output.  Since an entry of the layer depends only on its
  own row of the input, the block written at point t is block t of the layer of the WHOLE arrays, and the ten blocks
  tile the output: after the launch the output array is the layer of the three arrays the launch read, whatever the
  buffers held when the launch was entered.
-/
import proofs.«165181_j2379411882474_1_alg».proof.Proof.Gen.KernelIdeal.Frame
import proofs.«165181_j2379411882474_1_alg».proof.Proof.Payload
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-! ## Launch 1: window 3's array after the launch is the rectified layer of the three arrays it reads -/

/-- The index maps of launch 1, decided over its ten grid points: the input's row block moves with the output's, point
    t writes row block t, every other block index is 0. -/
theorem idx_facts1 : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 9 :=
  (by decide +kernel : ∀ t : Fin grid1.N, _)

/-- Every row block is some point's. -/
theorem idx_onto1 : ∀ q0 : Fin 10, ∃ t : Fin cfg1.N, win1_3.index t = ![q0.val, 0] :=
  (by decide +kernel : ∀ q0 : Fin 10, ∃ t : Fin grid1.N, win1_3.index t = ![q0.val, 0])

/-- What point t writes back is block t of the rectified layer of the whole arrays: row r of the block is row
    5000·t + r of the array, and the layer's entry (R, q) reads only row R of the input. -/
theorem flushed1 (c : Dev nD) (t : Fin cfg1.N) :
    (dat1 V c).flushed 3 t = ((cfg1.win 3).blk t).view.read (Elt Ideal)
      (Cert.LibLayer.rectified (n := 50000) (k := 64) (p := 64) (V c main_v41) (V c main_v42) (V c main_v44)) := by
  show (cfg1.win 3).cut (grid1.coords t) ((dat1 V c).after 3 t) = _
  rw [after1_3]
  unfold out1_3
  rw [View.canon_unit_zero hz1]
  simp only [View.ld_unit_zero (S := S5000x64) hz1, View.ld_unit_zero (S := S1x64) hz1, View.ld_unit_zero (S := S64x64) hz1]
  rw [Cert.KernelIdeal.Payload.pay1_eq]
  obtain ⟨e0, e1, e2, e3, e4, e5, e6, e7⟩ := idx_facts1 t
  funext j
  obtain ⟨r, q, rfl⟩ : ∃ (r : Fin 5000) (q : Fin 64), j = ix2 r q := ⟨j 0, j 1, eq_ix2 j⟩
  have hr : r.val < 5000 := r.isLt
  have hq : q.val < 64 := q.isLt
  have hemb : ((cfg1.win 3).blk t).view.emb (ix2 r q)
      = ix2 (n0 := 50000) (n1 := 64) ⟨win1_3.index t (0 : Fin 2) * 5000 + r.val, by omega⟩ q := by
    funext a; apply Fin.ext
    match a with
    | ⟨0, _⟩ => show win1_3.index t (0 : Fin 2) * 5000 + 1 * r.val = win1_3.index t (0 : Fin 2) * 5000 + r.val; omega
    | ⟨1, _⟩ => show win1_3.index t (1 : Fin 2) * 64 + 1 * q.val = q.val; omega
  show Cert.LibLayer.rectified (n := 5000) (k := 64) (p := 64) (iblk1 V c 0 t) (iblk1 V c 1 t) (iblk1 V c 2 t) (ix2 r q)
    = Cert.LibLayer.rectified (n := 50000) (k := 64) (p := 64) (V c main_v41) (V c main_v42) (V c main_v44)
        (((cfg1.win 3).blk t).view.emb (ix2 r q))
  rw [hemb]
  refine Cert.LibLayer.rectified_congr _ _ _ _ _ _ r _ q (fun cc => ?_) (fun cc => ?_) (fun cc => ?_)
  · have hcc : cc.val < 64 := cc.isLt
    show V c main_v41 (((cfg1.win 0).blk t).view.emb (ix2 r cc)) = V c main_v41 (ix2 _ cc)
    refine congrArg (V c main_v41) ?_
    funext a; apply Fin.ext
    match a with
    | ⟨0, _⟩ => show win1_0.index t (0 : Fin 2) * 5000 + 1 * r.val = win1_3.index t (0 : Fin 2) * 5000 + r.val; omega
    | ⟨1, _⟩ => show win1_0.index t (1 : Fin 2) * 64 + 1 * cc.val = cc.val; omega
  · have hcc : cc.val < 64 := cc.isLt
    show V c main_v42 (((cfg1.win 1).blk t).view.emb (ix2 (0 : Fin 1) cc)) = V c main_v42 (ix2 (0 : Fin 1) cc)
    refine congrArg (V c main_v42) ?_
    funext a; apply Fin.ext
    match a with
    | ⟨0, _⟩ => show win1_1.index t (0 : Fin 2) * 1 + 1 * (0 : Fin 1).val = (0 : Fin 1).val; simp only [Fin.val_zero]; omega
    | ⟨1, _⟩ => show win1_1.index t (1 : Fin 2) * 64 + 1 * cc.val = cc.val; omega
  · have hcc : cc.val < 64 := cc.isLt
    show V c main_v44 (((cfg1.win 2).blk t).view.emb (ix2 cc q)) = V c main_v44 (ix2 cc q)
    refine congrArg (V c main_v44) ?_
    funext a; apply Fin.ext
    match a with
    | ⟨0, _⟩ => show win1_2.index t (0 : Fin 2) * 64 + 1 * cc.val = cc.val; omega
    | ⟨1, _⟩ => show win1_2.index t (1 : Fin 2) * 64 + 1 * q.val = q.val; omega

/-- An index of the array is in point t's block iff each coordinate is in the block's range on its axis. -/
theorem mem_blk1 (t : Fin cfg1.N) (i : S50000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v45).slice (win1_3.rect t)).set ↔ _
  rw [View.set_slice_whole, Rect.mem_set_unit]
  exact Iff.rfl

/-- The ten row blocks tile the array: row R lies in block R / 5000. -/
theorem cover1 (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  obtain ⟨t, ht⟩ := idx_onto1 ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- After launch 1 the written array is the rectified layer of the arrays the launch read. -/
theorem array1 (c : Dev nD) :
    (dat1 V c).arrAt 3 cfg1.N
      = Cert.LibLayer.rectified (n := 50000) (k := 64) (p := 64) (V c main_v41) (V c main_v42) (V c main_v44) :=
  (dat1 V c).arrAt_eq_of_cover 3 _ (fun t _ => flushed1 V c t) cover1

end Cert.KernelIdeal.Blocks

end
-- ==== Proof.Blocks2.lean ====
/-
  Launch 2 of the fused layer, from blocks to the whole array.

  The launch walks ten grid points; point t loads rows 5000·t … 5000·t + 4999 of its input, the whole bias row and the
  whole weight matrix, and writes back the same rows of its output.  Since an entry of the layer depends only on its
  own row of the input, the block written at point t is block t of the layer of the WHOLE arrays, and the ten blocks
  tile the output: after the launch the output array is the layer of the three arrays the launch read, whatever the
  buffers held when the launch was entered.
-/
import proofs.«165181_j2379411882474_1_alg».proof.Proof.Gen.KernelIdeal.Frame
import proofs.«165181_j2379411882474_1_alg».proof.Proof.Payload
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-! ## Launch 2: window 3's array after the launch is the rectified layer of the three arrays it reads -/

/-- The index maps of launch 2, decided over its ten grid points: the input's row block moves with the output's, point
    t writes row block t, every other block index is 0. -/
theorem idx_facts2 : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 9 :=
  (by decide +kernel : ∀ t : Fin grid2.N, _)

/-- Every row block is some point's. -/
theorem idx_onto2 : ∀ q0 : Fin 10, ∃ t : Fin cfg2.N, win2_3.index t = ![q0.val, 0] :=
  (by decide +kernel : ∀ q0 : Fin 10, ∃ t : Fin grid2.N, win2_3.index t = ![q0.val, 0])

/-- What point t writes back is block t of the rectified layer of the whole arrays: row r of the block is row
    5000·t + r of the array, and the layer's entry (R, q) reads only row R of the input. -/
theorem flushed2 (c : Dev nD) (t : Fin cfg2.N) :
    (dat2 V c).flushed 3 t = ((cfg2.win 3).blk t).view.read (Elt Ideal)
      (Cert.LibLayer.rectified (n := 50000) (k := 64) (p := 64) (V c main_v58) (V c main_v61) (V c main_v63)) := by
  show (cfg2.win 3).cut (grid2.coords t) ((dat2 V c).after 3 t) = _
  rw [after2_3]
  unfold out2_3
  rw [View.canon_unit_zero hz2]
  simp only [View.ld_unit_zero (S := S5000x64) hz2, View.ld_unit_zero (S := S1x64) hz2, View.ld_unit_zero (S := S64x64) hz2]
  rw [Cert.KernelIdeal.Payload.pay2_eq]
  obtain ⟨e0, e1, e2, e3, e4, e5, e6, e7⟩ := idx_facts2 t
  funext j
  obtain ⟨r, q, rfl⟩ : ∃ (r : Fin 5000) (q : Fin 64), j = ix2 r q := ⟨j 0, j 1, eq_ix2 j⟩
  have hr : r.val < 5000 := r.isLt
  have hq : q.val < 64 := q.isLt
  have hemb : ((cfg2.win 3).blk t).view.emb (ix2 r q)
      = ix2 (n0 := 50000) (n1 := 64) ⟨win2_3.index t (0 : Fin 2) * 5000 + r.val, by omega⟩ q := by
    funext a; apply Fin.ext
    match a with
    | ⟨0, _⟩ => show win2_3.index t (0 : Fin 2) * 5000 + 1 * r.val = win2_3.index t (0 : Fin 2) * 5000 + r.val; omega
    | ⟨1, _⟩ => show win2_3.index t (1 : Fin 2) * 64 + 1 * q.val = q.val; omega
  show Cert.LibLayer.rectified (n := 5000) (k := 64) (p := 64) (iblk2 V c 0 t) (iblk2 V c 1 t) (iblk2 V c 2 t) (ix2 r q)
    = Cert.LibLayer.rectified (n := 50000) (k := 64) (p := 64) (V c main_v58) (V c main_v61) (V c main_v63)
        (((cfg2.win 3).blk t).view.emb (ix2 r q))
  rw [hemb]
  refine Cert.LibLayer.rectified_congr _ _ _ _ _ _ r _ q (fun cc => ?_) (fun cc => ?_) (fun cc => ?_)
  · have hcc : cc.val < 64 := cc.isLt
    show V c main_v58 (((cfg2.win 0).blk t).view.emb (ix2 r cc)) = V c main_v58 (ix2 _ cc)
    refine congrArg (V c main_v58) ?_
    funext a; apply Fin.ext
    match a with
    | ⟨0, _⟩ => show win2_0.index t (0 : Fin 2) * 5000 + 1 * r.val = win2_3.index t (0 : Fin 2) * 5000 + r.val; omega
    | ⟨1, _⟩ => show win2_0.index t (1 : Fin 2) * 64 + 1 * cc.val = cc.val; omega
  · have hcc : cc.val < 64 := cc.isLt
    show V c main_v61 (((cfg2.win 1).blk t).view.emb (ix2 (0 : Fin 1) cc)) = V c main_v61 (ix2 (0 : Fin 1) cc)
    refine congrArg (V c main_v61) ?_
    funext a; apply Fin.ext
    match a with
    | ⟨0, _⟩ => show win2_1.index t (0 : Fin 2) * 1 + 1 * (0 : Fin 1).val = (0 : Fin 1).val; simp only [Fin.val_zero]; omega
    | ⟨1, _⟩ => show win2_1.index t (1 : Fin 2) * 64 + 1 * cc.val = cc.val; omega
  · have hcc : cc.val < 64 := cc.isLt
    show V c main_v63 (((cfg2.win 2).blk t).view.emb (ix2 cc q)) = V c main_v63 (ix2 cc q)
    refine congrArg (V c main_v63) ?_
    funext a; apply Fin.ext
    match a with
    | ⟨0, _⟩ => show win2_2.index t (0 : Fin 2) * 64 + 1 * cc.val = cc.val; omega
    | ⟨1, _⟩ => show win2_2.index t (1 : Fin 2) * 64 + 1 * q.val = q.val; omega

/-- An index of the array is in point t's block iff each coordinate is in the block's range on its axis. -/
theorem mem_blk2 (t : Fin cfg2.N) (i : S50000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v64).slice (win2_3.rect t)).set ↔ _
  rw [View.set_slice_whole, Rect.mem_set_unit]
  exact Iff.rfl

/-- The ten row blocks tile the array: row R lies in block R / 5000. -/
theorem cover2 (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  obtain ⟨t, ht⟩ := idx_onto2 ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- After launch 2 the written array is the rectified layer of the arrays the launch read. -/
theorem array2 (c : Dev nD) :
    (dat2 V c).arrAt 3 cfg2.N
      = Cert.LibLayer.rectified (n := 50000) (k := 64) (p := 64) (V c main_v58) (V c main_v61) (V c main_v63) :=
  (dat2 V c).arrAt_eq_of_cover 3 _ (fun t _ => flushed2 V c t) cover2

end Cert.KernelIdeal.Blocks

end
-- ==== Proof.Blocks3.lean ====
/-
  Launch 3 of the fused layer, from blocks to the whole array.

  The launch walks ten grid points; point t loads rows 5000·t … 5000·t + 4999 of its input, the whole bias row and the
  whole weight matrix, and writes back the same rows of its output.  Since an entry of the layer depends only on its
  own row of the input, the block written at point t is block t of the layer of the WHOLE arrays, and the ten blocks
  tile the output: after the launch the output array is the layer of the three arrays the launch read, whatever the
  buffers held when the launch was entered.
-/
import proofs.«165181_j2379411882474_1_alg».proof.Proof.Gen.KernelIdeal.Frame
import proofs.«165181_j2379411882474_1_alg».proof.Proof.Payload
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-! ## Launch 3: window 3's array after the launch is the rectified layer of the three arrays it reads -/

/-- The index maps of launch 3, decided over its ten grid points: the input's row block moves with the output's, point
    t writes row block t, every other block index is 0. -/
theorem idx_facts3 : ∀ t : Fin cfg3.N, win3_0.index t (0 : Fin 2) = win3_3.index t (0 : Fin 2)
    ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (1 : Fin 2) = 0 ∧ win3_3.index t (0 : Fin 2) ≤ 9 :=
  (by decide +kernel : ∀ t : Fin grid3.N, _)

/-- Every row block is some point's. -/
theorem idx_onto3 : ∀ q0 : Fin 10, ∃ t : Fin cfg3.N, win3_3.index t = ![q0.val, 0] :=
  (by decide +kernel : ∀ q0 : Fin 10, ∃ t : Fin grid3.N, win3_3.index t = ![q0.val, 0])

/-- What point t writes back is block t of the rectified layer of the whole arrays: row r of the block is row
    5000·t + r of the array, and the layer's entry (R, q) reads only row R of the input. -/
theorem flushed3 (c : Dev nD) (t : Fin cfg3.N) :
    (dat3 V c).flushed 3 t = ((cfg3.win 3).blk t).view.read (Elt Ideal)
      (Cert.LibLayer.rectified (n := 50000) (k := 64) (p := 64) (V c main_v77) (V c main_v80) (V c main_v82)) := by
  show (cfg3.win 3).cut (grid3.coords t) ((dat3 V c).after 3 t) = _
  rw [after3_3]
  unfold out3_3
  rw [View.canon_unit_zero hz3]
  simp only [View.ld_unit_zero (S := S5000x64) hz3, View.ld_unit_zero (S := S1x64) hz3, View.ld_unit_zero (S := S64x64) hz3]
  rw [Cert.KernelIdeal.Payload.pay3_eq]
  obtain ⟨e0, e1, e2, e3, e4, e5, e6, e7⟩ := idx_facts3 t
  funext j
  obtain ⟨r, q, rfl⟩ : ∃ (r : Fin 5000) (q : Fin 64), j = ix2 r q := ⟨j 0, j 1, eq_ix2 j⟩
  have hr : r.val < 5000 := r.isLt
  have hq : q.val < 64 := q.isLt
  have hemb : ((cfg3.win 3).blk t).view.emb (ix2 r q)
      = ix2 (n0 := 50000) (n1 := 64) ⟨win3_3.index t (0 : Fin 2) * 5000 + r.val, by omega⟩ q := by
    funext a; apply Fin.ext
    match a with
    | ⟨0, _⟩ => show win3_3.index t (0 : Fin 2) * 5000 + 1 * r.val = win3_3.index t (0 : Fin 2) * 5000 + r.val; omega
    | ⟨1, _⟩ => show win3_3.index t (1 : Fin 2) * 64 + 1 * q.val = q.val; omega
  show Cert.LibLayer.rectified (n := 5000) (k := 64) (p := 64) (iblk3 V c 0 t) (iblk3 V c 1 t) (iblk3 V c 2 t) (ix2 r q)
    = Cert.LibLayer.rectified (n := 50000) (k := 64) (p := 64) (V c main_v77) (V c main_v80) (V c main_v82)
        (((cfg3.win 3).blk t).view.emb (ix2 r q))
  rw [hemb]
  refine Cert.LibLayer.rectified_congr _ _ _ _ _ _ r _ q (fun cc => ?_) (fun cc => ?_) (fun cc => ?_)
  · have hcc : cc.val < 64 := cc.isLt
    show V c main_v77 (((cfg3.win 0).blk t).view.emb (ix2 r cc)) = V c main_v77 (ix2 _ cc)
    refine congrArg (V c main_v77) ?_
    funext a; apply Fin.ext
    match a with
    | ⟨0, _⟩ => show win3_0.index t (0 : Fin 2) * 5000 + 1 * r.val = win3_3.index t (0 : Fin 2) * 5000 + r.val; omega
    | ⟨1, _⟩ => show win3_0.index t (1 : Fin 2) * 64 + 1 * cc.val = cc.val; omega
  · have hcc : cc.val < 64 := cc.isLt
    show V c main_v80 (((cfg3.win 1).blk t).view.emb (ix2 (0 : Fin 1) cc)) = V c main_v80 (ix2 (0 : Fin 1) cc)
    refine congrArg (V c main_v80) ?_
    funext a; apply Fin.ext
    match a with
    | ⟨0, _⟩ => show win3_1.index t (0 : Fin 2) * 1 + 1 * (0 : Fin 1).val = (0 : Fin 1).val; simp only [Fin.val_zero]; omega
    | ⟨1, _⟩ => show win3_1.index t (1 : Fin 2) * 64 + 1 * cc.val = cc.val; omega
  · have hcc : cc.val < 64 := cc.isLt
    show V c main_v82 (((cfg3.win 2).blk t).view.emb (ix2 cc q)) = V c main_v82 (ix2 cc q)
    refine congrArg (V c main_v82) ?_
    funext a; apply Fin.ext
    match a with
    | ⟨0, _⟩ => show win3_2.index t (0 : Fin 2) * 64 + 1 * cc.val = cc.val; omega
    | ⟨1, _⟩ => show win3_2.index t (1 : Fin 2) * 64 + 1 * q.val = q.val; omega

/-- An index of the array is in point t's block iff each coordinate is in the block's range on its axis. -/
theorem mem_blk3 (t : Fin cfg3.N) (i : S50000x64.Idx) :
    i ∈ ((cfg3.win 3).blk t).view.set ↔ ∀ a : Fin 2, win3_3.index t a * S5000x64.size a ≤ (i a).val
      ∧ (i a).val < win3_3.index t a * S5000x64.size a + S5000x64.size a := by
  show i ∈ ((View.whole main_v83).slice (win3_3.rect t)).set ↔ _
  rw [View.set_slice_whole, Rect.mem_set_unit]
  exact Iff.rfl

/-- The ten row blocks tile the array: row R lies in block R / 5000. -/
theorem cover3 (i : S50000x64.Idx) :
    ∃ t : Fin cfg3.N, (cfg3.win 3).flush t = true ∧ i ∈ ((cfg3.win 3).blk t).view.set := by
  have hi0 : (i 0).val < 50000 := (i 0).isLt
  have hi1 : (i 1).val < 64 := (i 1).isLt
  obtain ⟨t, ht⟩ := idx_onto3 ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega

/-- After launch 3 the written array is the rectified layer of the arrays the launch read. -/
theorem array3 (c : Dev nD) :
    (dat3 V c).arrAt 3 cfg3.N
      = Cert.LibLayer.rectified (n := 50000) (k := 64) (p := 64) (V c main_v77) (V c main_v80) (V c main_v82) :=
  (dat3 V c).arrAt_eq_of_cover 3 _ (fun t _ => flushed3 V c t) cover3

end Cert.KernelIdeal.Blocks

end
-- ==== Proof.Blocks4.lean ====
/-
  Launch 4 of the fused layer, from blocks to the whole array.

  The launch walks ten grid points; point t loads rows 5000·t … 5000·t + 4999 of its input, the whole bias row and the
  whole weight matrix, and writes back the same rows of its output.  Since an entry of the layer depends only on its
  own row of the input, the block written at point t is block t of the layer of the WHOLE arrays, and the ten blocks
  tile the output: after the launch the output array is the layer of the three arrays the launch read, whatever the
  buffers held when the launch was entered.
-/
import proofs.«165181_j2379411882474_1_alg».proof.Proof.Gen.KernelIdeal.Frame
import proofs.«165181_j2379411882474_1_alg».proof.Proof.Payload
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz4 : (![0, 0] : Fin 2 → Nat) = fun _ => 0 := funext fun a => by fin_cases a <;> rfl

/-! ## Launch 4: window 3's array after the launch is the rectified layer of the three arrays it reads -/

/-- The index maps of launch 4, decided over its ten grid points: the input's row block moves with the output's, point
    t writes row block t, every other block index is 0. -/
theorem idx_facts4 : ∀ t : Fin cfg4.N, win4_0.index t (0 : Fin 2) = win4_3.index t (0 : Fin 2)
    ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (1 : Fin 2) = 0 ∧ win4_3.index t (0 : Fin 2) ≤ 9 :=
  (by decide +kernel : ∀ t : Fin grid4.N, _)

/-- Every row block is some point's. -/
theorem idx_onto4 : ∀ q0 : Fin 10, ∃ t : Fin cfg4.N, win4_3.index t = ![q0.val, 0] :=
  (by decide +kernel : ∀ q0 : Fin 10, ∃ t : Fin grid4.N, win4_3.index t = ![q0.val, 0])

/-- What point t writes back is block t of the rectified layer of the whole arrays: row r of the block is row
    5000·t + r of the array, and the layer's entry (R, q) reads only row R of the input. -/
theorem flushed4 (c : Dev nD) (t : Fin cfg4.N) :
    (dat4 V c).flushed 3 t = ((cfg4.win 3).blk t).view.read (Elt Ideal)
      (Cert.LibLayer.rectified (n := 50000) (k := 64) (p := 1) (V c main_v96) (V c main_v99) (V c main_arg6)) := by
  show (cfg4.win 3).cut (grid4.coords t) ((dat4 V c).after 3 t) = _
  rw [after4_3]
  unfold out4_3
  rw [View.canon_unit_zero hz4]
  simp only [View.ld_unit_zero (S := S5000x64) hz4, View.ld_unit_zero (S := S1x64) hz4, View.ld_unit_zero (S := S64x1) hz4]
  rw [Cert.KernelIdeal.Payload.pay4_eq]
  obtain ⟨e0, e1, e2, e3, e4, e5, e6, e7⟩ := idx_facts4 t
  funext j
  obtain ⟨r, q, rfl⟩ : ∃ (r : Fin 5000) (q : Fin 1), j = ix2 r q := ⟨j 0, j 1, eq_ix2 j⟩
  have hr : r.val < 5000 := r.isLt
  have hq : q.val < 1 := q.isLt
  have hemb : ((cfg4.win 3).blk t).view.emb (ix2 r q)
      = ix2 (n0 := 50000) (n1 := 1) ⟨win4_3.index t (0 : Fin 2) * 5000 + r.val, by omega⟩ q := by
    funext a; apply Fin.ext
    match a with
    | ⟨0, _⟩ => show win4_3.index t (0 : Fin 2) * 5000 + 1 * r.val = win4_3.index t (0 : Fin 2) * 5000 + r.val; omega
    | ⟨1, _⟩ => show win4_3.index t (1 : Fin 2) * 1 + 1 * q.val = q.val; omega
  show Cert.LibLayer.rectified (n := 5000) (k := 64) (p := 1) (iblk4 V c 0 t) (iblk4 V c 1 t) (iblk4 V c 2 t) (ix2 r q)
    = Cert.LibLayer.rectified (n := 50000) (k := 64) (p := 1) (V c main_v96) (V c main_v99) (V c main_arg6)
        (((cfg4.win 3).blk t).view.emb (ix2 r q))
  rw [hemb]
  refine Cert.LibLayer.rectified_congr _ _ _ _ _ _ r _ q (fun cc => ?_) (fun cc => ?_) (fun cc => ?_)
  · have hcc : cc.val < 64 := cc.isLt
    show V c main_v96 (((cfg4.win 0).blk t).view.emb (ix2 r cc)) = V c main_v96 (ix2 _ cc)
    refine congrArg (V c main_v96) ?_
    funext a; apply Fin.ext
    match a with
    | ⟨0, _⟩ => show win4_0.index t (0 : Fin 2) * 5000 + 1 * r.val = win4_3.index t (0 : Fin 2) * 5000 + r.val; omega
    | ⟨1, _⟩ => show win4_0.index t (1 : Fin 2) * 64 + 1 * cc.val = cc.val; omega
  · have hcc : cc.val < 64 := cc.isLt
    show V c main_v99 (((cfg4.win 1).blk t).view.emb (ix2 (0 : Fin 1) cc)) = V c main_v99 (ix2 (0 : Fin 1) cc)
    refine congrArg (V c main_v99) ?_
    funext a; apply Fin.ext
    match a with
    | ⟨0, _⟩ => show win4_1.index t (0 : Fin 2) * 1 + 1 * (0 : Fin 1).val = (0 : Fin 1).val; simp only [Fin.val_zero]; omega
    | ⟨1, _⟩ => show win4_1.index t (1 : Fin 2) * 64 + 1 * cc.val = cc.val; omega
  · have hcc : cc.val < 64 := cc.isLt
    show V c main_arg6 (((cfg4.win 2).blk t).view.emb (ix2 cc q)) = V c main_arg6 (ix2 cc q)
    refine congrArg (V c main_arg6) ?_
    funext a; apply Fin.ext
    match a with
    | ⟨0, _⟩ => show win4_2.index t (0 : Fin 2) * 64 + 1 * cc.val = cc.val; omega
    | ⟨1, _⟩ => show win4_2.index t (1 : Fin 2) * 1 + 1 * q.val = q.val; omega

/-- An index of the array is in point t's block iff each coordinate is in the block's range on its axis. -/
theorem mem_blk4 (t : Fin cfg4.N) (i : S50000x1.Idx) :
    i ∈ ((cfg4.win 3).blk t).view.set ↔ ∀ a : Fin 2, win4_3.index t a * S5000x1.size a ≤ (i a).val
      ∧ (i a).val < win4_3.index t a * S5000x1.size a + S5000x1.size a := by
  show i ∈ ((View.whole main_v100).slice (win4_3.rect t)).set ↔ _
  rw [View.set_slice_whole, Rect.mem_set_unit]
  exact Iff.rfl

/-- The ten row blocks tile the array: row R lies in block R / 5000. -/
theorem cover4 (i : S50000x1.Idx) :
    ∃ t : Fin cfg4.N, (cfg4.win 3).flush t = true ∧ i ∈ ((cfg4.win 3).blk t).view.set := by
  have hi0 : (i 0).val < 50000 := (i 0).isLt
  have hi1 : (i 1).val < 1 := (i 1).isLt
  obtain ⟨t, ht⟩ := idx_onto4 ⟨(i 0).val / 5000, by omega⟩
  have q0 : win4_3.index t (0 : Fin 2) = (i 0).val / 5000 := congrFun ht 0
  have q1 : win4_3.index t (1 : Fin 2) = 0 := congrFun ht 1
  refine ⟨t, flush4_3 t, ?_⟩
  rw [mem_blk4]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 1 ≤ (i 1).val ∧ (i 1).val < win4_3.index t (1 : Fin 2) * 1 + 1; omega

/-- After launch 4 the written array is the rectified layer of the arrays the launch read. -/
theorem array4 (c : Dev nD) :
    (dat4 V c).arrAt 3 cfg4.N
      = Cert.LibLayer.rectified (n := 50000) (k := 64) (p := 1) (V c main_v96) (V c main_v99) (V c main_arg6) :=
  (dat4 V c).arrAt_eq_of_cover 3 _ (fun t _ => flushed4 V c t) cover4

end Cert.KernelIdeal.Blocks

end
-- ==== Proof.KernelValue.lean ====
/-
  The idealized kernel program's result as a function of its arguments.

  The buffer contents at the eleven boundaries of the program — after each host stretch and after each launch — are
  followed from the launch memory to the result: a host stretch's results are its operations applied to the previous
  boundary's contents, a launch's output array is the layer of the arrays the launch read (Blocks0 … Blocks4), and
  every buffer a segment does not write keeps its contents.  What comes out is the composition, five times over, of a
  layer and an aggregation along the edges, from the argument arrays alone.
-/
import proofs.«165181_j2379411882474_1_alg».proof.Proof.Gen.KernelIdeal.Frame
import proofs.«165181_j2379411882474_1_alg».proof.Proof.StagesK
import proofs.«165181_j2379411882474_1_alg».proof.Proof.Blocks0
import proofs.«165181_j2379411882474_1_alg».proof.Proof.Blocks1
import proofs.«165181_j2379411882474_1_alg».proof.Proof.Blocks2
import proofs.«165181_j2379411882474_1_alg».proof.Proof.Blocks3
import proofs.«165181_j2379411882474_1_alg».proof.Proof.Blocks4
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-- The edge sources, targets and weights, from the edge list. -/
def sV : (⟨S850000, .i32⟩ : BufTy).Contents (Elt Ideal) := Stages.src (m ((c.tc : Thread nD τ).loc main_arg1))
def dV : (⟨S850000, .i32⟩ : BufTy).Contents (Elt Ideal) := Stages.dst (m ((c.tc : Thread nD τ).loc main_arg1))
def nV : (⟨S850000, .f32⟩ : BufTy).Contents (Elt Ideal) := Stages.norm (sV m c) (dV m c)
/-- The projected node features (the first launch: the affine layer at the zero bias row). -/
def h0 : (⟨S50000x64, .f32⟩ : BufTy).Contents (Elt Ideal) := Cert.LibLayer.affine (n := 50000) (k := 4) (p := 64) (m ((c.tc : Thread nD τ).loc main_arg0)) (Stages.zrow (F := Ideal)) (m ((c.tc : Thread nD τ).loc main_arg2))
def a1 : (⟨S50000x64, .f32⟩ : BufTy).Contents (Elt Ideal) := Stages.agg1 (h0 m c) (sV m c) (dV m c) (nV m c)
def h1 : (⟨S50000x64, .f32⟩ : BufTy).Contents (Elt Ideal) := Cert.LibLayer.rectified (n := 50000) (k := 64) (p := 64) (a1 m c) (Stages.bias1 (m ((c.tc : Thread nD τ).loc main_arg3))) (Stages.w1 (m ((c.tc : Thread nD τ).loc main_arg4)))
def a2 : (⟨S50000x64, .f32⟩ : BufTy).Contents (Elt Ideal) := Stages.agg2 (h1 m c) (sV m c) (dV m c) (nV m c)
def h2 : (⟨S50000x64, .f32⟩ : BufTy).Contents (Elt Ideal) := Cert.LibLayer.rectified (n := 50000) (k := 64) (p := 64) (a2 m c) (Stages.bias2 (m ((c.tc : Thread nD τ).loc main_arg5))) (Stages.w2 (m ((c.tc : Thread nD τ).loc main_arg4)))
def a3 : (⟨S50000x64, .f32⟩ : BufTy).Contents (Elt Ideal) := Stages.agg3 (h2 m c) (sV m c) (dV m c) (nV m c)
def h3 : (⟨S50000x64, .f32⟩ : BufTy).Contents (Elt Ideal) := Cert.LibLayer.rectified (n := 50000) (k := 64) (p := 64) (a3 m c) (Stages.bias3 (m ((c.tc : Thread nD τ).loc main_arg5))) (Stages.w3 (m ((c.tc : Thread nD τ).loc main_arg4)))
def a4 : (⟨S50000x64, .f32⟩ : BufTy).Contents (Elt Ideal) := Stages.agg4 (h3 m c) (sV m c) (dV m c) (nV m c)
def h4 : (⟨S50000x1, .f32⟩ : BufTy).Contents (Elt Ideal) := Cert.LibLayer.rectified (n := 50000) (k := 64) (p := 1) (a4 m c) (Stages.bias4 (m ((c.tc : Thread nD τ).loc main_arg5))) (m ((c.tc : Thread nD τ).loc main_arg6))
/-- The program's result: the last aggregation plus the output bias. -/
def result : (⟨S50000x1, .f32⟩ : BufTy).Contents (Elt Ideal) := Stages.out (h4 m c) (sV m c) (dV m c) (nV m c) (m ((c.tc : Thread nD τ).loc main_arg7))

/-! ## Boundary 1: after host stretch 0 -/
theorem L1_main_v3 : W1 m ρ c (Proc.devRef .tc main_v3) = sV m c := by
  show StableHlo.after hostOps0 (W0 m ρ c) (Proc.devRef .tc main_v3) = _
  after_results_simp
  rfl
theorem L1_main_v6 : W1 m ρ c (Proc.devRef .tc main_v6) = dV m c := by
  show StableHlo.after hostOps0 (W0 m ρ c) (Proc.devRef .tc main_v6) = _
  after_results_simp
  rfl
theorem L1_main_v26 : W1 m ρ c (Proc.devRef .tc main_v26) = nV m c := by
  show StableHlo.after hostOps0 (W0 m ρ c) (Proc.devRef .tc main_v26) = _
  after_results_simp
  rfl
theorem L1_main_v27 : W1 m ρ c (Proc.devRef .tc main_v27) = (Stages.zrow (F := Ideal)) := by
  show StableHlo.after hostOps0 (W0 m ρ c) (Proc.devRef .tc main_v27) = _
  after_results_simp
  rfl
theorem L1_main_arg0 : W1 m ρ c (Proc.devRef .tc main_arg0) = m ((c.tc : Thread nD τ).loc main_arg0) := by
  show StableHlo.after hostOps0 (W0 m ρ c) (Proc.devRef .tc main_arg0) = _
  after_results_simp
theorem L1_main_arg2 : W1 m ρ c (Proc.devRef .tc main_arg2) = m ((c.tc : Thread nD τ).loc main_arg2) := by
  show StableHlo.after hostOps0 (W0 m ρ c) (Proc.devRef .tc main_arg2) = _
  after_results_simp
theorem L1_main_arg3 : W1 m ρ c (Proc.devRef .tc main_arg3) = m ((c.tc : Thread nD τ).loc main_arg3) := by
  show StableHlo.after hostOps0 (W0 m ρ c) (Proc.devRef .tc main_arg3) = _
  after_results_simp
theorem L1_main_arg4 : W1 m ρ c (Proc.devRef .tc main_arg4) = m ((c.tc : Thread nD τ).loc main_arg4) := by
  show StableHlo.after hostOps0 (W0 m ρ c) (Proc.devRef .tc main_arg4) = _
  after_results_simp
theorem L1_main_arg5 : W1 m ρ c (Proc.devRef .tc main_arg5) = m ((c.tc : Thread nD τ).loc main_arg5) := by
  show StableHlo.after hostOps0 (W0 m ρ c) (Proc.devRef .tc main_arg5) = _
  after_results_simp
theorem L1_main_arg6 : W1 m ρ c (Proc.devRef .tc main_arg6) = m ((c.tc : Thread nD τ).loc main_arg6) := by
  show StableHlo.after hostOps0 (W0 m ρ c) (Proc.devRef .tc main_arg6) = _
  after_results_simp
theorem L1_main_arg7 : W1 m ρ c (Proc.devRef .tc main_arg7) = m ((c.tc : Thread nD τ).loc main_arg7) := by
  show StableHlo.after hostOps0 (W0 m ρ c) (Proc.devRef .tc main_arg7) = _
  after_results_simp

/-! ## Boundary 2: after launch 0 -/
theorem L2_main_v28 : W2 m ρ c (Proc.devRef .tc main_v28) = h0 m c :=
  (W2_arr m ρ c 3).trans ((Blocks.array0 (V1 m ρ) c).trans (by
    show Cert.LibLayer.affine (n := 50000) (k := 4) (p := 64) (W1 m ρ c (Proc.devRef .tc main_arg0)) (W1 m ρ c (Proc.devRef .tc main_v27)) (W1 m ρ c (Proc.devRef .tc main_arg2)) = _
    rw [L1_main_arg0 m ρ c, L1_main_v27 m ρ c, L1_main_arg2 m ρ c]
    rfl))
theorem L2_main_v3 : W2 m ρ c (Proc.devRef .tc main_v3) = sV m c :=
  (W2_of_ne m ρ c main_v3 (by decide)).trans (L1_main_v3 m ρ c)
theorem L2_main_v6 : W2 m ρ c (Proc.devRef .tc main_v6) = dV m c :=
  (W2_of_ne m ρ c main_v6 (by decide)).trans (L1_main_v6 m ρ c)
theorem L2_main_v26 : W2 m ρ c (Proc.devRef .tc main_v26) = nV m c :=
  (W2_of_ne m ρ c main_v26 (by decide)).trans (L1_main_v26 m ρ c)
theorem L2_main_arg3 : W2 m ρ c (Proc.devRef .tc main_arg3) = m ((c.tc : Thread nD τ).loc main_arg3) :=
  (W2_of_ne m ρ c main_arg3 (by decide)).trans (L1_main_arg3 m ρ c)
theorem L2_main_arg4 : W2 m ρ c (Proc.devRef .tc main_arg4) = m ((c.tc : Thread nD τ).loc main_arg4) :=
  (W2_of_ne m ρ c main_arg4 (by decide)).trans (L1_main_arg4 m ρ c)
theorem L2_main_arg5 : W2 m ρ c (Proc.devRef .tc main_arg5) = m ((c.tc : Thread nD τ).loc main_arg5) :=
  (W2_of_ne m ρ c main_arg5 (by decide)).trans (L1_main_arg5 m ρ c)
theorem L2_main_arg6 : W2 m ρ c (Proc.devRef .tc main_arg6) = m ((c.tc : Thread nD τ).loc main_arg6) :=
  (W2_of_ne m ρ c main_arg6 (by decide)).trans (L1_main_arg6 m ρ c)
theorem L2_main_arg7 : W2 m ρ c (Proc.devRef .tc main_arg7) = m ((c.tc : Thread nD τ).loc main_arg7) :=
  (W2_of_ne m ρ c main_arg7 (by decide)).trans (L1_main_arg7 m ρ c)

/-! ## Boundary 3: after host stretch 1 -/
set_option maxHeartbeats 4000000 in
theorem L3_main_v41 : W3 m ρ c (Proc.devRef .tc main_v41) = a1 m c := by
  show StableHlo.after hostOps1 (W2 m ρ c) (Proc.devRef .tc main_v41) = _
  after_results_simp
  rw [L2_main_v28 m ρ c, L2_main_v3 m ρ c, L2_main_v6 m ρ c, L2_main_v26 m ρ c]
  rfl
theorem L3_main_v42 : W3 m ρ c (Proc.devRef .tc main_v42) = Stages.bias1 (m ((c.tc : Thread nD τ).loc main_arg3)) := by
  show StableHlo.after hostOps1 (W2 m ρ c) (Proc.devRef .tc main_v42) = _
  after_results
  rw [L2_main_arg3 m ρ c]
  rfl
theorem L3_main_v44 : W3 m ρ c (Proc.devRef .tc main_v44) = Stages.w1 (m ((c.tc : Thread nD τ).loc main_arg4)) := by
  show StableHlo.after hostOps1 (W2 m ρ c) (Proc.devRef .tc main_v44) = _
  after_results
  rw [L2_main_arg4 m ρ c]
  rfl
theorem L3_main_v3 : W3 m ρ c (Proc.devRef .tc main_v3) = sV m c := by
  show StableHlo.after hostOps1 (W2 m ρ c) (Proc.devRef .tc main_v3) = _
  after_results
  exact L2_main_v3 m ρ c
theorem L3_main_v6 : W3 m ρ c (Proc.devRef .tc main_v6) = dV m c := by
  show StableHlo.after hostOps1 (W2 m ρ c) (Proc.devRef .tc main_v6) = _
  after_results
  exact L2_main_v6 m ρ c
theorem L3_main_v26 : W3 m ρ c (Proc.devRef .tc main_v26) = nV m c := by
  show StableHlo.after hostOps1 (W2 m ρ c) (Proc.devRef .tc main_v26) = _
  after_results
  exact L2_main_v26 m ρ c
theorem L3_main_arg4 : W3 m ρ c (Proc.devRef .tc main_arg4) = m ((c.tc : Thread nD τ).loc main_arg4) := by
  show StableHlo.after hostOps1 (W2 m ρ c) (Proc.devRef .tc main_arg4) = _
  after_results
  exact L2_main_arg4 m ρ c
theorem L3_main_arg5 : W3 m ρ c (Proc.devRef .tc main_arg5) = m ((c.tc : Thread nD τ).loc main_arg5) := by
  show StableHlo.after hostOps1 (W2 m ρ c) (Proc.devRef .tc main_arg5) = _
  after_results
  exact L2_main_arg5 m ρ c
theorem L3_main_arg6 : W3 m ρ c (Proc.devRef .tc main_arg6) = m ((c.tc : Thread nD τ).loc main_arg6) := by
  show StableHlo.after hostOps1 (W2 m ρ c) (Proc.devRef .tc main_arg6) = _
  after_results
  exact L2_main_arg6 m ρ c
theorem L3_main_arg7 : W3 m ρ c (Proc.devRef .tc main_arg7) = m ((c.tc : Thread nD τ).loc main_arg7) := by
  show StableHlo.after hostOps1 (W2 m ρ c) (Proc.devRef .tc main_arg7) = _
  after_results
  exact L2_main_arg7 m ρ c

/-! ## Boundary 4: after launch 1 -/
theorem L4_main_v45 : W4 m ρ c (Proc.devRef .tc main_v45) = h1 m c :=
  (W4_arr m ρ c 3).trans ((Blocks.array1 (V3 m ρ) c).trans (by
    show Cert.LibLayer.rectified (n := 50000) (k := 64) (p := 64) (W3 m ρ c (Proc.devRef .tc main_v41)) (W3 m ρ c (Proc.devRef .tc main_v42)) (W3 m ρ c (Proc.devRef .tc main_v44)) = _
    rw [L3_main_v41 m ρ c, L3_main_v42 m ρ c, L3_main_v44 m ρ c]
    rfl))
theorem L4_main_v3 : W4 m ρ c (Proc.devRef .tc main_v3) = sV m c :=
  (W4_of_ne m ρ c main_v3 (by decide)).trans (L3_main_v3 m ρ c)
theorem L4_main_v6 : W4 m ρ c (Proc.devRef .tc main_v6) = dV m c :=
  (W4_of_ne m ρ c main_v6 (by decide)).trans (L3_main_v6 m ρ c)
theorem L4_main_v26 : W4 m ρ c (Proc.devRef .tc main_v26) = nV m c :=
  (W4_of_ne m ρ c main_v26 (by decide)).trans (L3_main_v26 m ρ c)
theorem L4_main_arg4 : W4 m ρ c (Proc.devRef .tc main_arg4) = m ((c.tc : Thread nD τ).loc main_arg4) :=
  (W4_of_ne m ρ c main_arg4 (by decide)).trans (L3_main_arg4 m ρ c)
theorem L4_main_arg5 : W4 m ρ c (Proc.devRef .tc main_arg5) = m ((c.tc : Thread nD τ).loc main_arg5) :=
  (W4_of_ne m ρ c main_arg5 (by decide)).trans (L3_main_arg5 m ρ c)
theorem L4_main_arg6 : W4 m ρ c (Proc.devRef .tc main_arg6) = m ((c.tc : Thread nD τ).loc main_arg6) :=
  (W4_of_ne m ρ c main_arg6 (by decide)).trans (L3_main_arg6 m ρ c)
theorem L4_main_arg7 : W4 m ρ c (Proc.devRef .tc main_arg7) = m ((c.tc : Thread nD τ).loc main_arg7) :=
  (W4_of_ne m ρ c main_arg7 (by decide)).trans (L3_main_arg7 m ρ c)

/-! ## Boundary 5: after host stretch 2 -/
set_option maxHeartbeats 4000000 in
theorem L5_main_v58 : W5 m ρ c (Proc.devRef .tc main_v58) = a2 m c := by
  show StableHlo.after hostOps2 (W4 m ρ c) (Proc.devRef .tc main_v58) = _
  after_results_simp
  rw [L4_main_v45 m ρ c, L4_main_v3 m ρ c, L4_main_v6 m ρ c, L4_main_v26 m ρ c]
  rfl
theorem L5_main_v61 : W5 m ρ c (Proc.devRef .tc main_v61) = Stages.bias2 (m ((c.tc : Thread nD τ).loc main_arg5)) := by
  show StableHlo.after hostOps2 (W4 m ρ c) (Proc.devRef .tc main_v61) = _
  after_results
  rw [L4_main_arg5 m ρ c]
  rfl
theorem L5_main_v63 : W5 m ρ c (Proc.devRef .tc main_v63) = Stages.w2 (m ((c.tc : Thread nD τ).loc main_arg4)) := by
  show StableHlo.after hostOps2 (W4 m ρ c) (Proc.devRef .tc main_v63) = _
  after_results
  rw [L4_main_arg4 m ρ c]
  rfl
theorem L5_main_v3 : W5 m ρ c (Proc.devRef .tc main_v3) = sV m c := by
  show StableHlo.after hostOps2 (W4 m ρ c) (Proc.devRef .tc main_v3) = _
  after_results
  exact L4_main_v3 m ρ c
theorem L5_main_v6 : W5 m ρ c (Proc.devRef .tc main_v6) = dV m c := by
  show StableHlo.after hostOps2 (W4 m ρ c) (Proc.devRef .tc main_v6) = _
  after_results
  exact L4_main_v6 m ρ c
theorem L5_main_v26 : W5 m ρ c (Proc.devRef .tc main_v26) = nV m c := by
  show StableHlo.after hostOps2 (W4 m ρ c) (Proc.devRef .tc main_v26) = _
  after_results
  exact L4_main_v26 m ρ c
theorem L5_main_arg4 : W5 m ρ c (Proc.devRef .tc main_arg4) = m ((c.tc : Thread nD τ).loc main_arg4) := by
  show StableHlo.after hostOps2 (W4 m ρ c) (Proc.devRef .tc main_arg4) = _
  after_results
  exact L4_main_arg4 m ρ c
theorem L5_main_arg5 : W5 m ρ c (Proc.devRef .tc main_arg5) = m ((c.tc : Thread nD τ).loc main_arg5) := by
  show StableHlo.after hostOps2 (W4 m ρ c) (Proc.devRef .tc main_arg5) = _
  after_results
  exact L4_main_arg5 m ρ c
theorem L5_main_arg6 : W5 m ρ c (Proc.devRef .tc main_arg6) = m ((c.tc : Thread nD τ).loc main_arg6) := by
  show StableHlo.after hostOps2 (W4 m ρ c) (Proc.devRef .tc main_arg6) = _
  after_results
  exact L4_main_arg6 m ρ c
theorem L5_main_arg7 : W5 m ρ c (Proc.devRef .tc main_arg7) = m ((c.tc : Thread nD τ).loc main_arg7) := by
  show StableHlo.after hostOps2 (W4 m ρ c) (Proc.devRef .tc main_arg7) = _
  after_results
  exact L4_main_arg7 m ρ c

/-! ## Boundary 6: after launch 2 -/
theorem L6_main_v64 : W6 m ρ c (Proc.devRef .tc main_v64) = h2 m c :=
  (W6_arr m ρ c 3).trans ((Blocks.array2 (V5 m ρ) c).trans (by
    show Cert.LibLayer.rectified (n := 50000) (k := 64) (p := 64) (W5 m ρ c (Proc.devRef .tc main_v58)) (W5 m ρ c (Proc.devRef .tc main_v61)) (W5 m ρ c (Proc.devRef .tc main_v63)) = _
    rw [L5_main_v58 m ρ c, L5_main_v61 m ρ c, L5_main_v63 m ρ c]
    rfl))
theorem L6_main_v3 : W6 m ρ c (Proc.devRef .tc main_v3) = sV m c :=
  (W6_of_ne m ρ c main_v3 (by decide)).trans (L5_main_v3 m ρ c)
theorem L6_main_v6 : W6 m ρ c (Proc.devRef .tc main_v6) = dV m c :=
  (W6_of_ne m ρ c main_v6 (by decide)).trans (L5_main_v6 m ρ c)
theorem L6_main_v26 : W6 m ρ c (Proc.devRef .tc main_v26) = nV m c :=
  (W6_of_ne m ρ c main_v26 (by decide)).trans (L5_main_v26 m ρ c)
theorem L6_main_arg4 : W6 m ρ c (Proc.devRef .tc main_arg4) = m ((c.tc : Thread nD τ).loc main_arg4) :=
  (W6_of_ne m ρ c main_arg4 (by decide)).trans (L5_main_arg4 m ρ c)
theorem L6_main_arg5 : W6 m ρ c (Proc.devRef .tc main_arg5) = m ((c.tc : Thread nD τ).loc main_arg5) :=
  (W6_of_ne m ρ c main_arg5 (by decide)).trans (L5_main_arg5 m ρ c)
theorem L6_main_arg6 : W6 m ρ c (Proc.devRef .tc main_arg6) = m ((c.tc : Thread nD τ).loc main_arg6) :=
  (W6_of_ne m ρ c main_arg6 (by decide)).trans (L5_main_arg6 m ρ c)
theorem L6_main_arg7 : W6 m ρ c (Proc.devRef .tc main_arg7) = m ((c.tc : Thread nD τ).loc main_arg7) :=
  (W6_of_ne m ρ c main_arg7 (by decide)).trans (L5_main_arg7 m ρ c)

/-! ## Boundary 7: after host stretch 3 -/
set_option maxHeartbeats 4000000 in
theorem L7_main_v77 : W7 m ρ c (Proc.devRef .tc main_v77) = a3 m c := by
  show StableHlo.after hostOps3 (W6 m ρ c) (Proc.devRef .tc main_v77) = _
  after_results_simp
  rw [L6_main_v64 m ρ c, L6_main_v3 m ρ c, L6_main_v6 m ρ c, L6_main_v26 m ρ c]
  rfl
theorem L7_main_v80 : W7 m ρ c (Proc.devRef .tc main_v80) = Stages.bias3 (m ((c.tc : Thread nD τ).loc main_arg5)) := by
  show StableHlo.after hostOps3 (W6 m ρ c) (Proc.devRef .tc main_v80) = _
  after_results
  rw [L6_main_arg5 m ρ c]
  rfl
theorem L7_main_v82 : W7 m ρ c (Proc.devRef .tc main_v82) = Stages.w3 (m ((c.tc : Thread nD τ).loc main_arg4)) := by
  show StableHlo.after hostOps3 (W6 m ρ c) (Proc.devRef .tc main_v82) = _
  after_results
  rw [L6_main_arg4 m ρ c]
  rfl
theorem L7_main_v3 : W7 m ρ c (Proc.devRef .tc main_v3) = sV m c := by
  show StableHlo.after hostOps3 (W6 m ρ c) (Proc.devRef .tc main_v3) = _
  after_results
  exact L6_main_v3 m ρ c
theorem L7_main_v6 : W7 m ρ c (Proc.devRef .tc main_v6) = dV m c := by
  show StableHlo.after hostOps3 (W6 m ρ c) (Proc.devRef .tc main_v6) = _
  after_results
  exact L6_main_v6 m ρ c
theorem L7_main_v26 : W7 m ρ c (Proc.devRef .tc main_v26) = nV m c := by
  show StableHlo.after hostOps3 (W6 m ρ c) (Proc.devRef .tc main_v26) = _
  after_results
  exact L6_main_v26 m ρ c
theorem L7_main_arg5 : W7 m ρ c (Proc.devRef .tc main_arg5) = m ((c.tc : Thread nD τ).loc main_arg5) := by
  show StableHlo.after hostOps3 (W6 m ρ c) (Proc.devRef .tc main_arg5) = _
  after_results
  exact L6_main_arg5 m ρ c
theorem L7_main_arg6 : W7 m ρ c (Proc.devRef .tc main_arg6) = m ((c.tc : Thread nD τ).loc main_arg6) := by
  show StableHlo.after hostOps3 (W6 m ρ c) (Proc.devRef .tc main_arg6) = _
  after_results
  exact L6_main_arg6 m ρ c
theorem L7_main_arg7 : W7 m ρ c (Proc.devRef .tc main_arg7) = m ((c.tc : Thread nD τ).loc main_arg7) := by
  show StableHlo.after hostOps3 (W6 m ρ c) (Proc.devRef .tc main_arg7) = _
  after_results
  exact L6_main_arg7 m ρ c

/-! ## Boundary 8: after launch 3 -/
theorem L8_main_v83 : W8 m ρ c (Proc.devRef .tc main_v83) = h3 m c :=
  (W8_arr m ρ c 3).trans ((Blocks.array3 (V7 m ρ) c).trans (by
    show Cert.LibLayer.rectified (n := 50000) (k := 64) (p := 64) (W7 m ρ c (Proc.devRef .tc main_v77)) (W7 m ρ c (Proc.devRef .tc main_v80)) (W7 m ρ c (Proc.devRef .tc main_v82)) = _
    rw [L7_main_v77 m ρ c, L7_main_v80 m ρ c, L7_main_v82 m ρ c]
    rfl))
theorem L8_main_v3 : W8 m ρ c (Proc.devRef .tc main_v3) = sV m c :=
  (W8_of_ne m ρ c main_v3 (by decide)).trans (L7_main_v3 m ρ c)
theorem L8_main_v6 : W8 m ρ c (Proc.devRef .tc main_v6) = dV m c :=
  (W8_of_ne m ρ c main_v6 (by decide)).trans (L7_main_v6 m ρ c)
theorem L8_main_v26 : W8 m ρ c (Proc.devRef .tc main_v26) = nV m c :=
  (W8_of_ne m ρ c main_v26 (by decide)).trans (L7_main_v26 m ρ c)
theorem L8_main_arg5 : W8 m ρ c (Proc.devRef .tc main_arg5) = m ((c.tc : Thread nD τ).loc main_arg5) :=
  (W8_of_ne m ρ c main_arg5 (by decide)).trans (L7_main_arg5 m ρ c)
theorem L8_main_arg6 : W8 m ρ c (Proc.devRef .tc main_arg6) = m ((c.tc : Thread nD τ).loc main_arg6) :=
  (W8_of_ne m ρ c main_arg6 (by decide)).trans (L7_main_arg6 m ρ c)
theorem L8_main_arg7 : W8 m ρ c (Proc.devRef .tc main_arg7) = m ((c.tc : Thread nD τ).loc main_arg7) :=
  (W8_of_ne m ρ c main_arg7 (by decide)).trans (L7_main_arg7 m ρ c)

/-! ## Boundary 9: after host stretch 4 -/
set_option maxHeartbeats 4000000 in
theorem L9_main_v96 : W9 m ρ c (Proc.devRef .tc main_v96) = a4 m c := by
  show StableHlo.after hostOps4 (W8 m ρ c) (Proc.devRef .tc main_v96) = _
  after_results_simp
  rw [L8_main_v83 m ρ c, L8_main_v3 m ρ c, L8_main_v6 m ρ c, L8_main_v26 m ρ c]
  rfl
theorem L9_main_v99 : W9 m ρ c (Proc.devRef .tc main_v99) = Stages.bias4 (m ((c.tc : Thread nD τ).loc main_arg5)) := by
  show StableHlo.after hostOps4 (W8 m ρ c) (Proc.devRef .tc main_v99) = _
  after_results
  rw [L8_main_arg5 m ρ c]
  rfl
theorem L9_main_v3 : W9 m ρ c (Proc.devRef .tc main_v3) = sV m c := by
  show StableHlo.after hostOps4 (W8 m ρ c) (Proc.devRef .tc main_v3) = _
  after_results
  exact L8_main_v3 m ρ c
theorem L9_main_v6 : W9 m ρ c (Proc.devRef .tc main_v6) = dV m c := by
  show StableHlo.after hostOps4 (W8 m ρ c) (Proc.devRef .tc main_v6) = _
  after_results
  exact L8_main_v6 m ρ c
theorem L9_main_v26 : W9 m ρ c (Proc.devRef .tc main_v26) = nV m c := by
  show StableHlo.after hostOps4 (W8 m ρ c) (Proc.devRef .tc main_v26) = _
  after_results
  exact L8_main_v26 m ρ c
theorem L9_main_arg6 : W9 m ρ c (Proc.devRef .tc main_arg6) = m ((c.tc : Thread nD τ).loc main_arg6) := by
  show StableHlo.after hostOps4 (W8 m ρ c) (Proc.devRef .tc main_arg6) = _
  after_results
  exact L8_main_arg6 m ρ c
theorem L9_main_arg7 : W9 m ρ c (Proc.devRef .tc main_arg7) = m ((c.tc : Thread nD τ).loc main_arg7) := by
  show StableHlo.after hostOps4 (W8 m ρ c) (Proc.devRef .tc main_arg7) = _
  after_results
  exact L8_main_arg7 m ρ c

/-! ## Boundary 10: after launch 4 -/
theorem L10_main_v100 : W10 m ρ c (Proc.devRef .tc main_v100) = h4 m c :=
  (W10_arr m ρ c 3).trans ((Blocks.array4 (V9 m ρ) c).trans (by
    show Cert.LibLayer.rectified (n := 50000) (k := 64) (p := 1) (W9 m ρ c (Proc.devRef .tc main_v96)) (W9 m ρ c (Proc.devRef .tc main_v99)) (W9 m ρ c (Proc.devRef .tc main_arg6)) = _
    rw [L9_main_v96 m ρ c, L9_main_v99 m ρ c, L9_main_arg6 m ρ c]
    rfl))
theorem L10_main_v3 : W10 m ρ c (Proc.devRef .tc main_v3) = sV m c :=
  (W10_of_ne m ρ c main_v3 (by decide)).trans (L9_main_v3 m ρ c)
theorem L10_main_v6 : W10 m ρ c (Proc.devRef .tc main_v6) = dV m c :=
  (W10_of_ne m ρ c main_v6 (by decide)).trans (L9_main_v6 m ρ c)
theorem L10_main_v26 : W10 m ρ c (Proc.devRef .tc main_v26) = nV m c :=
  (W10_of_ne m ρ c main_v26 (by decide)).trans (L9_main_v26 m ρ c)
theorem L10_main_arg7 : W10 m ρ c (Proc.devRef .tc main_arg7) = m ((c.tc : Thread nD τ).loc main_arg7) :=
  (W10_of_ne m ρ c main_arg7 (by decide)).trans (L9_main_arg7 m ρ c)

/-! ## Boundary 11: after host stretch 5 -/
set_option maxHeartbeats 4000000 in
theorem L11_main_v115 : W11 m ρ c (Proc.devRef .tc main_v115) = result m c := by
  show StableHlo.after hostOps5 (W10 m ρ c) (Proc.devRef .tc main_v115) = _
  after_results_simp
  rw [L10_main_v100 m ρ c, L10_main_v3 m ρ c, L10_main_v6 m ρ c, L10_main_v26 m ρ c, L10_main_arg7 m ρ c]
  rfl

end Cert.KernelIdeal.Chain

end
-- ==== Proof.StagesR.lean ====
/-
  The reference program cut into the stages of a graph convolution, and its result as their composition.

  The reference builds the edge sources, targets and weights, projects the node features, and then four times
  aggregates along the edges and applies a rectified layer, ending with one more aggregation and the output bias.  Each
  function below is one of those stages as a function of the arrays it is computed from, spelt with the program's own
  operations in the program's own order; the program's composed result term is their composition.
-/
import proofs.«165181_j2379411882474_1_alg».proof.Proof.Gen.ReferenceIdeal.Run

set_option maxRecDepth 16384

noncomputable section

namespace Cert.ReferenceIdeal.Stages

open Cert.ReferenceIdeal Cert.ReferenceIdeal.Gen Idealize.ShloMosaic Idealize.ShloMosaic.TcCoe Idealize.SL.Sem

variable {F : FTy → Type} [FloatOps F]

/-- The edge sources: row 0 of the edge list followed by the node numbers 0 … 49999 (the self loops). -/
def src (e : (⟨S2x800000, .i32⟩ : BufTy).Contents (Elt F)) :
    (⟨S850000, .i32⟩ : BufTy).Contents (Elt F) :=
  (((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) (shapeCast _ (((extractStridedSlice S1x800000 ![0, 0] · slices_S2x800000_S1x800000_0_0) : (⟨S2x800000, .i32⟩ : BufTy).Contents (Elt F) → (⟨S1x800000, .i32⟩ : BufTy).Contents (Elt F)) e) shapeCasts_S1x800000_S800000) ((iotaInDim S50000 32 0)))
/-- The edge targets: row 1 of the edge list followed by the node numbers 0 … 49999 (the self loops). -/
def dst (e : (⟨S2x800000, .i32⟩ : BufTy).Contents (Elt F)) :
    (⟨S850000, .i32⟩ : BufTy).Contents (Elt F) :=
  (((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) (shapeCast _ (((extractStridedSlice S1x800000 ![1, 0] · slices_S2x800000_S1x800000_1_0) : (⟨S2x800000, .i32⟩ : BufTy).Contents (Elt F) → (⟨S1x800000, .i32⟩ : BufTy).Contents (Elt F)) e) shapeCasts_S1x800000_S800000) ((iotaInDim S50000 32 0)))
/-- The edge weights: the inverse square root of the in-degree gathered at the source times the same gathered at the target. -/
def norm (s : (⟨S850000, .i32⟩ : BufTy).Contents (Elt F)) (d : (⟨S850000, .i32⟩ : BufTy).Contents (Elt F)) :
    (⟨S850000, .f32⟩ : BufTy).Contents (Elt F) :=
  ((mulf : (⟨S850000, .f32⟩ : BufTy).Contents (Elt F) → (⟨S850000, .f32⟩ : BufTy).Contents (Elt F) → (⟨S850000, .f32⟩ : BufTy).Contents (Elt F)) (((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)) ((Host.rsqrt : (⟨S50000, .f32⟩ : BufTy).Contents (Elt F) → (⟨S50000, .f32⟩ : BufTy).Contents (Elt F)) (((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) ((constant (F := F) S_ .f32 0x00000000#32))) ((broadcastInDim S850000x1 ![0] bcast_S850000_S850000x1_0 : (⟨S850000, .i32⟩ : BufTy).Contents (Elt F) → (⟨S850000x1, .i32⟩ : BufTy).Contents (Elt F)) d) ((broadcastInDim S850000 ![] bcast_S_S850000 : (⟨S_, .f32⟩ : BufTy).Contents (Elt F) → (⟨S850000, .f32⟩ : BufTy).Contents (Elt F)) ((constant (F := F) S_ .f32 0x3F800000#32))))) ((broadcastInDim S850000x1 ![0] bcast_S850000_S850000x1_0 : (⟨S850000, .i32⟩ : BufTy).Contents (Elt F) → (⟨S850000x1, .i32⟩ : BufTy).Contents (Elt F)) ((select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) ((cmpi .slt : (⟨S850000, .i32⟩ : BufTy).Contents (Elt F) → (⟨S850000, .i32⟩ : BufTy).Contents (Elt F) → (⟨S850000, .i1⟩ : BufTy).Contents (Elt F)) s ((broadcastInDim S850000 ![] bcast_S_S850000 : (⟨S_, .i32⟩ : BufTy).Contents (Elt F) → (⟨S850000, .i32⟩ : BufTy).Contents (Elt F)) ((constantI S_ 32 0#32)))) ((addi : (⟨S850000, .i32⟩ : BufTy).Contents (Elt F) → (⟨S850000, .i32⟩ : BufTy).Contents (Elt F) → (⟨S850000, .i32⟩ : BufTy).Contents (Elt F)) s ((broadcastInDim S850000 ![] bcast_S_S850000 : (⟨S_, .i32⟩ : BufTy).Contents (Elt F) → (⟨S850000, .i32⟩ : BufTy).Contents (Elt F)) ((constantI S_ 32 50000#32)))) s))) (((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)) ((Host.rsqrt : (⟨S50000, .f32⟩ : BufTy).Contents (Elt F) → (⟨S50000, .f32⟩ : BufTy).Contents (Elt F)) (((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) ((constant (F := F) S_ .f32 0x00000000#32))) ((broadcastInDim S850000x1 ![0] bcast_S850000_S850000x1_0 : (⟨S850000, .i32⟩ : BufTy).Contents (Elt F) → (⟨S850000x1, .i32⟩ : BufTy).Contents (Elt F)) d) ((broadcastInDim S850000 ![] bcast_S_S850000 : (⟨S_, .f32⟩ : BufTy).Contents (Elt F) → (⟨S850000, .f32⟩ : BufTy).Contents (Elt F)) ((constant (F := F) S_ .f32 0x3F800000#32))))) ((broadcastInDim S850000x1 ![0] bcast_S850000_S850000x1_0 : (⟨S850000, .i32⟩ : BufTy).Contents (Elt F) → (⟨S850000x1, .i32⟩ : BufTy).Contents (Elt F)) ((select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) ((cmpi .slt : (⟨S850000, .i32⟩ : BufTy).Contents (Elt F) → (⟨S850000, .i32⟩ : BufTy).Contents (Elt F) → (⟨S850000, .i1⟩ : BufTy).Contents (Elt F)) d ((broadcastInDim S850000 ![] bcast_S_S850000 : (⟨S_, .i32⟩ : BufTy).Contents (Elt F) → (⟨S850000, .i32⟩ : BufTy).Contents (Elt F)) ((constantI S_ 32 0#32)))) ((addi : (⟨S850000, .i32⟩ : BufTy).Contents (Elt F) → (⟨S850000, .i32⟩ : BufTy).Contents (Elt F) → (⟨S850000, .i32⟩ : BufTy).Contents (Elt F)) d ((broadcastInDim S850000 ![] bcast_S_S850000 : (⟨S_, .i32⟩ : BufTy).Contents (Elt F) → (⟨S850000, .i32⟩ : BufTy).Contents (Elt F)) ((constantI S_ 32 50000#32)))) d))))
/-- The input projection: the node features times the input weights. -/
def lin0 (x : (⟨S50000x4, .f32⟩ : BufTy).Contents (Elt F)) (w : (⟨S4x64, .f32⟩ : BufTy).Contents (Elt F)) :
    (⟨S50000x64, .f32⟩ : BufTy).Contents (Elt F) :=
  (((fun l r => Host.dotGeneral dot_S50000x4_S4x64_S50000x64_1_0_0_1_n_n none l r) : (⟨S50000x4, .f32⟩ : BufTy).Contents (Elt F) → (⟨S4x64, .f32⟩ : BufTy).Contents (Elt F) → (⟨S50000x64, .f32⟩ : BufTy).Contents (Elt F)) x w)
/-- Aggregation 1: every edge carries its source's row of h scaled by the edge weight, and the rows arriving at a node are summed. -/
def agg1 (h : (⟨S50000x64, .f32⟩ : BufTy).Contents (Elt F)) (s : (⟨S850000, .i32⟩ : BufTy).Contents (Elt F)) (d : (⟨S850000, .i32⟩ : BufTy).Contents (Elt F)) (n : (⟨S850000, .f32⟩ : BufTy).Contents (Elt F)) :
    (⟨S50000x64, .f32⟩ : BufTy).Contents (Elt F) :=
  (((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)) ((broadcastInDim S50000x64 ![] bcast_S_S50000x64 : (⟨S_, .f32⟩ : BufTy).Contents (Elt F) → (⟨S50000x64, .f32⟩ : BufTy).Contents (Elt F)) ((constant (F := F) S_ .f32 0x00000000#32))) ((broadcastInDim S850000x1 ![0] bcast_S850000_S850000x1_0 : (⟨S850000, .i32⟩ : BufTy).Contents (Elt F) → (⟨S850000x1, .i32⟩ : BufTy).Contents (Elt F)) d) ((mulf : (⟨S850000x64, .f32⟩ : BufTy).Contents (Elt F) → (⟨S850000x64, .f32⟩ : BufTy).Contents (Elt F) → (⟨S850000x64, .f32⟩ : BufTy).Contents (Elt F)) (((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)) h ((broadcastInDim S850000x1 ![0] bcast_S850000_S850000x1_0 : (⟨S850000, .i32⟩ : BufTy).Contents (Elt F) → (⟨S850000x1, .i32⟩ : BufTy).Contents (Elt F)) ((select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) ((cmpi .slt : (⟨S850000, .i32⟩ : BufTy).Contents (Elt F) → (⟨S850000, .i32⟩ : BufTy).Contents (Elt F) → (⟨S850000, .i1⟩ : BufTy).Contents (Elt F)) s ((broadcastInDim S850000 ![] bcast_S_S850000 : (⟨S_, .i32⟩ : BufTy).Contents (Elt F) → (⟨S850000, .i32⟩ : BufTy).Contents (Elt F)) ((constantI S_ 32 0#32)))) ((addi : (⟨S850000, .i32⟩ : BufTy).Contents (Elt F) → (⟨S850000, .i32⟩ : BufTy).Contents (Elt F) → (⟨S850000, .i32⟩ : BufTy).Contents (Elt F)) s ((broadcastInDim S850000 ![] bcast_S_S850000 : (⟨S_, .i32⟩ : BufTy).Contents (Elt F) → (⟨S850000, .i32⟩ : BufTy).Contents (Elt F)) ((constantI S_ 32 50000#32)))) s))) ((broadcastInDim S850000x64 ![0, 1] bcast_S850000x1_S850000x64_0_1 : (⟨S850000x1, .f32⟩ : BufTy).Contents (Elt F) → (⟨S850000x64, .f32⟩ : BufTy).Contents (Elt F)) ((broadcastInDim S850000x1 ![0] bcast_S850000_S850000x1_0 : (⟨S850000, .f32⟩ : BufTy).Contents (Elt F) → (⟨S850000x1, .f32⟩ : BufTy).Contents (Elt F)) n))))
/-- Aggregation 2: every edge carries its source's row of h scaled by the edge weight, and the rows arriving at a node are summed. -/
def agg2 (h : (⟨S50000x64, .f32⟩ : BufTy).Contents (Elt F)) (s : (⟨S850000, .i32⟩ : BufTy).Contents (Elt F)) (d : (⟨S850000, .i32⟩ : BufTy).Contents (Elt F)) (n : (⟨S850000, .f32⟩ : BufTy).Contents (Elt F)) :
    (⟨S50000x64, .f32⟩ : BufTy).Contents (Elt F) :=
  (((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)) ((broadcastInDim S50000x64 ![] bcast_S_S50000x64 : (⟨S_, .f32⟩ : BufTy).Contents (Elt F) → (⟨S50000x64, .f32⟩ : BufTy).Contents (Elt F)) ((constant (F := F) S_ .f32 0x00000000#32))) ((broadcastInDim S850000x1 ![0] bcast_S850000_S850000x1_0 : (⟨S850000, .i32⟩ : BufTy).Contents (Elt F) → (⟨S850000x1, .i32⟩ : BufTy).Contents (Elt F)) d) ((mulf : (⟨S850000x64, .f32⟩ : BufTy).Contents (Elt F) → (⟨S850000x64, .f32⟩ : BufTy).Contents (Elt F) → (⟨S850000x64, .f32⟩ : BufTy).Contents (Elt F)) (((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)) h ((broadcastInDim S850000x1 ![0] bcast_S850000_S850000x1_0 : (⟨S850000, .i32⟩ : BufTy).Contents (Elt F) → (⟨S850000x1, .i32⟩ : BufTy).Contents (Elt F)) ((select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) ((cmpi .slt : (⟨S850000, .i32⟩ : BufTy).Contents (Elt F) → (⟨S850000, .i32⟩ : BufTy).Contents (Elt F) → (⟨S850000, .i1⟩ : BufTy).Contents (Elt F)) s ((broadcastInDim S850000 ![] bcast_S_S850000 : (⟨S_, .i32⟩ : BufTy).Contents (Elt F) → (⟨S850000, .i32⟩ : BufTy).Contents (Elt F)) ((constantI S_ 32 0#32)))) ((addi : (⟨S850000, .i32⟩ : BufTy).Contents (Elt F) → (⟨S850000, .i32⟩ : BufTy).Contents (Elt F) → (⟨S850000, .i32⟩ : BufTy).Contents (Elt F)) s ((broadcastInDim S850000 ![] bcast_S_S850000 : (⟨S_, .i32⟩ : BufTy).Contents (Elt F) → (⟨S850000, .i32⟩ : BufTy).Contents (Elt F)) ((constantI S_ 32 50000#32)))) s))) ((broadcastInDim S850000x64 ![0, 1] bcast_S850000x1_S850000x64_0_1 : (⟨S850000x1, .f32⟩ : BufTy).Contents (Elt F) → (⟨S850000x64, .f32⟩ : BufTy).Contents (Elt F)) ((broadcastInDim S850000x1 ![0] bcast_S850000_S850000x1_0 : (⟨S850000, .f32⟩ : BufTy).Contents (Elt F) → (⟨S850000x1, .f32⟩ : BufTy).Contents (Elt F)) n))))
/-- Aggregation 3: every edge carries its source's row of h scaled by the edge weight, and the rows arriving at a node are summed. -/
def agg3 (h : (⟨S50000x64, .f32⟩ : BufTy).Contents (Elt F)) (s : (⟨S850000, .i32⟩ : BufTy).Contents (Elt F)) (d : (⟨S850000, .i32⟩ : BufTy).Contents (Elt F)) (n : (⟨S850000, .f32⟩ : BufTy).Contents (Elt F)) :
    (⟨S50000x64, .f32⟩ : BufTy).Contents (Elt F) :=
  (((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)) ((broadcastInDim S50000x64 ![] bcast_S_S50000x64 : (⟨S_, .f32⟩ : BufTy).Contents (Elt F) → (⟨S50000x64, .f32⟩ : BufTy).Contents (Elt F)) ((constant (F := F) S_ .f32 0x00000000#32))) ((broadcastInDim S850000x1 ![0] bcast_S850000_S850000x1_0 : (⟨S850000, .i32⟩ : BufTy).Contents (Elt F) → (⟨S850000x1, .i32⟩ : BufTy).Contents (Elt F)) d) ((mulf : (⟨S850000x64, .f32⟩ : BufTy).Contents (Elt F) → (⟨S850000x64, .f32⟩ : BufTy).Contents (Elt F) → (⟨S850000x64, .f32⟩ : BufTy).Contents (Elt F)) (((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)) h ((broadcastInDim S850000x1 ![0] bcast_S850000_S850000x1_0 : (⟨S850000, .i32⟩ : BufTy).Contents (Elt F) → (⟨S850000x1, .i32⟩ : BufTy).Contents (Elt F)) ((select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) ((cmpi .slt : (⟨S850000, .i32⟩ : BufTy).Contents (Elt F) → (⟨S850000, .i32⟩ : BufTy).Contents (Elt F) → (⟨S850000, .i1⟩ : BufTy).Contents (Elt F)) s ((broadcastInDim S850000 ![] bcast_S_S850000 : (⟨S_, .i32⟩ : BufTy).Contents (Elt F) → (⟨S850000, .i32⟩ : BufTy).Contents (Elt F)) ((constantI S_ 32 0#32)))) ((addi : (⟨S850000, .i32⟩ : BufTy).Contents (Elt F) → (⟨S850000, .i32⟩ : BufTy).Contents (Elt F) → (⟨S850000, .i32⟩ : BufTy).Contents (Elt F)) s ((broadcastInDim S850000 ![] bcast_S_S850000 : (⟨S_, .i32⟩ : BufTy).Contents (Elt F) → (⟨S850000, .i32⟩ : BufTy).Contents (Elt F)) ((constantI S_ 32 50000#32)))) s))) ((broadcastInDim S850000x64 ![0, 1] bcast_S850000x1_S850000x64_0_1 : (⟨S850000x1, .f32⟩ : BufTy).Contents (Elt F) → (⟨S850000x64, .f32⟩ : BufTy).Contents (Elt F)) ((broadcastInDim S850000x1 ![0] bcast_S850000_S850000x1_0 : (⟨S850000, .f32⟩ : BufTy).Contents (Elt F) → (⟨S850000x1, .f32⟩ : BufTy).Contents (Elt F)) n))))
/-- Aggregation 4: every edge carries its source's row of h scaled by the edge weight, and the rows arriving at a node are summed. -/
def agg4 (h : (⟨S50000x64, .f32⟩ : BufTy).Contents (Elt F)) (s : (⟨S850000, .i32⟩ : BufTy).Contents (Elt F)) (d : (⟨S850000, .i32⟩ : BufTy).Contents (Elt F)) (n : (⟨S850000, .f32⟩ : BufTy).Contents (Elt F)) :
    (⟨S50000x64, .f32⟩ : BufTy).Contents (Elt F) :=
  (((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)) ((broadcastInDim S50000x64 ![] bcast_S_S50000x64 : (⟨S_, .f32⟩ : BufTy).Contents (Elt F) → (⟨S50000x64, .f32⟩ : BufTy).Contents (Elt F)) ((constant (F := F) S_ .f32 0x00000000#32))) ((broadcastInDim S850000x1 ![0] bcast_S850000_S850000x1_0 : (⟨S850000, .i32⟩ : BufTy).Contents (Elt F) → (⟨S850000x1, .i32⟩ : BufTy).Contents (Elt F)) d) ((mulf : (⟨S850000x64, .f32⟩ : BufTy).Contents (Elt F) → (⟨S850000x64, .f32⟩ : BufTy).Contents (Elt F) → (⟨S850000x64, .f32⟩ : BufTy).Contents (Elt F)) (((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)) h ((broadcastInDim S850000x1 ![0] bcast_S850000_S850000x1_0 : (⟨S850000, .i32⟩ : BufTy).Contents (Elt F) → (⟨S850000x1, .i32⟩ : BufTy).Contents (Elt F)) ((select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) ((cmpi .slt : (⟨S850000, .i32⟩ : BufTy).Contents (Elt F) → (⟨S850000, .i32⟩ : BufTy).Contents (Elt F) → (⟨S850000, .i1⟩ : BufTy).Contents (Elt F)) s ((broadcastInDim S850000 ![] bcast_S_S850000 : (⟨S_, .i32⟩ : BufTy).Contents (Elt F) → (⟨S850000, .i32⟩ : BufTy).Contents (Elt F)) ((constantI S_ 32 0#32)))) ((addi : (⟨S850000, .i32⟩ : BufTy).Contents (Elt F) → (⟨S850000, .i32⟩ : BufTy).Contents (Elt F) → (⟨S850000, .i32⟩ : BufTy).Contents (Elt F)) s ((broadcastInDim S850000 ![] bcast_S_S850000 : (⟨S_, .i32⟩ : BufTy).Contents (Elt F) → (⟨S850000, .i32⟩ : BufTy).Contents (Elt F)) ((constantI S_ 32 50000#32)))) s))) ((broadcastInDim S850000x64 ![0, 1] bcast_S850000x1_S850000x64_0_1 : (⟨S850000x1, .f32⟩ : BufTy).Contents (Elt F) → (⟨S850000x64, .f32⟩ : BufTy).Contents (Elt F)) ((broadcastInDim S850000x1 ![0] bcast_S850000_S850000x1_0 : (⟨S850000, .f32⟩ : BufTy).Contents (Elt F) → (⟨S850000x1, .f32⟩ : BufTy).Contents (Elt F)) n))))
/-- Hidden layer 1: the bias added to every row, the maximum with zero, times member 0 of the hidden weights. -/
def lin1 (a : (⟨S50000x64, .f32⟩ : BufTy).Contents (Elt F)) (b : (⟨S64, .f32⟩ : BufTy).Contents (Elt F)) (w : (⟨S3x64x64, .f32⟩ : BufTy).Contents (Elt F)) :
    (⟨S50000x64, .f32⟩ : BufTy).Contents (Elt F) :=
  (((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf) ((addf : (⟨S50000x64, .f32⟩ : BufTy).Contents (Elt F) → (⟨S50000x64, .f32⟩ : BufTy).Contents (Elt F) → (⟨S50000x64, .f32⟩ : BufTy).Contents (Elt F)) a ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) b))) ((broadcastInDim S50000x64 ![] bcast_S_S50000x64) ((constant (F := F) S_ .f32 0x00000000#32)))) (shapeCast _ (((extractStridedSlice S1x64x64 ![0, 0, 0] · slices_S3x64x64_S1x64x64_0_0_0) : (⟨S3x64x64, .f32⟩ : BufTy).Contents (Elt F) → (⟨S1x64x64, .f32⟩ : BufTy).Contents (Elt F)) w) shapeCasts_S1x64x64_S64x64))
/-- Hidden layer 2: bias row 0 added, the maximum with zero, times member 1 of the hidden weights. -/
def lin2 (a : (⟨S50000x64, .f32⟩ : BufTy).Contents (Elt F)) (b : (⟨S3x64, .f32⟩ : BufTy).Contents (Elt F)) (w : (⟨S3x64x64, .f32⟩ : BufTy).Contents (Elt F)) :
    (⟨S50000x64, .f32⟩ : BufTy).Contents (Elt F) :=
  (((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf) ((addf : (⟨S50000x64, .f32⟩ : BufTy).Contents (Elt F) → (⟨S50000x64, .f32⟩ : BufTy).Contents (Elt F) → (⟨S50000x64, .f32⟩ : BufTy).Contents (Elt F)) a ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (shapeCast _ (((extractStridedSlice S1x64 ![0, 0] · slices_S3x64_S1x64_0_0) : (⟨S3x64, .f32⟩ : BufTy).Contents (Elt F) → (⟨S1x64, .f32⟩ : BufTy).Contents (Elt F)) b) shapeCasts_S1x64_S64)))) ((broadcastInDim S50000x64 ![] bcast_S_S50000x64) ((constant (F := F) S_ .f32 0x00000000#32)))) (shapeCast _ (((extractStridedSlice S1x64x64 ![1, 0, 0] · slices_S3x64x64_S1x64x64_1_0_0) : (⟨S3x64x64, .f32⟩ : BufTy).Contents (Elt F) → (⟨S1x64x64, .f32⟩ : BufTy).Contents (Elt F)) w) shapeCasts_S1x64x64_S64x64))
/-- Hidden layer 3: bias row 1 added, the maximum with zero, times member 2 of the hidden weights. -/
def lin3 (a : (⟨S50000x64, .f32⟩ : BufTy).Contents (Elt F)) (b : (⟨S3x64, .f32⟩ : BufTy).Contents (Elt F)) (w : (⟨S3x64x64, .f32⟩ : BufTy).Contents (Elt F)) :
    (⟨S50000x64, .f32⟩ : BufTy).Contents (Elt F) :=
  (((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ((maximumf) ((addf : (⟨S50000x64, .f32⟩ : BufTy).Contents (Elt F) → (⟨S50000x64, .f32⟩ : BufTy).Contents (Elt F) → (⟨S50000x64, .f32⟩ : BufTy).Contents (Elt F)) a ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (shapeCast _ (((extractStridedSlice S1x64 ![1, 0] · slices_S3x64_S1x64_1_0) : (⟨S3x64, .f32⟩ : BufTy).Contents (Elt F) → (⟨S1x64, .f32⟩ : BufTy).Contents (Elt F)) b) shapeCasts_S1x64_S64)))) ((broadcastInDim S50000x64 ![] bcast_S_S50000x64) ((constant (F := F) S_ .f32 0x00000000#32)))) (shapeCast _ (((extractStridedSlice S1x64x64 ![2, 0, 0] · slices_S3x64x64_S1x64x64_2_0_0) : (⟨S3x64x64, .f32⟩ : BufTy).Contents (Elt F) → (⟨S1x64x64, .f32⟩ : BufTy).Contents (Elt F)) w) shapeCasts_S1x64x64_S64x64))
/-- The output projection: bias row 2 added, the maximum with zero, times the output weights. -/
def lin4 (a : (⟨S50000x64, .f32⟩ : BufTy).Contents (Elt F)) (b : (⟨S3x64, .f32⟩ : BufTy).Contents (Elt F)) (w : (⟨S64x1, .f32⟩ : BufTy).Contents (Elt F)) :
    (⟨S50000x1, .f32⟩ : BufTy).Contents (Elt F) :=
  (((fun l r => Host.dotGeneral dot_S50000x64_S64x1_S50000x1_1_0_0_1_n_n none l r) : (⟨S50000x64, .f32⟩ : BufTy).Contents (Elt F) → (⟨S64x1, .f32⟩ : BufTy).Contents (Elt F) → (⟨S50000x1, .f32⟩ : BufTy).Contents (Elt F)) ((maximumf) ((addf : (⟨S50000x64, .f32⟩ : BufTy).Contents (Elt F) → (⟨S50000x64, .f32⟩ : BufTy).Contents (Elt F) → (⟨S50000x64, .f32⟩ : BufTy).Contents (Elt F)) a ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (shapeCast _ (((extractStridedSlice S1x64 ![2, 0] · slices_S3x64_S1x64_2_0) : (⟨S3x64, .f32⟩ : BufTy).Contents (Elt F) → (⟨S1x64, .f32⟩ : BufTy).Contents (Elt F)) b) shapeCasts_S1x64_S64)))) ((broadcastInDim S50000x64 ![] bcast_S_S50000x64) ((constant (F := F) S_ .f32 0x00000000#32)))) w)
/-- The last aggregation, one column wide, plus the output bias on every row. -/
def out (h : (⟨S50000x1, .f32⟩ : BufTy).Contents (Elt F)) (s : (⟨S850000, .i32⟩ : BufTy).Contents (Elt F)) (d : (⟨S850000, .i32⟩ : BufTy).Contents (Elt F)) (n : (⟨S850000, .f32⟩ : BufTy).Contents (Elt F)) (b : (⟨S1, .f32⟩ : BufTy).Contents (Elt F)) :
    (⟨S50000x1, .f32⟩ : BufTy).Contents (Elt F) :=
  ((addf : (⟨S50000x1, .f32⟩ : BufTy).Contents (Elt F) → (⟨S50000x1, .f32⟩ : BufTy).Contents (Elt F) → (⟨S50000x1, .f32⟩ : BufTy).Contents (Elt F)) (((fun x i u => Host.scatterAdd scatter_S50000x1_S850000x1_S850000x1_1_0_0_1 x i u) : (⟨S50000x1, .f32⟩ : BufTy).Contents (Elt F) → (⟨S850000x1, .i32⟩ : BufTy).Contents (Elt F) → (⟨S850000x1, .f32⟩ : BufTy).Contents (Elt F) → (⟨S50000x1, .f32⟩ : BufTy).Contents (Elt F)) ((broadcastInDim S50000x1 ![] bcast_S_S50000x1 : (⟨S_, .f32⟩ : BufTy).Contents (Elt F) → (⟨S50000x1, .f32⟩ : BufTy).Contents (Elt F)) ((constant (F := F) S_ .f32 0x00000000#32))) ((broadcastInDim S850000x1 ![0] bcast_S850000_S850000x1_0 : (⟨S850000, .i32⟩ : BufTy).Contents (Elt F) → (⟨S850000x1, .i32⟩ : BufTy).Contents (Elt F)) d) ((mulf : (⟨S850000x1, .f32⟩ : BufTy).Contents (Elt F) → (⟨S850000x1, .f32⟩ : BufTy).Contents (Elt F) → (⟨S850000x1, .f32⟩ : BufTy).Contents (Elt F)) (((fun x i => Host.gather gather_S50000x1_S850000x1_S850000x1_1_0_n_n_0_1_11 x i) : (⟨S50000x1, .f32⟩ : BufTy).Contents (Elt F) → (⟨S850000x1, .i32⟩ : BufTy).Contents (Elt F) → (⟨S850000x1, .f32⟩ : BufTy).Contents (Elt F)) h ((broadcastInDim S850000x1 ![0] bcast_S850000_S850000x1_0 : (⟨S850000, .i32⟩ : BufTy).Contents (Elt F) → (⟨S850000x1, .i32⟩ : BufTy).Contents (Elt F)) ((select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) ((cmpi .slt : (⟨S850000, .i32⟩ : BufTy).Contents (Elt F) → (⟨S850000, .i32⟩ : BufTy).Contents (Elt F) → (⟨S850000, .i1⟩ : BufTy).Contents (Elt F)) s ((broadcastInDim S850000 ![] bcast_S_S850000 : (⟨S_, .i32⟩ : BufTy).Contents (Elt F) → (⟨S850000, .i32⟩ : BufTy).Contents (Elt F)) ((constantI S_ 32 0#32)))) ((addi : (⟨S850000, .i32⟩ : BufTy).Contents (Elt F) → (⟨S850000, .i32⟩ : BufTy).Contents (Elt F) → (⟨S850000, .i32⟩ : BufTy).Contents (Elt F)) s ((broadcastInDim S850000 ![] bcast_S_S850000 : (⟨S_, .i32⟩ : BufTy).Contents (Elt F) → (⟨S850000, .i32⟩ : BufTy).Contents (Elt F)) ((constantI S_ 32 50000#32)))) s))) ((broadcastInDim S850000x1 ![0] bcast_S850000_S850000x1_0 : (⟨S850000, .f32⟩ : BufTy).Contents (Elt F) → (⟨S850000x1, .f32⟩ : BufTy).Contents (Elt F)) n))) ((broadcastInDim S50000x1 ![0, 1] bcast_S1x1_S50000x1_0_1 : (⟨S1x1, .f32⟩ : BufTy).Contents (Elt F) → (⟨S50000x1, .f32⟩ : BufTy).Contents (Elt F)) ((broadcastInDim S1x1 ![1] bcast_S1_S1x1_1 : (⟨S1, .f32⟩ : BufTy).Contents (Elt F) → (⟨S1x1, .f32⟩ : BufTy).Contents (Elt F)) b)))

/-- The last aggregation plus a 1×1 bias on every row. -/
def outCore (h : (⟨S50000x1, .f32⟩ : BufTy).Contents (Elt F)) (s : (⟨S850000, .i32⟩ : BufTy).Contents (Elt F)) (d : (⟨S850000, .i32⟩ : BufTy).Contents (Elt F)) (n : (⟨S850000, .f32⟩ : BufTy).Contents (Elt F)) (r : (⟨S1x1, .f32⟩ : BufTy).Contents (Elt F)) :
    (⟨S50000x1, .f32⟩ : BufTy).Contents (Elt F) :=
  ((addf : (⟨S50000x1, .f32⟩ : BufTy).Contents (Elt F) → (⟨S50000x1, .f32⟩ : BufTy).Contents (Elt F) → (⟨S50000x1, .f32⟩ : BufTy).Contents (Elt F)) (((fun x i u => Host.scatterAdd scatter_S50000x1_S850000x1_S850000x1_1_0_0_1 x i u) : (⟨S50000x1, .f32⟩ : BufTy).Contents (Elt F) → (⟨S850000x1, .i32⟩ : BufTy).Contents (Elt F) → (⟨S850000x1, .f32⟩ : BufTy).Contents (Elt F) → (⟨S50000x1, .f32⟩ : BufTy).Contents (Elt F)) ((broadcastInDim S50000x1 ![] bcast_S_S50000x1 : (⟨S_, .f32⟩ : BufTy).Contents (Elt F) → (⟨S50000x1, .f32⟩ : BufTy).Contents (Elt F)) ((constant (F := F) S_ .f32 0x00000000#32))) ((broadcastInDim S850000x1 ![0] bcast_S850000_S850000x1_0 : (⟨S850000, .i32⟩ : BufTy).Contents (Elt F) → (⟨S850000x1, .i32⟩ : BufTy).Contents (Elt F)) d) ((mulf : (⟨S850000x1, .f32⟩ : BufTy).Contents (Elt F) → (⟨S850000x1, .f32⟩ : BufTy).Contents (Elt F) → (⟨S850000x1, .f32⟩ : BufTy).Contents (Elt F)) (((fun x i => Host.gather gather_S50000x1_S850000x1_S850000x1_1_0_n_n_0_1_11 x i) : (⟨S50000x1, .f32⟩ : BufTy).Contents (Elt F) → (⟨S850000x1, .i32⟩ : BufTy).Contents (Elt F) → (⟨S850000x1, .f32⟩ : BufTy).Contents (Elt F)) h ((broadcastInDim S850000x1 ![0] bcast_S850000_S850000x1_0 : (⟨S850000, .i32⟩ : BufTy).Contents (Elt F) → (⟨S850000x1, .i32⟩ : BufTy).Contents (Elt F)) ((select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) ((cmpi .slt : (⟨S850000, .i32⟩ : BufTy).Contents (Elt F) → (⟨S850000, .i32⟩ : BufTy).Contents (Elt F) → (⟨S850000, .i1⟩ : BufTy).Contents (Elt F)) s ((broadcastInDim S850000 ![] bcast_S_S850000 : (⟨S_, .i32⟩ : BufTy).Contents (Elt F) → (⟨S850000, .i32⟩ : BufTy).Contents (Elt F)) ((constantI S_ 32 0#32)))) ((addi : (⟨S850000, .i32⟩ : BufTy).Contents (Elt F) → (⟨S850000, .i32⟩ : BufTy).Contents (Elt F) → (⟨S850000, .i32⟩ : BufTy).Contents (Elt F)) s ((broadcastInDim S850000 ![] bcast_S_S850000 : (⟨S_, .i32⟩ : BufTy).Contents (Elt F) → (⟨S850000, .i32⟩ : BufTy).Contents (Elt F)) ((constantI S_ 32 50000#32)))) s))) ((broadcastInDim S850000x1 ![0] bcast_S850000_S850000x1_0 : (⟨S850000, .f32⟩ : BufTy).Contents (Elt F) → (⟨S850000x1, .f32⟩ : BufTy).Contents (Elt F)) n))) ((broadcastInDim S50000x1 ![0, 1] bcast_S1x1_S50000x1_0_1 : (⟨S1x1, .f32⟩ : BufTy).Contents (Elt F) → (⟨S50000x1, .f32⟩ : BufTy).Contents (Elt F)) r))
/-- The output bias as a 1×1 matrix. -/
def brow (b : (⟨S1, .f32⟩ : BufTy).Contents (Elt F)) :
    (⟨S1x1, .f32⟩ : BufTy).Contents (Elt F) :=
  ((broadcastInDim S1x1 ![1] bcast_S1_S1x1_1 : (⟨S1, .f32⟩ : BufTy).Contents (Elt F) → (⟨S1x1, .f32⟩ : BufTy).Contents (Elt F)) b)
theorem out_eq_core (h : (⟨S50000x1, .f32⟩ : BufTy).Contents (Elt F)) (s : (⟨S850000, .i32⟩ : BufTy).Contents (Elt F)) (d : (⟨S850000, .i32⟩ : BufTy).Contents (Elt F)) (n : (⟨S850000, .f32⟩ : BufTy).Contents (Elt F)) (b : (⟨S1, .f32⟩ : BufTy).Contents (Elt F)) :
    out h s d n b = outCore h s d n (brow b) := rfl

/-- The stages composed, from the eight argument arrays. -/
def value (x : (⟨S50000x4, .f32⟩ : BufTy).Contents (Elt F)) (e : (⟨S2x800000, .i32⟩ : BufTy).Contents (Elt F)) (wi : (⟨S4x64, .f32⟩ : BufTy).Contents (Elt F))
    (bi : (⟨S64, .f32⟩ : BufTy).Contents (Elt F)) (wh : (⟨S3x64x64, .f32⟩ : BufTy).Contents (Elt F)) (bh : (⟨S3x64, .f32⟩ : BufTy).Contents (Elt F))
    (wo : (⟨S64x1, .f32⟩ : BufTy).Contents (Elt F)) (bo : (⟨S1, .f32⟩ : BufTy).Contents (Elt F)) : (⟨S50000x1, .f32⟩ : BufTy).Contents (Elt F) :=
  out (lin4 (agg4 (lin3 (agg3 (lin2 (agg2 (lin1 (agg1 (lin0 x wi) (src e) (dst e) (norm (src e) (dst e))) bi wh)
      (src e) (dst e) (norm (src e) (dst e))) bh wh) (src e) (dst e) (norm (src e) (dst e))) bh wh)
      (src e) (dst e) (norm (src e) (dst e))) bh wo) (src e) (dst e) (norm (src e) (dst e)) bo

set_option maxHeartbeats 4000000 in
/-- The reference's composed result term is the composition of the stages. -/
theorem result_eq (m : (ℓ : Loc nD τ sig) → Buf (Elt F) ℓ) (c : Dev nD) :
    Cert.ReferenceIdeal.Value.res_main_v126 m c
      = value (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7)) := by
  unfold Cert.ReferenceIdeal.Value.res_main_v126
  rfl

end Cert.ReferenceIdeal.Stages

end
-- ==== Proof.LibRowCast.lean ====
/-
  A vector of k entries made into a one-row matrix, two ways.

  Reshaping a vector to a 1×k matrix and broadcasting it along a new leading axis of extent 1 give the same matrix:
  entry (0, c) of either is entry c of the vector.
-/
import Idealize.ShloMosaic.Lib.ValueIdx
import Idealize.ShloMosaic.Lib.Pipeline.Value

noncomputable section

namespace Cert.LibRowCast

open Idealize.ShloMosaic Idealize.ShloMosaic.ValueIdx

/-- A vector of k entries reshaped to a 1×k matrix is the vector broadcast along a new leading unit axis. -/
theorem row_cast_eq {k : Nat} {α : Type} (hs : (⟨1, ![k]⟩ : Shape).ShapeCasts ⟨2, ![1, k]⟩)
    (hb : (⟨1, ![k]⟩ : Shape).BroadcastsInDim ⟨2, ![1, k]⟩ ![1]) (v : (⟨1, ![k]⟩ : Shape).Idx → α) :
    shapeCast ⟨2, ![1, k]⟩ v hs = broadcastInDim ⟨2, ![1, k]⟩ ![1] hb v := by
  funext j
  obtain ⟨a, cc, rfl⟩ : ∃ (a : Fin 1) (cc : Fin k), j = ix2 a cc := ⟨j 0, j 1, eq_ix2 j⟩
  have ha : a.val = 0 := by have := a.isLt; omega
  rw [shapeCast_apply v hs (ix2 a cc) (ix1 cc) (by
        rw [Shape.rowMajor_val_one, Shape.rowMajor_val_two]
        show cc.val = a.val * k + cc.val
        rw [ha, Nat.zero_mul, Nat.zero_add]),
    broadcastInDim_apply ![1] hb v (ix2 a cc) (ix1 cc) (fun x => by
        match x with
        | ⟨0, _⟩ =>
          show cc.val = if k = 1 then 0 else cc.val
          split
          · have := cc.isLt; omega
          · rfl)]

end Cert.LibRowCast

end
-- ==== Proof.Bridge.lean ====
/-
  The idealized kernel program and the idealized reference compute one function.

  Both programs build the same edge sources, targets and weights and apply the same aggregation along the edges,
  operation for operation; they differ only in how a layer is computed and in how a vector is made a one-row matrix.
  A launch's layer — the affine layer at the zero bias row for the input projection, the rectified layer after every
  aggregation — is what the reference's host operations compute (LibLayer.lean): adding a zero row changes no extended
  real, and the bias added and the maximum taken before the product are the same pointwise operations.  Reshaping a
  vector to one row and broadcasting it along a new unit axis give the same row (LibRowCast.lean).  So the two composed
  results agree on equal arguments.
-/
import proofs.«165181_j2379411882474_1_alg».proof.Proof.StagesK
import proofs.«165181_j2379411882474_1_alg».proof.Proof.StagesR
import proofs.«165181_j2379411882474_1_alg».proof.Proof.KernelValue
import proofs.«165181_j2379411882474_1_alg».proof.Proof.LibLayer
import proofs.«165181_j2379411882474_1_alg».proof.Proof.LibRowCast

set_option maxRecDepth 16384

noncomputable section

namespace Cert.Bridge

open Idealize.ShloMosaic Idealize.ShloMosaic.ValueIdx Idealize.ShloMosaic.TcCoe Idealize.SL.Sem

/-! ## The shared graph operations are the same functions -/

theorem src_eq (e : (⟨Cert.KernelIdeal.S2x800000, .i32⟩ : BufTy).Contents (Elt Ideal)) : Cert.KernelIdeal.Stages.src (F := Ideal) e = Cert.ReferenceIdeal.Stages.src (F := Ideal) e := rfl
theorem dst_eq (e : (⟨Cert.KernelIdeal.S2x800000, .i32⟩ : BufTy).Contents (Elt Ideal)) : Cert.KernelIdeal.Stages.dst (F := Ideal) e = Cert.ReferenceIdeal.Stages.dst (F := Ideal) e := rfl
theorem norm_eq (s : (⟨Cert.KernelIdeal.S850000, .i32⟩ : BufTy).Contents (Elt Ideal)) (d : (⟨Cert.KernelIdeal.S850000, .i32⟩ : BufTy).Contents (Elt Ideal)) :
    Cert.KernelIdeal.Stages.norm (F := Ideal) s d = Cert.ReferenceIdeal.Stages.norm (F := Ideal) s d := rfl
theorem agg1_eq (h : (⟨Cert.KernelIdeal.S50000x64, .f32⟩ : BufTy).Contents (Elt Ideal)) (s : (⟨Cert.KernelIdeal.S850000, .i32⟩ : BufTy).Contents (Elt Ideal)) (d : (⟨Cert.KernelIdeal.S850000, .i32⟩ : BufTy).Contents (Elt Ideal)) (n : (⟨Cert.KernelIdeal.S850000, .f32⟩ : BufTy).Contents (Elt Ideal)) :
    Cert.KernelIdeal.Stages.agg1 (F := Ideal) h s d n = Cert.ReferenceIdeal.Stages.agg1 (F := Ideal) h s d n := rfl
theorem agg2_eq (h : (⟨Cert.KernelIdeal.S50000x64, .f32⟩ : BufTy).Contents (Elt Ideal)) (s : (⟨Cert.KernelIdeal.S850000, .i32⟩ : BufTy).Contents (Elt Ideal)) (d : (⟨Cert.KernelIdeal.S850000, .i32⟩ : BufTy).Contents (Elt Ideal)) (n : (⟨Cert.KernelIdeal.S850000, .f32⟩ : BufTy).Contents (Elt Ideal)) :
    Cert.KernelIdeal.Stages.agg2 (F := Ideal) h s d n = Cert.ReferenceIdeal.Stages.agg2 (F := Ideal) h s d n := rfl
theorem agg3_eq (h : (⟨Cert.KernelIdeal.S50000x64, .f32⟩ : BufTy).Contents (Elt Ideal)) (s : (⟨Cert.KernelIdeal.S850000, .i32⟩ : BufTy).Contents (Elt Ideal)) (d : (⟨Cert.KernelIdeal.S850000, .i32⟩ : BufTy).Contents (Elt Ideal)) (n : (⟨Cert.KernelIdeal.S850000, .f32⟩ : BufTy).Contents (Elt Ideal)) :
    Cert.KernelIdeal.Stages.agg3 (F := Ideal) h s d n = Cert.ReferenceIdeal.Stages.agg3 (F := Ideal) h s d n := rfl
theorem agg4_eq (h : (⟨Cert.KernelIdeal.S50000x64, .f32⟩ : BufTy).Contents (Elt Ideal)) (s : (⟨Cert.KernelIdeal.S850000, .i32⟩ : BufTy).Contents (Elt Ideal)) (d : (⟨Cert.KernelIdeal.S850000, .i32⟩ : BufTy).Contents (Elt Ideal)) (n : (⟨Cert.KernelIdeal.S850000, .f32⟩ : BufTy).Contents (Elt Ideal)) :
    Cert.KernelIdeal.Stages.agg4 (F := Ideal) h s d n = Cert.ReferenceIdeal.Stages.agg4 (F := Ideal) h s d n := rfl
theorem outCore_eq (h : (⟨Cert.KernelIdeal.S50000x1, .f32⟩ : BufTy).Contents (Elt Ideal)) (s : (⟨Cert.KernelIdeal.S850000, .i32⟩ : BufTy).Contents (Elt Ideal)) (d : (⟨Cert.KernelIdeal.S850000, .i32⟩ : BufTy).Contents (Elt Ideal)) (n : (⟨Cert.KernelIdeal.S850000, .f32⟩ : BufTy).Contents (Elt Ideal)) (r : (⟨Cert.KernelIdeal.S1x1, .f32⟩ : BufTy).Contents (Elt Ideal)) :
    Cert.KernelIdeal.Stages.outCore (F := Ideal) h s d n r = Cert.ReferenceIdeal.Stages.outCore (F := Ideal) h s d n r := rfl

/-- The output bias as a 1×1 matrix: reshaped in one program, broadcast in the other. -/
theorem brow_eq (b : (⟨Cert.KernelIdeal.S1, .f32⟩ : BufTy).Contents (Elt Ideal)) : Cert.KernelIdeal.Stages.brow (F := Ideal) b = Cert.ReferenceIdeal.Stages.brow (F := Ideal) b :=
  Cert.LibRowCast.row_cast_eq _ _ b

theorem out_eq (h : (⟨Cert.KernelIdeal.S50000x1, .f32⟩ : BufTy).Contents (Elt Ideal)) (s : (⟨Cert.KernelIdeal.S850000, .i32⟩ : BufTy).Contents (Elt Ideal)) (d : (⟨Cert.KernelIdeal.S850000, .i32⟩ : BufTy).Contents (Elt Ideal)) (n : (⟨Cert.KernelIdeal.S850000, .f32⟩ : BufTy).Contents (Elt Ideal)) (b : (⟨Cert.KernelIdeal.S1, .f32⟩ : BufTy).Contents (Elt Ideal)) :
    Cert.KernelIdeal.Stages.out (F := Ideal) h s d n b = Cert.ReferenceIdeal.Stages.out (F := Ideal) h s d n b := by
  rw [Cert.KernelIdeal.Stages.out_eq_core, Cert.ReferenceIdeal.Stages.out_eq_core, brow_eq, outCore_eq]

/-! ## The layers -/

/-- The first launch's bias row is zero. -/
theorem zrow_apply (j : Cert.KernelIdeal.S1x4.Idx) : Cert.KernelIdeal.Stages.zrow (F := Ideal) j = 0 := by
  unfold Cert.KernelIdeal.Stages.zrow
  refine (broadcastInDim_apply _ _ _ j ix0 (fun a => a.elim0)).trans ?_
  exact (constant_apply _ _).trans Ideal.ofBits_zero_f32

/-- The reference's input projection is the first launch's affine layer at the zero bias row. -/
theorem lin0_eq (x : (⟨Cert.KernelIdeal.S50000x4, .f32⟩ : BufTy).Contents (Elt Ideal)) (w : (⟨Cert.KernelIdeal.S4x64, .f32⟩ : BufTy).Contents (Elt Ideal)) :
    Cert.ReferenceIdeal.Stages.lin0 (F := Ideal) x w = Cert.LibLayer.affine (n := 50000) (k := 4) (p := 64) x (Cert.KernelIdeal.Stages.zrow (F := Ideal)) w :=
  Cert.LibLayer.host_product_eq_affine_zero _ x _ w zrow_apply

/-- The reference's hidden layer 1 is the second launch's rectified layer. -/
theorem lin1_eq (a : (⟨Cert.KernelIdeal.S50000x64, .f32⟩ : BufTy).Contents (Elt Ideal)) (b : (⟨Cert.KernelIdeal.S64, .f32⟩ : BufTy).Contents (Elt Ideal)) (w : (⟨Cert.KernelIdeal.S3x64x64, .f32⟩ : BufTy).Contents (Elt Ideal)) :
    Cert.ReferenceIdeal.Stages.lin1 (F := Ideal) a b w = Cert.LibLayer.rectified (n := 50000) (k := 64) (p := 64) a (Cert.KernelIdeal.Stages.bias1 b) (Cert.KernelIdeal.Stages.w1 w) := by
  refine (Cert.LibLayer.host_rectified _ _ _ a _ _).trans ?_
  refine congrArg₂ (fun z y => Cert.LibLayer.rectified (n := 50000) (k := 64) (p := 64) a z y) ?_ ?_
  · exact (Cert.LibRowCast.row_cast_eq _ _ _).symm
  · rfl

/-- The reference's hidden layer 2 is launch 2's rectified layer. -/
theorem lin2_eq (a : (⟨Cert.KernelIdeal.S50000x64, .f32⟩ : BufTy).Contents (Elt Ideal)) (b : (⟨Cert.KernelIdeal.S3x64, .f32⟩ : BufTy).Contents (Elt Ideal)) (w : (⟨Cert.KernelIdeal.S3x64x64, .f32⟩ : BufTy).Contents (Elt Ideal)) :
    Cert.ReferenceIdeal.Stages.lin2 (F := Ideal) a b w = Cert.LibLayer.rectified (n := 50000) (k := 64) (p := 64) a (Cert.KernelIdeal.Stages.bias2 b) (Cert.KernelIdeal.Stages.w2 w) := by
  refine (Cert.LibLayer.host_rectified _ _ _ a _ _).trans ?_
  refine congrArg₂ (fun z y => Cert.LibLayer.rectified (n := 50000) (k := 64) (p := 64) a z y) ?_ ?_
  · exact (Cert.LibRowCast.row_cast_eq _ _ _).symm
  · rfl

/-- The reference's hidden layer 3 is launch 3's rectified layer. -/
theorem lin3_eq (a : (⟨Cert.KernelIdeal.S50000x64, .f32⟩ : BufTy).Contents (Elt Ideal)) (b : (⟨Cert.KernelIdeal.S3x64, .f32⟩ : BufTy).Contents (Elt Ideal)) (w : (⟨Cert.KernelIdeal.S3x64x64, .f32⟩ : BufTy).Contents (Elt Ideal)) :
    Cert.ReferenceIdeal.Stages.lin3 (F := Ideal) a b w = Cert.LibLayer.rectified (n := 50000) (k := 64) (p := 64) a (Cert.KernelIdeal.Stages.bias3 b) (Cert.KernelIdeal.Stages.w3 w) := by
  refine (Cert.LibLayer.host_rectified _ _ _ a _ _).trans ?_
  refine congrArg₂ (fun z y => Cert.LibLayer.rectified (n := 50000) (k := 64) (p := 64) a z y) ?_ ?_
  · exact (Cert.LibRowCast.row_cast_eq _ _ _).symm
  · rfl

/-- The reference's output projection is the last launch's rectified layer, one column wide. -/
theorem lin4_eq (a : (⟨Cert.KernelIdeal.S50000x64, .f32⟩ : BufTy).Contents (Elt Ideal)) (b : (⟨Cert.KernelIdeal.S3x64, .f32⟩ : BufTy).Contents (Elt Ideal)) (w : (⟨Cert.KernelIdeal.S64x1, .f32⟩ : BufTy).Contents (Elt Ideal)) :
    Cert.ReferenceIdeal.Stages.lin4 (F := Ideal) a b w = Cert.LibLayer.rectified (n := 50000) (k := 64) (p := 1) a (Cert.KernelIdeal.Stages.bias4 b) w := by
  refine (Cert.LibLayer.host_rectified _ _ _ a _ _).trans ?_
  refine congrArg₂ (fun z y => Cert.LibLayer.rectified (n := 50000) (k := 64) (p := 1) a z y) ?_ ?_
  · exact (Cert.LibRowCast.row_cast_eq _ _ _).symm
  · rfl

/-! ## The compositions -/

/-- The kernel program's composition of launches and aggregations is the reference's composition of its stages. -/
theorem compose_eq (x : (⟨Cert.KernelIdeal.S50000x4, .f32⟩ : BufTy).Contents (Elt Ideal)) (e : (⟨Cert.KernelIdeal.S2x800000, .i32⟩ : BufTy).Contents (Elt Ideal)) (wi : (⟨Cert.KernelIdeal.S4x64, .f32⟩ : BufTy).Contents (Elt Ideal))
    (bi : (⟨Cert.KernelIdeal.S64, .f32⟩ : BufTy).Contents (Elt Ideal)) (wh : (⟨Cert.KernelIdeal.S3x64x64, .f32⟩ : BufTy).Contents (Elt Ideal)) (bh : (⟨Cert.KernelIdeal.S3x64, .f32⟩ : BufTy).Contents (Elt Ideal))
    (wo : (⟨Cert.KernelIdeal.S64x1, .f32⟩ : BufTy).Contents (Elt Ideal)) (bo : (⟨Cert.KernelIdeal.S1, .f32⟩ : BufTy).Contents (Elt Ideal)) :
    Cert.KernelIdeal.Stages.out (Cert.LibLayer.rectified (n := 50000) (k := 64) (p := 1) (Cert.KernelIdeal.Stages.agg4 (Cert.LibLayer.rectified (n := 50000) (k := 64) (p := 64) (Cert.KernelIdeal.Stages.agg3 (Cert.LibLayer.rectified (n := 50000) (k := 64) (p := 64) (Cert.KernelIdeal.Stages.agg2 (Cert.LibLayer.rectified (n := 50000) (k := 64) (p := 64) (Cert.KernelIdeal.Stages.agg1 (Cert.LibLayer.affine (n := 50000) (k := 4) (p := 64) x (Cert.KernelIdeal.Stages.zrow (F := Ideal)) wi) (Cert.KernelIdeal.Stages.src e) (Cert.KernelIdeal.Stages.dst e) (Cert.KernelIdeal.Stages.norm (Cert.KernelIdeal.Stages.src e) (Cert.KernelIdeal.Stages.dst e))) (Cert.KernelIdeal.Stages.bias1 bi) (Cert.KernelIdeal.Stages.w1 wh)) (Cert.KernelIdeal.Stages.src e) (Cert.KernelIdeal.Stages.dst e) (Cert.KernelIdeal.Stages.norm (Cert.KernelIdeal.Stages.src e) (Cert.KernelIdeal.Stages.dst e))) (Cert.KernelIdeal.Stages.bias2 bh) (Cert.KernelIdeal.Stages.w2 wh)) (Cert.KernelIdeal.Stages.src e) (Cert.KernelIdeal.Stages.dst e) (Cert.KernelIdeal.Stages.norm (Cert.KernelIdeal.Stages.src e) (Cert.KernelIdeal.Stages.dst e))) (Cert.KernelIdeal.Stages.bias3 bh) (Cert.KernelIdeal.Stages.w3 wh)) (Cert.KernelIdeal.Stages.src e) (Cert.KernelIdeal.Stages.dst e) (Cert.KernelIdeal.Stages.norm (Cert.KernelIdeal.Stages.src e) (Cert.KernelIdeal.Stages.dst e))) (Cert.KernelIdeal.Stages.bias4 bh) wo) (Cert.KernelIdeal.Stages.src e) (Cert.KernelIdeal.Stages.dst e) (Cert.KernelIdeal.Stages.norm (Cert.KernelIdeal.Stages.src e) (Cert.KernelIdeal.Stages.dst e)) bo
      = Cert.ReferenceIdeal.Stages.value (F := Ideal) x e wi bi wh bh wo bo := by
  unfold Cert.ReferenceIdeal.Stages.value
  rw [← src_eq, ← dst_eq, ← norm_eq, lin0_eq, ← agg1_eq, lin1_eq, ← agg2_eq, lin2_eq, ← agg3_eq, lin3_eq,
    ← agg4_eq, lin4_eq, ← out_eq]

/-- The kernel program's result, followed through its eleven boundaries, is the reference's stages composed on the
    kernel program's argument arrays. -/
theorem result_eq (m : (ℓ : Loc Cert.KernelIdeal.nD Cert.KernelIdeal.τ Cert.KernelIdeal.sig) → Buf (Elt Ideal) ℓ)
    (c : Dev Cert.KernelIdeal.nD) :
    Cert.KernelIdeal.Chain.result m c
      = Cert.ReferenceIdeal.Stages.value (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  unfold Cert.KernelIdeal.Chain.result Cert.KernelIdeal.Chain.h4 Cert.KernelIdeal.Chain.a4 Cert.KernelIdeal.Chain.h3
    Cert.KernelIdeal.Chain.a3 Cert.KernelIdeal.Chain.h2 Cert.KernelIdeal.Chain.a2 Cert.KernelIdeal.Chain.h1
    Cert.KernelIdeal.Chain.a1 Cert.KernelIdeal.Chain.h0 Cert.KernelIdeal.Chain.nV Cert.KernelIdeal.Chain.sV
    Cert.KernelIdeal.Chain.dV
  exact compose_eq _ _ _ _ _ _ _ _

end Cert.Bridge

end
-- ==== Proof.lean ====
/-
  The certificate: a five-layer graph convolution network, its kernel program against its reference.

  Both programs compute, for 50000 nodes and 800000 edges with a self loop added per node, five rounds of
  "apply a layer, then aggregate along the edges with the symmetric degree weights", ending with the output bias.  The
  kernel program applies each layer in a launch of one fused kernel — bias, (except in the first round) maximum with
  zero, change of float format, matrix product, ten row blocks of 5000 rows — and places the bias and the
  rectification of a round BEFORE the next round's product; the reference applies them AFTER each aggregation.  Read
  as one composition the two are the same sequence of operations.  At the exact instance the change of float format is
  the identity, the first launch's zero bias adds nothing, and the matrix products are the same sums, so the two
  results are equal, entry by entry, on equal arguments.

  The three frames: the two kernel programs' are the generated frame certificates, the reference's is its generated run
  with the result dropped.  The ideal pass rewrote nothing, so the idealization claim is trivial.  The algebraic claim
  reads the kernel program's result off its run (KernelRun.lean, KernelValue.lean), the reference's off its generated
  run (StagesR.lean), and joins them (Bridge.lean).
-/
import proofs.«165181_j2379411882474_1_alg».proof.Defs
import proofs.«165181_j2379411882474_1_alg».proof.Proof.Gen.Kernel
import proofs.«165181_j2379411882474_1_alg».proof.Proof.Gen.Kernel.Skeleton
import proofs.«165181_j2379411882474_1_alg».proof.Proof.Gen.Kernel.Launch
import proofs.«165181_j2379411882474_1_alg».proof.Proof.Gen.Kernel.Points
import proofs.«165181_j2379411882474_1_alg».proof.Proof.Gen.Kernel.Frame
import proofs.«165181_j2379411882474_1_alg».proof.Proof.Gen.KernelIdeal
import proofs.«165181_j2379411882474_1_alg».proof.Proof.Gen.KernelIdeal.Skeleton
import proofs.«165181_j2379411882474_1_alg».proof.Proof.Gen.KernelIdeal.Launch
import proofs.«165181_j2379411882474_1_alg».proof.Proof.Gen.KernelIdeal.Points
import proofs.«165181_j2379411882474_1_alg».proof.Proof.Gen.KernelIdeal.Frame
import proofs.«165181_j2379411882474_1_alg».proof.Proof.Gen.ReferenceIdeal
import proofs.«165181_j2379411882474_1_alg».proof.Proof.Gen.ReferenceIdeal.Run
import proofs.«165181_j2379411882474_1_alg».proof.Proof.Gen.Pre_finite_inputs
import proofs.«165181_j2379411882474_1_alg».proof.Proof.KernelRun
import proofs.«165181_j2379411882474_1_alg».proof.Proof.KernelValue
import proofs.«165181_j2379411882474_1_alg».proof.Proof.StagesR
import proofs.«165181_j2379411882474_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- At the exact instance the kernel program ends with its result at the composition of its launches and
    aggregations, the reference with its result at the composition of its stages, and on equal arguments these are one
    array. -/
theorem algebraic : Cert.algebraic_KernelIdeal_ReferenceIdeal := by
  intro m ρ m' ρ' _ hagree
  refine ⟨fun c => Cert.KernelIdeal.Chain.result m c, ?_, ?_⟩
  · exact (θ_run Cert.KernelIdeal.defs _ _).mono
      (fun _ h c => ⟨(h c).1.trans (Cert.KernelIdeal.Chain.L11_main_v115 m ρ c), (h c).2⟩)
      (Cert.KernelIdeal.RunValue.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Stages.result_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact (Cert.Bridge.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
